-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v4)) (v3 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_v9) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_v10) = v2 c
          ∧ r.2.mem ((c.tc : Thread Cert.ReferenceIdeal.nD Cert.ReferenceIdeal.τ).loc Cert.ReferenceIdeal.main_v21) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg11 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg7 : FVec F S128 .f32) (main_arg8 : FVec F S128x128 .f32) (main_arg9 : FVec F S128 .f32) (main_arg10 : FVec F S128x128 .f32) (main_arg11 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_v48 main_v49 main_v50

def fn_part1 {F : FTy → Type} [FloatOps F] (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_v13 : IVec S_ 1) (main_v16 : IVec S10000x128 1) : IVec S_ 1 :=
  let main_c_5 : IVec S_ 1 := constantI S_ 1 1#1
  let main_v17 : IVec S_ 1 := (fun x v => Host.reduce IntOp.andi x v reducesTo_S10000x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S10000x10000 .f32) (main_arg1 : FVec F S10000x128 .f32) (main_arg2 : FVec F S10000x10000 .f32) (main_arg3 : FVec F S10000x128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S10000x10000 .f32 := Host.absf main_arg2
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  let main_v14 : FVec F S10000x128 .f32 := Host.absf main_arg3
  let main_cst_4 : FVec F S_ .f32 := constant S_ .f32 0x7F800000#32
  let main_v15 : FVec F S10000x128 .f32 := broadcastInDim S10000x128 ![] bcast_S_S10000x128 main_cst_4
  let main_v16 : IVec S10000x128 1 := cmpf .olt main_v14 main_v15
  fn_part1 (F := F) main_arg4 main_arg5 main_arg6 main_arg7 main_arg8 main_arg9 main_arg10 main_arg11 main_v13 main_v16
-- ==== Kernel.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S1x128 : Shape := ⟨2, ![1, 128]⟩
abbrev S2x10000x128 : Shape := ⟨3, ![2, 10000, 128]⟩
abbrev S400x10000 : Shape := ⟨2, ![400, 10000]⟩
abbrev S1x400x128 : Shape := ⟨3, ![1, 400, 128]⟩
abbrev S400x128 : Shape := ⟨2, ![400, 128]⟩
abbrev S1x10000x128 : Shape := ⟨3, ![1, 10000, 128]⟩

abbrev nBuf : Space → Nat
  | .hbm => 22
  | .vmem => 22
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S10000x10000, .f32⟩
  | .hbm, ⟨3, _⟩ => ⟨S10000x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S1x128, .f32⟩
  | .hbm, ⟨13, _⟩ => ⟨S1x128, .f32⟩
  | .hbm, ⟨14, _⟩ => ⟨S2x10000x128, .f32⟩
  | .hbm, ⟨15, _⟩ => ⟨S1x10000x128, .f32⟩
  | .hbm, ⟨16, _⟩ => ⟨S10000x128, .f32⟩
  | .hbm, ⟨17, _⟩ => ⟨S1x128, .f32⟩
  | .hbm, ⟨18, _⟩ => ⟨S1x128, .f32⟩
  | .hbm, ⟨19, _⟩ => ⟨S2x10000x128, .f32⟩
  | .hbm, ⟨20, _⟩ => ⟨S1x10000x128, .f32⟩
  | .hbm, ⟨21, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S128x128, .f32⟩
  | .local _ .vmem, ⟨6, _⟩ => ⟨S1x128, .f32⟩
  | .local _ .vmem, ⟨7, _⟩ => ⟨S1x400x128, .f32⟩
  | .local _ .vmem, ⟨8, _⟩ => ⟨S1x400x128, .f32⟩
  | .local _ .vmem, ⟨9, _⟩ => ⟨S10000x128, .f32⟩
  | .local _ .vmem, ⟨10, _⟩ => ⟨S10000x128, .f32⟩
  | .local _ .vmem, ⟨11, _⟩ => ⟨S400x10000, .f32⟩
  | .local _ .vmem, ⟨12, _⟩ => ⟨S400x10000, .f32⟩
  | .local _ .vmem, ⟨13, _⟩ => ⟨S10000x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S1x400x128, .f32⟩
  | .local _ .vmem, ⟨19, _⟩ => ⟨S1x400x128, .f32⟩
  | .local _ .vmem, ⟨20, _⟩ => ⟨S10000x128, .f32⟩
  | .local _ .vmem, ⟨21, _⟩ => ⟨S10000x128, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc1_scratch0 : Ref sig .tc := ⟨.vmem, 20, rfl⟩
abbrev cc1_scratch1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) : Fin 2 → Nat :=
  let arg1 : BitVec 32 := BitVec.ofNat 32 (i 1).val
  let c400_i32 : BitVec 32 := 400#32
  let v22 : BitVec 32 := Scalar.muli arg1 c400_i32
  let v23 : Index := Scalar.indexCast v22
  let c0_14 : Index := 0#32
  ![v23.toNat, 0]
def k0_cond3 (i : grid0.Coords) : BitVec 1 :=
  let arg0 : BitVec 32 := BitVec.ofNat 32 (i 0).val
  let c1_i32 : BitVec 32 := 1#32
  let v8 : BitVec 1 := Scalar.cmpi .eq arg0 c1_i32
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x400x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![2, 25], ![false, false]⟩

def k1_cond2 (i : grid1.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k1_off1 (i : grid1.Coords) : Fin 2 → Nat :=
  let arg1 : BitVec 32 := BitVec.ofNat 32 (i 1).val
  let c400_i32 : BitVec 32 := 400#32
  let v22 : BitVec 32 := Scalar.muli arg1 c400_i32
  let v23 : Index := Scalar.indexCast v22
  let c0_14 : Index := 0#32
  ![v23.toNat, 0]
def k1_cond3 (i : grid1.Coords) : BitVec 1 :=
  let arg0 : BitVec 32 := BitVec.ofNat 32 (i 0).val
  let c1_i32 : BitVec 32 := 1#32
  let v8 : BitVec 1 := Scalar.cmpi .eq arg0 c1_i32
  let v9 : BitVec 32 := Scalar.extui v8
  let c0_i32_4 : BitVec 32 := 0#32
  let v10 : BitVec 1 := Scalar.cmpi .ne v9 c0_i32_4
  v10

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x400x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S400x10000_S400x10000_0_0 : ∀ a, (![0, 0] : Fin 2 → Nat) a + S400x10000.size a ≤ S400x10000.size a
  h_S400x10000 : 0 < S400x10000.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  h_S400x128 : 0 < S400x128.numel
  shapeCasts_S400x128_S400x128 : S400x128.ShapeCasts S400x128
  inb_S1x400x128_S1x400x128_0_0_0 : ∀ a, (![0, 0, 0] : Fin 3 → Nat) a + S1x400x128.size a ≤ S1x400x128.size a
  h_S1x400x128 : 0 < S1x400x128.numel
  shapeCasts_S1x400x128_S400x128 : S1x400x128.ShapeCasts S400x128
  shapeCasts_S400x128_S1x400x128 : S400x128.ShapeCasts S1x400x128
  slices_S2x10000x128_S1x10000x128_1_0_0 : S2x10000x128.Slices ![1, 0, 0] S1x10000x128
  shapeCasts_S1x10000x128_S10000x128 : S1x10000x128.ShapeCasts S10000x128
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  k0_off1_inb : ∀ i : grid0.Coords, ∀ (k0_h2 : k0_cond2 i = 1#1), ∀ a, (k0_off1 i) a + S400x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x400x128.size a ≤ S2x10000x128.size a
  hwx0_6 : ∀ i : grid0.Coords, EltTy.bits .f32 = 32 ∨ (Rect.block (s := S2x10000x128) S1x400x128.size (cc0_transform_6 i) (hinb0_6 i)).WholeWords (EltTy.packing .f32)
  hrank1 : 0 < grid1.rank
  k1_off1_inb : ∀ i : grid1.Coords, ∀ (k1_h2 : k1_cond2 i = 1#1), ∀ a, (k1_off1 i) a + S400x128.size a ≤ S10000x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .f32 = 32 ∨ (Rect.block (s := S10000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x400x128.size a ≤ S2x10000x128.size a
  hwx1_6 : ∀ i : grid1.Coords, EltTy.bits .f32 = 32 ∨ (Rect.block (s := S2x10000x128) S1x400x128.size (cc1_transform_6 i) (hinb1_6 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg0) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x400x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) && !(k0_cond3 i == 1#1) | ⟨_ + 7, h⟩ => absurd h (Nat.not_lt.2 (Nat.le_add_left _ _))

abbrev win1_0 : Pipeline.Window sig grid1 :=
  Pipeline.Window.ofSpec (Memref.whole main_arg2) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v7) S1x400x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) && !(k1_cond3 i == 1#1) | ⟨_ + 7, h⟩ => absurd h (Nat.not_lt.2 (Nat.le_add_left _ _))

class Facts : Prop extends Facts₀ where

variable [Facts]
-- ==== ReferenceIdeal.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S10000x10000, .f32⟩
  | .hbm, ⟨3, _⟩ => ⟨S10000x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S10000x128, .f32⟩
  | .hbm, ⟨13, _⟩ => ⟨S10000x128, .f32⟩
  | .hbm, ⟨14, _⟩ => ⟨S1x128, .f32⟩
  | .hbm, ⟨15, _⟩ => ⟨S10000x128, .f32⟩
  | .hbm, ⟨16, _⟩ => ⟨S10000x128, .f32⟩
  | .hbm, ⟨17, _⟩ => ⟨S_, .f32⟩
  | .hbm, ⟨18, _⟩ => ⟨S10000x128, .f32⟩
  | .hbm, ⟨19, _⟩ => ⟨S10000x128, .f32⟩
  | .hbm, ⟨20, _⟩ => ⟨S10000x128, .f32⟩
  | .hbm, ⟨21, _⟩ => ⟨S10000x128, .f32⟩
  | .hbm, ⟨22, _⟩ => ⟨S1x128, .f32⟩
  | .hbm, ⟨23, _⟩ => ⟨S10000x128, .f32⟩
  | .hbm, ⟨24, _⟩ => ⟨S10000x128, .f32⟩
  | .hbm, ⟨25, _⟩ => ⟨S10000x128, .f32⟩
  | .hbm, ⟨26, _⟩ => ⟨S10000x128, .f32⟩
  | .hbm, ⟨27, _⟩ => ⟨S1x128, .f32⟩
  | .hbm, ⟨28, _⟩ => ⟨S10000x128, .f32⟩
  | .hbm, ⟨29, _⟩ => ⟨S10000x128, .f32⟩
  | .hbm, ⟨30, _⟩ => ⟨S_, .f32⟩
  | .hbm, ⟨31, _⟩ => ⟨S10000x128, .f32⟩
  | .hbm, ⟨32, _⟩ => ⟨S10000x128, .f32⟩
  | .hbm, ⟨33, _⟩ => ⟨S10000x128, .f32⟩
  | .hbm, ⟨34, _⟩ => ⟨S10000x128, .f32⟩
  | .hbm, ⟨35, _⟩ => ⟨S1x128, .f32⟩
  | .hbm, ⟨36, _⟩ => ⟨S10000x128, .f32⟩
  | .hbm, ⟨37, _⟩ => ⟨S10000x128, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call0_cst : Ref sig .tc := ⟨.hbm, 17, rfl⟩
abbrev main_call0_v0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_call1_cst : Ref sig .tc := ⟨.hbm, 30, rfl⟩
abbrev main_call1_v0 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.KR0Defs.lean ====
/-
  The first graph's two-layer convolution as one region, at a parameter `V`: the core's buffer contents when
  the region is entered. The grid has 50 points: point t < 25 is phase 0 at row block t, point t ≥ 25 is phase 1
  at row block t - 25. Stated here: the arrays the region reads as whole-array functions; the support
  S1 = X · W1; the hidden product H2 = relu (Adj · S1 + b1) · W2, row block by row block; what each point leaves
  in the output window's staging buffer; the invariant carried between points (the first scratch holds S1, the
  second agrees with H2 on the rows already written); and the proof data over them.
-/
import proofs.«103924_g73796128079920_cont_9to1c4b_223_14_alg».proof.Proof.Gen.Kernel.Launch
import proofs.«103924_g73796128079920_cont_9to1c4b_223_14_alg».proof.Proof.Gen.Kernel.Skeleton
import proofs.«103924_g73796128079920_cont_9to1c4b_223_14_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The arrays the region reads -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency matrix, the features, the two weight matrices and the two bias rows, whole. -/
abbrev Adj (c : Dev nD) : Vec F S10000x10000 .f32 := V c main_arg0
abbrev Xf (c : Dev nD) : Vec F S10000x128 .f32 := V c main_arg1
abbrev W1 (c : Dev nD) : Vec F S128x128 .f32 := V c main_arg4
abbrev B1 (c : Dev nD) : Vec F S1x128 .f32 := V c main_v0
abbrev W2 (c : Dev nD) : Vec F S128x128 .f32 := V c main_arg6
abbrev B2 (c : Dev nD) : Vec F S1x128 .f32 := V c main_v1

/-- Row `400 · (m mod 25) + a` of a 10000-row array is a row. -/
theorem row_lt (m : ℕ) (a : Fin 400) : 400 * (m % 25) + a.val < 10000 := by
  have := Nat.mod_lt m (by decide : 0 < 25); omega

/-- Rows `400 m … 400 m + 399` of the adjacency matrix (row blocks are taken mod 25). -/
def AdjBlk (c : Dev nD) (m : ℕ) : Vec F S400x10000 .f32 :=
  fun y => Adj V c (fun a => match a with
    | ⟨0, _⟩ => (⟨400 * (m % 25) + (y 0).val, row_lt m (y 0)⟩ : Fin 10000)
    | ⟨1, _⟩ => (y 1 : Fin 10000))

/-- The support of the first layer: features times first weights. -/
def S1 (c : Dev nD) : Vec F S10000x128 .f32 := k0_pay1 (Xf V c) (W1 V c)

/-- Row block `m` of the hidden product: relu (block · S1 + b1) · W2. -/
def H2blk (c : Dev nD) (m : ℕ) : Vec F S400x128 .f32 := k0_pay3 (AdjBlk V c m) (S1 V c) (B1 V c) (W2 V c)

/-- The hidden product, whole: row r is row r mod 400 of block r / 400. -/
def H2 (c : Dev nD) : Vec F S10000x128 .f32 :=
  fun i => H2blk V c ((i 0).val / 400) (fun a => match a with
    | ⟨0, _⟩ => (⟨(i 0).val % 400, Nat.mod_lt _ (by decide)⟩ : Fin 400)
    | ⟨1, _⟩ => (i 1 : Fin 128))

/-- What point `t` leaves in the output window's staging buffer: in phase 0 the hidden block, in phase 1 the
    block of the result. -/
def outAt (c : Dev nD) (t : Fin cfg0.N) : Vec F S1x400x128 .f32 :=
  if t.val < 25 then k0_pay4 (AdjBlk V c t.val) (S1 V c) (B1 V c) (W2 V c)
  else k0_pay5 (AdjBlk V c t.val) (H2 V c) (B2 V c)

/-! ## An input window's staging buffer holds its block at every point, fetched there or not

The index of an input window does not move between two fetches, so the block the previous fetch brought is the
block of this point. -/

theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The two scratch buffers and the region's invariant -/

/-- The scratch that holds the support, and the scratch that is filled with the hidden product one row block
    per point of phase 0. -/
abbrev scA : Memref sig .tc .vmem S10000x128 .f32 := Memref.whole cc0_scratch0
abbrev scB : Memref sig .tc .vmem S10000x128 .f32 := Memref.whole cc0_scratch1

/-- The rows below `400 · n` of `f` are the hidden product's. From `n = 25` on that is every row. -/
def Agree (c : Dev nD) (n : ℕ) (f : Vec F S10000x128 .f32) : Prop :=
  ∀ i : S10000x128.Idx, (i 0).val < 400 * n → f i = H2 V c i

/-- The other scoped buffers of the core, unopened. -/
abbrev restBut (c : Dev nD) : sProp 𝕄 :=
  Pipeline.scopedRestBut (Ix := Unit) (Name := ℕ) (U := UR sig nD τ) (Lvl := ℕ) (Val := Elt F) spec0 c [cc0_scratch0, cc0_scratch1]

/-- Before the first point every scoped buffer holds anything. After `n ≥ 1` points the first scratch holds the
    support and the second agrees with the hidden product on its first `400 · n` rows. -/
def Phi (c : Dev nD) : ℕ → sProp 𝕄
  | 0 => Pipeline.ΦA spec0 c
  | n + 1 => iprop(owns (c : Thread nD τ) scA fullShare (S1 V c)
      ∗ (∃ f, owns (c : Thread nD τ) scB fullShare f ∗ ⌜Agree V c (n + 1) f⌝)
      ∗ restBut c ∗ ∃ r, prngReg c r)

/-! ## The proof data -/

/-- The arrays as the region finds them; each input's buffer left at its block; the output's at `outAt`; the
    invariant `Phi`; nothing owed, full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => outAt V c t
  Φ t := Phi V c t.val
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = iblk V c 5 t := by dsimp only [dat]
theorem after_6 (c : Dev nD) (t : Fin cfg0.N) : (dat V c).after 6 t = outAt V c t := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d
theorem before_3 (c : Dev nD) (t : Fin cfg0.N) (d) : (dat V c).before 3 t d = iblk V c 3 t :=
  before_3_of V (dat V c) (A_eq V c 3) (after_3 V c) t d
theorem before_4 (c : Dev nD) (t : Fin cfg0.N) (d) : (dat V c).before 4 t d = iblk V c 4 t :=
  before_4_of V (dat V c) (A_eq V c 4) (after_4 V c) t d
theorem before_5 (c : Dev nD) (t : Fin cfg0.N) (d) : (dat V c).before 5 t d = iblk V c 5 t :=
  before_5_of V (dat V c) (A_eq V c 5) (after_5 V c) t d

theorem Phi_at (c : Dev nD) (t : Fin (cfg0.N + 1)) : (dat V c).Φ t = Phi V c t.val := by dsimp only [dat]

/-- What the launch hands the region is the invariant before the first point. -/
theorem hin (c : Dev nD) : Pipeline.ΦA spec0 c ⊢ (dat V c).Φ 0 := by
  rw [Phi_at]; exact Idealize.SL.BI.Entails.refl _

end Cert.Kernel.R0

end
-- ==== Proof.KR0Blocks.lean ====
/-
  Each input window's block, read off the array the region finds, as a function of that array: the adjacency
  window's block at point t is rows 400 · (t mod 25) … 400 · (t mod 25) + 399 of the adjacency matrix; the other
  five windows' blocks are their whole arrays.
-/
import proofs.«103924_g73796128079920_cont_9to1c4b_223_14_alg».proof.Proof.KR0Defs

set_option maxRecDepth 16384

noncomputable section

namespace Cert.Kernel.R0

open Idealize.ShloMosaic Idealize.ShloMosaic.TcCoe Idealize.ShloMosaic.Tactic
open Idealize.ShloMosaic.Pipeline (Dat Cfg Window BodyObligation cellOf)
open Cert.Kernel Cert.Kernel.Gen

variable {F : FTy → Type} [FloatOps F]

variable (V : (c : Dev nD) → (b : Ref sig .tc) → Buf (Elt F) ((c : Thread nD τ).loc b))

/-- The index maps of the six input windows, decided over the grid: the adjacency window's row block is the
    point's second coordinate, every other index is zero. -/
theorem idx_in : ∀ t : Fin cfg0.N, win0_0.index t (0 : Fin 2) = t.val % 25 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- The adjacency window's block at point t: rows 400 · (t mod 25) onward. -/
theorem iblk_0 (c : Dev nD) (t : Fin cfg0.N) : (iblk V c 0 t : Vec F S400x10000 .f32) = AdjBlk V c t.val := by
  obtain ⟨e0, e1, -⟩ := idx_in t
  funext y
  unfold iblk AdjBlk
  rw [View.read_apply]
  show V c main_arg0 (((cfg0.win 0).blk t).view.emb y) = V c main_arg0 _
  congr 1
  funext a
  apply Fin.ext
  match a with
  | ⟨0, _⟩ => show win0_0.index t (0 : Fin 2) * 400 + 1 * (y 0).val = 400 * (t.val % 25) + (y 0).val; rw [e0]; omega
  | ⟨1, _⟩ => show win0_0.index t (1 : Fin 2) * 10000 + 1 * (y 1).val = (y 1).val; rw [e1]; omega

/-- The features window's block is the whole array. -/
theorem iblk_1 (c : Dev nD) (t : Fin cfg0.N) : (iblk V c 1 t : Vec F S10000x128 .f32) = Xf V c := by
  obtain ⟨-, -, e0, e1, -⟩ := idx_in t
  funext y
  unfold iblk
  rw [View.read_apply]
  show V c main_arg1 (((cfg0.win 1).blk t).view.emb y) = V c main_arg1 y
  congr 1
  funext a
  apply Fin.ext
  match a with
  | ⟨0, _⟩ => show win0_1.index t (0 : Fin 2) * 10000 + 1 * (y 0).val = (y 0).val; rw [e0]; omega
  | ⟨1, _⟩ => show win0_1.index t (1 : Fin 2) * 128 + 1 * (y 1).val = (y 1).val; rw [e1]; omega

/-- The first weights' block is the whole array. -/
theorem iblk_2 (c : Dev nD) (t : Fin cfg0.N) : (iblk V c 2 t : Vec F S128x128 .f32) = W1 V c := by
  obtain ⟨-, -, -, -, e0, e1, -⟩ := idx_in t
  funext y
  unfold iblk
  rw [View.read_apply]
  show V c main_arg4 (((cfg0.win 2).blk t).view.emb y) = V c main_arg4 y
  congr 1
  funext a
  apply Fin.ext
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

/-- The first bias row's block is the whole array. -/
theorem iblk_3 (c : Dev nD) (t : Fin cfg0.N) : (iblk V c 3 t : Vec F S1x128 .f32) = B1 V c := by
  obtain ⟨-, -, -, -, -, -, e0, e1, -⟩ := idx_in t
  funext y
  unfold iblk
  rw [View.read_apply]
  show V c main_v0 (((cfg0.win 3).blk t).view.emb y) = V c main_v0 y
  congr 1
  funext a
  apply Fin.ext
  match a with
  | ⟨0, _⟩ => show win0_3.index t (0 : Fin 2) * 1 + 1 * (y 0).val = (y 0).val; rw [e0]; omega
  | ⟨1, _⟩ => show win0_3.index t (1 : Fin 2) * 128 + 1 * (y 1).val = (y 1).val; rw [e1]; omega

/-- The second weights' block is the whole array. -/
theorem iblk_4 (c : Dev nD) (t : Fin cfg0.N) : (iblk V c 4 t : Vec F S128x128 .f32) = W2 V c := by
  obtain ⟨-, -, -, -, -, -, -, -, e0, e1, -⟩ := idx_in t
  funext y
  unfold iblk
  rw [View.read_apply]
  show V c main_arg6 (((cfg0.win 4).blk t).view.emb y) = V c main_arg6 y
  congr 1
  funext a
  apply Fin.ext
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

/-- The second bias row's block is the whole array. -/
theorem iblk_5 (c : Dev nD) (t : Fin cfg0.N) : (iblk V c 5 t : Vec F S1x128 .f32) = B2 V c := by
  obtain ⟨-, -, -, -, -, -, -, -, -, -, e0, e1⟩ := idx_in t
  funext y
  unfold iblk
  rw [View.read_apply]
  show V c main_v1 (((cfg0.win 5).blk t).view.emb y) = V c main_v1 y
  congr 1
  funext a
  apply Fin.ext
  match a with
  | ⟨0, _⟩ => show win0_5.index t (0 : Fin 2) * 1 + 1 * (y 0).val = (y 0).val; rw [e0]; omega
  | ⟨1, _⟩ => show win0_5.index t (1 : Fin 2) * 128 + 1 * (y 1).val = (y 1).val; rw [e1]; omega

end Cert.Kernel.R0

end
-- ==== Proof.KR0Runs.lean ====
/-
  The kernel body of region 0 in each of its three cases, on whole staging and scratch memrefs: what it reads it
  leaves, and what it writes is the skeleton's payload of what it read. The three branch conditions are scalar
  chains over the grid coordinates: the first holds at the first point only, the second in phase 0, the third
  in phase 1.
-/
import proofs.«103924_g73796128079920_cont_9to1c4b_223_14_alg».proof.Proof.Gen.Kernel.Launch
import proofs.«103924_g73796128079920_cont_9to1c4b_223_14_alg».proof.Proof.Gen.Kernel.Skeleton
import proofs.«103924_g73796128079920_cont_9to1c4b_223_14_alg».proof.Proof.Gen.Kernel.Points
import proofs.«103924_g73796128079920_cont_9to1c4b_223_14_alg».proof.Proof.KR0Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.WritesUnit

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The three branch conditions, decided over the grid -/

/-- The first branch (store the support): taken at the first point only. -/
abbrev cond1 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The second branch (phase 0) and the third (phase 1). -/
abbrev cond2 (i : grid0.Coords) : Prop := k0_cond2 i = 1#1
abbrev cond3 (i : grid0.Coords) : Prop := k0_cond3 i = 1#1

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, cond2 (grid0.coords t) ↔ t.val < 25 :=
  (by decide +kernel : ∀ t : Fin grid0.N, cond2 (grid0.coords t) ↔ t.val < 25)
theorem hcond3 : ∀ t : Fin cfg0.N, cond3 (grid0.coords t) ↔ 25 ≤ t.val :=
  (by decide +kernel : ∀ t : Fin grid0.N, cond3 (grid0.coords t) ↔ 25 ≤ t.val)
/-- The row offset of the slice a phase-0 point stores: 400 times its row block. -/
theorem hoff : ∀ t : Fin cfg0.N, k0_off1 (grid0.coords t) = ![400 * (t.val % 25), 0] :=
  (by decide +kernel : ∀ t : Fin grid0.N, k0_off1 (grid0.coords t) = ![400 * (t.val % 25), 0])
/-- The output window is live at every point. -/
theorem live6 : ∀ t : Fin cfg0.N, cfg0.idle 6 (grid0.coords t) = false := by decide +kernel

theorem hz2 : (![0, 0] : Fin 2 → ℕ) = fun _ => 0 := by funext a; fin_cases a <;> rfl
theorem hz3 : (![0, 0, 0] : Fin 3 → ℕ) = fun _ => 0 := by funext a; fin_cases a <;> rfl

/-- A whole-rectangle store, alone, leaves its payload. -/
theorem read_whole_store {sh : Shape} {off : Fin sh.rank → ℕ} (hz : off = fun _ => 0) (inb : ∀ a, off a + sh.size a ≤ sh.size a)
    (M : Memref sig .tc .vmem sh .f32) (f : M.view.ty.Contents (Elt F)) (P : sh.Idx → Elt F .f32) :
    M.view.read (Elt F) (M.view.writes (Elt F) f [⟨Rect.unit off sh.size inb, P⟩]) = P :=
  (View.read_writes_eq_canon _ _ _ (fun y => ⟨_, List.mem_singleton_self _, View.mem_set_unit_zero hz inb y⟩)).trans
    (View.canon_unit_zero hz inb P)

set_option maxHeartbeats 4000000 in
/-- The first point: the body stores the support `x · w1` whole into the first scratch, reads it back, and then does
    what a phase-0 point does with it. -/
theorem run_A (c : Dev nD) (E : Set ℕ) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x400x128 .f32) (harg8 : arg8.IsWhole) (arg9 : Memref sig .tc .vmem S10000x128 .f32) (harg9 : arg9.IsWhole) (arg10 : Memref sig .tc .vmem S10000x128 .f32) (harg10 : arg10.IsWhole)
    (hc1 : cond1 i) (hc2 : cond2 i) (hc3 : ¬cond3 i)
    (a : Vec F S400x10000 .f32) (x : Vec F S10000x128 .f32) (w1 : Vec F S128x128 .f32) (b1 : Vec F S1x128 .f32) (w2 : Vec F S128x128 .f32) (d9 : Vec F S10000x128 .f32) (h : Vec F S10000x128 .f32)
    (K : PUnit → sProp 𝕄) :
    iprop(owns (c : Thread nD τ) arg2 fullShare a ∗ owns (c : Thread nD τ) arg3 fullShare x ∗ owns (c : Thread nD τ) arg4 fullShare w1 ∗ owns (c : Thread nD τ) arg5 fullShare b1 ∗ owns (c : Thread nD τ) arg6 fullShare w2
        ∗ (∃ d, owns (c : Thread nD τ) arg8 fullShare d) ∗ owns (c : Thread nD τ) arg9 fullShare d9 ∗ owns (c : Thread nD τ) arg10 fullShare h
        ∗ (iprop(owns (c : Thread nD τ) arg2 fullShare a ∗ owns (c : Thread nD τ) arg3 fullShare x ∗ owns (c : Thread nD τ) arg4 fullShare w1 ∗ owns (c : Thread nD τ) arg5 fullShare b1 ∗ owns (c : Thread nD τ) arg6 fullShare w2
            ∗ owns (c : Thread nD τ) arg8 fullShare (k0_pay4 a (k0_pay1 x w1) b1 w2) ∗ owns (c : Thread nD τ) arg9 fullShare (k0_pay1 x w1)
            ∗ owns (c : Thread nD τ) arg10 fullShare (arg10.view.read (Elt F) (arg10.view.writes (Elt F) (harg10.unread h)
                [⟨Rect.unit (s := S10000x128) (k0_off1 i) S400x128.size (k0_off1_inb i hc2), k0_pay3 a (k0_pay1 x w1) b1 w2⟩]))) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f2, %hf2, H2⟩, ⟨%f3, %hf3, H3⟩, ⟨%f4, %hf4, H4⟩, ⟨%f5, %hf5, H5⟩, ⟨%f6, %hf6, H6⟩, ⟨%d8, %f8, -, H8⟩, ⟨%f9, %hf9, H9⟩, ⟨%f10, %hf10, H10⟩, Hk⟩
  obtain rfl := harg2.eq_unread hf2; obtain rfl := harg3.eq_unread hf3; obtain rfl := harg4.eq_unread hf4; obtain rfl := harg5.eq_unread hf5; obtain rfl := harg6.eq_unread hf6
  obtain rfl := harg9.eq_unread hf9; obtain rfl := harg10.eq_unread hf10
  sl_exec (disch := first | exact hc1 | exact hc2 | exact hc3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H8]
  · iexists _; isplitr
    swap; · iexact H8
    ipureintro
    refine (read_whole_store hz3 _ arg8 _ _).trans ?_
    sl_unfold_run_names
    simp only [View.readCov_unit_zero (S := S10000x128) arg9.view hz2, View.readAt_eq_ld, harg2.read_unread, harg3.read_unread, harg4.read_unread, harg5.read_unread, harg6.read_unread, harg7.read_unread, harg9.read_unread, harg10.read_unread,
      View.ld_unit_zero (S := S400x10000) hz2, View.ld_unit_zero (S := S10000x128) hz2, View.ld_unit_zero (S := S1x128) hz2, View.ld_unit_zero (S := S128x128) hz2]
  isplitl [H9]
  · iexists _; isplitr
    swap; · iexact H9
    ipureintro
    sl_unfold_run_names
    refine (read_whole_store hz2 _ arg9 _ _).trans ?_
    simp only [View.readCov_unit_zero (S := S10000x128) arg9.view hz2, View.readAt_eq_ld, harg2.read_unread, harg3.read_unread, harg4.read_unread, harg5.read_unread, harg6.read_unread, harg7.read_unread, harg9.read_unread, harg10.read_unread,
      View.ld_unit_zero (S := S400x10000) hz2, View.ld_unit_zero (S := S10000x128) hz2, View.ld_unit_zero (S := S1x128) hz2, View.ld_unit_zero (S := S128x128) hz2]
  iexists _; isplitr
  swap; · iexact H10
  ipureintro
  sl_unfold_run_names
  simp only [View.readCov_unit_zero (S := S10000x128) arg9.view hz2, View.readAt_eq_ld, harg2.read_unread, harg3.read_unread, harg4.read_unread, harg5.read_unread, harg6.read_unread, harg7.read_unread, harg9.read_unread, harg10.read_unread,
      View.ld_unit_zero (S := S400x10000) hz2, View.ld_unit_zero (S := S10000x128) hz2, View.ld_unit_zero (S := S1x128) hz2, View.ld_unit_zero (S := S128x128) hz2]

set_option maxHeartbeats 4000000 in
/-- A phase-0 point that is not the first: from the adjacency block `a`, the support `s1`, the bias row and the second
    weights, the body writes the hidden block whole into the output buffer and into rows `k0_off1 i` of the second
    scratch, and leaves everything it read as it was. -/
theorem run_B (c : Dev nD) (E : Set ℕ) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x400x128 .f32) (harg8 : arg8.IsWhole) (arg9 : Memref sig .tc .vmem S10000x128 .f32) (harg9 : arg9.IsWhole) (arg10 : Memref sig .tc .vmem S10000x128 .f32) (harg10 : arg10.IsWhole)
    (hc1 : ¬cond1 i) (hc2 : cond2 i) (hc3 : ¬cond3 i)
    (a : Vec F S400x10000 .f32) (b1 : Vec F S1x128 .f32) (w2 : Vec F S128x128 .f32) (s1 : Vec F S10000x128 .f32) (h : Vec F S10000x128 .f32)
    (K : PUnit → sProp 𝕄) :
    iprop(owns (c : Thread nD τ) arg2 fullShare a ∗ owns (c : Thread nD τ) arg5 fullShare b1 ∗ owns (c : Thread nD τ) arg6 fullShare w2
        ∗ (∃ d, owns (c : Thread nD τ) arg8 fullShare d) ∗ owns (c : Thread nD τ) arg9 fullShare s1 ∗ owns (c : Thread nD τ) arg10 fullShare h
        ∗ (iprop(owns (c : Thread nD τ) arg2 fullShare a ∗ owns (c : Thread nD τ) arg5 fullShare b1 ∗ owns (c : Thread nD τ) arg6 fullShare w2
            ∗ owns (c : Thread nD τ) arg8 fullShare (k0_pay4 a s1 b1 w2) ∗ owns (c : Thread nD τ) arg9 fullShare s1
            ∗ owns (c : Thread nD τ) arg10 fullShare (arg10.view.read (Elt F) (arg10.view.writes (Elt F) (harg10.unread h)
                [⟨Rect.unit (s := S10000x128) (k0_off1 i) S400x128.size (k0_off1_inb i hc2), k0_pay3 a s1 b1 w2⟩]))) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f2, %hf2, H2⟩, ⟨%f5, %hf5, H5⟩, ⟨%f6, %hf6, H6⟩, ⟨%d8, %f8, -, H8⟩, ⟨%f9, %hf9, H9⟩, ⟨%f10, %hf10, H10⟩, Hk⟩
  obtain rfl := harg2.eq_unread hf2; obtain rfl := harg5.eq_unread hf5; obtain rfl := harg6.eq_unread hf6
  obtain rfl := harg9.eq_unread hf9; obtain rfl := harg10.eq_unread hf10
  sl_exec (disch := first | exact hc1 | exact hc2 | exact hc3)
  sl_step
  iapply Hk
  isplitl [H2]
  · iexists _; isplitr; · ipureintro; exact harg2.read_unread _
    iexact H2
  isplitl [H5]
  · iexists _; isplitr; · ipureintro; exact harg5.read_unread _
    iexact H5
  isplitl [H6]
  · iexists _; isplitr; · ipureintro; exact harg6.read_unread _
    iexact H6
  isplitl [H8]
  · iexists _; isplitr
    swap; · iexact H8
    ipureintro
    refine (read_whole_store hz3 _ arg8 _ _).trans ?_
    simp only [View.readAt_eq_ld, harg2.read_unread, harg3.read_unread, harg4.read_unread, harg5.read_unread, harg6.read_unread, harg7.read_unread, harg9.read_unread, harg10.read_unread,
      View.ld_unit_zero (S := S400x10000) hz2, View.ld_unit_zero (S := S10000x128) hz2, View.ld_unit_zero (S := S1x128) hz2, View.ld_unit_zero (S := S128x128) hz2]
  isplitl [H9]
  · iexists _; isplitr; · ipureintro; exact harg9.read_unread _
    iexact H9
  iexists _; isplitr
  swap; · iexact H10
  ipureintro
  simp only [View.readAt_eq_ld, harg2.read_unread, harg3.read_unread, harg4.read_unread, harg5.read_unread, harg6.read_unread, harg7.read_unread, harg9.read_unread, harg10.read_unread,
      View.ld_unit_zero (S := S400x10000) hz2, View.ld_unit_zero (S := S10000x128) hz2, View.ld_unit_zero (S := S1x128) hz2, View.ld_unit_zero (S := S128x128) hz2]

set_option maxHeartbeats 4000000 in
/-- A phase-1 point: from the adjacency block, the hidden product held whole in the second scratch and the second bias
    row, the body writes the block of the result into the output buffer and changes nothing else. -/
theorem run_C (c : Dev nD) (E : Set ℕ) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x400x128 .f32) (harg8 : arg8.IsWhole) (arg9 : Memref sig .tc .vmem S10000x128 .f32) (harg9 : arg9.IsWhole) (arg10 : Memref sig .tc .vmem S10000x128 .f32) (harg10 : arg10.IsWhole)
    (hc1 : ¬cond1 i) (hc2 : ¬cond2 i) (hc3 : cond3 i)
    (a : Vec F S400x10000 .f32) (b2 : Vec F S1x128 .f32) (h2 : Vec F S10000x128 .f32)
    (K : PUnit → sProp 𝕄) :
    iprop(owns (c : Thread nD τ) arg2 fullShare a ∗ owns (c : Thread nD τ) arg7 fullShare b2
        ∗ (∃ d, owns (c : Thread nD τ) arg8 fullShare d) ∗ owns (c : Thread nD τ) arg10 fullShare h2
        ∗ (iprop(owns (c : Thread nD τ) arg2 fullShare a ∗ owns (c : Thread nD τ) arg7 fullShare b2
            ∗ owns (c : Thread nD τ) arg8 fullShare (k0_pay5 a h2 b2) ∗ owns (c : Thread nD τ) arg10 fullShare h2) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f2, %hf2, H2⟩, ⟨%f7, %hf7, H7⟩, ⟨%d8, %f8, -, H8⟩, ⟨%f10, %hf10, H10⟩, Hk⟩
  obtain rfl := harg2.eq_unread hf2; obtain rfl := harg7.eq_unread hf7; obtain rfl := harg10.eq_unread hf10
  sl_exec (disch := first | exact hc1 | exact hc2 | exact hc3)
  sl_step
  iapply Hk
  isplitl [H2]
  · iexists _; isplitr; · ipureintro; exact harg2.read_unread _
    iexact H2
  isplitl [H7]
  · iexists _; isplitr; · ipureintro; exact harg7.read_unread _
    iexact H7
  isplitl [H8]
  · iexists _; isplitr
    swap; · iexact H8
    ipureintro
    refine (read_whole_store hz3 _ arg8 _ _).trans ?_
    simp only [View.readAt_eq_ld, harg2.read_unread, harg3.read_unread, harg4.read_unread, harg5.read_unread, harg6.read_unread, harg7.read_unread, harg9.read_unread, harg10.read_unread,
      View.ld_unit_zero (S := S400x10000) hz2, View.ld_unit_zero (S := S10000x128) hz2, View.ld_unit_zero (S := S1x128) hz2, View.ld_unit_zero (S := S128x128) hz2]
  iexists _; isplitr; · ipureintro; exact harg10.read_unread _
  iexact H10

end Cert.Kernel.R0

end
-- ==== Proof.KR0Body.lean ====
/-
  The body obligation of region 0. At every point the invariant is opened, the case's run is applied to the
  staging memrefs the pipeline passes, and the invariant is closed one point later: the first scratch holds the
  support from the first point on; the second scratch agrees with the hidden product on one more row block after
  each point of phase 0, and is the hidden product throughout phase 1.
-/
import proofs.«103924_g73796128079920_cont_9to1c4b_223_14_alg».proof.Proof.Gen.Kernel.Launch
import proofs.«103924_g73796128079920_cont_9to1c4b_223_14_alg».proof.Proof.Gen.Kernel.Skeleton
import proofs.«103924_g73796128079920_cont_9to1c4b_223_14_alg».proof.Proof.Gen.Kernel.Points
import proofs.«103924_g73796128079920_cont_9to1c4b_223_14_alg».proof.Proof.KR0Defs
import proofs.«103924_g73796128079920_cont_9to1c4b_223_14_alg».proof.Proof.KR0Blocks
import proofs.«103924_g73796128079920_cont_9to1c4b_223_14_alg».proof.Proof.KR0Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.WritesUnit

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The invariant opened and closed -/

theorem scoped_split (c : Dev nD) :
    (Pipeline.scopedRest (Ix := Unit) (Name := ℕ) (U := UR sig nD τ) (Lvl := ℕ) (Val := Elt F) spec0 c : sProp 𝕄)
      = iprop(((∃ d, owns (c : Thread nD τ) scA fullShare d) ∗ (∃ d, owns (c : Thread nD τ) scB fullShare d)) ∗ restBut c) := by
  rw [Pipeline.scopedRest_split_of_list spec0 c [cc0_scratch0, cc0_scratch1] (by decide) (by decide)]
  simp only [bigSepL_cons_cons, bigSepL_singleton, scA, scB, owns_whole]
  rfl

theorem PhiA_open (c : Dev nD) :
    (Pipeline.ΦA spec0 c : sProp 𝕄)
      ⊢ iprop((∃ d, owns (c : Thread nD τ) scA fullShare d) ∗ (∃ d, owns (c : Thread nD τ) scB fullShare d) ∗ restBut c ∗ ∃ r, prngReg c r) := by
  unfold Pipeline.ΦA
  rw [scoped_split]
  iintro ⟨⟨⟨HA, HB⟩, Hr⟩, Hp⟩
  isplitl [HA]; · iexact HA
  isplitl [HB]; · iexact HB
  isplitl [Hr]; · iexact Hr
  iexact Hp

theorem PhiA_close (c : Dev nD) :
    iprop((∃ d, owns (c : Thread nD τ) scA fullShare d) ∗ (∃ d, owns (c : Thread nD τ) scB fullShare d) ∗ restBut c ∗ ∃ r, prngReg c r)
      ⊢ (Pipeline.ΦA spec0 c : sProp 𝕄) := by
  unfold Pipeline.ΦA
  rw [scoped_split]
  iintro ⟨HA, HB, Hr, Hp⟩
  isplitr [Hp]
  · isplitr [Hr]
    · isplitl [HA]; · iexact HA
      iexact HB
    iexact Hr
  iexact Hp

theorem Phi_zero (c : Dev nD) : Phi V c 0 = Pipeline.ΦA spec0 c := rfl

theorem Phi_succ (c : Dev nD) (n : ℕ) :
    Phi V c (n + 1) = iprop(owns (c : Thread nD τ) scA fullShare (S1 V c)
      ∗ (∃ f, owns (c : Thread nD τ) scB fullShare f ∗ ⌜Agree V c (n + 1) f⌝) ∗ restBut c ∗ ∃ r, prngReg c r) := rfl

theorem Phi_pos (c : Dev nD) (n : ℕ) (hn : n ≠ 0) :
    Phi V c n = iprop(owns (c : Thread nD τ) scA fullShare (S1 V c)
      ∗ (∃ f, owns (c : Thread nD τ) scB fullShare f ∗ ⌜Agree V c n f⌝) ∗ restBut c ∗ ∃ r, prngReg c r) := by
  cases n with
  | zero => exact absurd rfl hn
  | succ n => rfl

/-- After the last point the invariant gives back what the launch handed the region. -/
theorem hout (c : Dev nD) : (dat V c).Φ (Fin.last cfg0.N) ⊢ Pipeline.ΦA spec0 c := by
  have hN : (Fin.last cfg0.N).val = 49 + 1 := by rw [Fin.val_last]; exact N_0
  rw [Phi_at, hN, Phi_succ]
  refine BIBase.Entails.trans ?_ (PhiA_close c)
  iintro ⟨HA, ⟨%f, HB, -⟩, Hr, Hp⟩
  isplitl [HA]; · iexists _; iexact HA
  isplitl [HB]; · iexists _; iexact HB
  isplitl [Hr]; · iexact Hr
  iexact Hp

/-- The invariant's step in phase 0: a buffer that agrees with the hidden product on the rows below `400 n`, once
    block `n` is stored at rows `400 n … 400 n + 399`, agrees with it on the rows below `400 (n + 1)`. -/
theorem agree_step (c : Dev nD) (n : ℕ) (h : Vec F S10000x128 .f32) (hAg : Agree V c n h)
    (M : Memref sig .tc .vmem S10000x128 .f32) (hM : M.IsWhole) (off : Fin 2 → ℕ) (inb : ∀ a, off a + S400x128.size a ≤ S10000x128.size a)
    (hoff : off = ![400 * n, 0]) :
    Agree V c (n + 1) (M.view.read (Elt F) (M.view.writes (Elt F) (hM.unread h)
        [⟨Rect.unit (s := S10000x128) off S400x128.size inb, k0_pay3 (AdjBlk V c n) (S1 V c) (B1 V c) (W2 V c)⟩])) := by
  intro i hi
  by_cases hlt : (i 0).val < 400 * n
  · rw [View.read_writes_cons_rows_of_not_mem (o := 400 * n) (W := 400) M.view (hM.unread h) inb _ [] i hoff rfl (Or.inl hlt)]
    rw [View.writes_nil, hM.read_unread]
    exact hAg i hlt
  · have h1 : 400 * n ≤ (i 0).val := Nat.le_of_not_lt hlt
    have h2 : (i 0).val < 400 * n + 400 := by omega
    have hq : (i 0).val / 400 = n := by omega
    rw [View.read_writes_cons_rows_of_mem (o := 400 * n) M.view (hM.unread h) inb _ [] i
      (fun a => match a with
        | ⟨0, _⟩ => (⟨(i 0).val - 400 * n, by omega⟩ : Fin 400)
        | ⟨1, _⟩ => (i 1 : Fin 128)) hoff
      (by show (i 0).val = 400 * n + ((i 0).val - 400 * n); omega) rfl]
    unfold H2 H2blk
    rw [hq]
    refine congrArg _ (funext fun a => ?_)
    match a with
    | ⟨0, _⟩ => exact Fin.ext (by show (i 0).val - 400 * n = (i 0).val % 400; omega)
    | ⟨1, _⟩ => rfl

/-- From 25 blocks on, agreeing on the written rows is being the hidden product. -/
theorem agree_all (c : Dev nD) (n : ℕ) (hn : 25 ≤ n) (h : Vec F S10000x128 .f32) (hAg : Agree V c n h) : h = H2 V c :=
  funext fun i => hAg i (by have := (i 0).isLt; show (i 0).val < 400 * n; have : (i 0).val < 10000 := (i 0).isLt; omega)

theorem agree_of_eq (c : Dev nD) (n : ℕ) : Agree V c n (H2 V c) := fun _ _ => rfl

/-! ## What each window's buffer is handed with and left with -/

abbrev ms_0 (t : Fin cfg0.N) : Memref sig .tc .vmem S400x10000 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S10000x128 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S128x128 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S1x128 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S128x128 .f32 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S1x128 .f32 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S1x400x128 .f32 := win0_6.stage (cfg0.slots t 6)
abbrev hs_6 (t : Fin cfg0.N) : (ms_6 t).IsWhole := hstage0_6 ((cfg0.slots t 6).cast nbuf0_6)

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
theorem live_4 : ∀ t : Fin cfg0.N, cfg0.idle 4 (grid0.coords t) = false := by decide +kernel
theorem live_5 : ∀ t : Fin cfg0.N, cfg0.idle 5 (grid0.coords t) = false := by decide +kernel
theorem live_6 : ∀ t : Fin cfg0.N, cfg0.idle 6 (grid0.coords t) = false := by decide +kernel

theorem leaves_0 (c : Dev nD) (t : Fin cfg0.N) : (dat V c).leavesExact 0 t = owns (c : Thread nD τ) (ms_0 t) fullShare (iblk V c 0 t) := by
  unfold Dat.leavesExact; rw [live_0 t, after_0]
theorem leaves_1 (c : Dev nD) (t : Fin cfg0.N) : (dat V c).leavesExact 1 t = owns (c : Thread nD τ) (ms_1 t) fullShare (iblk V c 1 t) := by
  unfold Dat.leavesExact; rw [live_1 t, after_1]
theorem leaves_2 (c : Dev nD) (t : Fin cfg0.N) : (dat V c).leavesExact 2 t = owns (c : Thread nD τ) (ms_2 t) fullShare (iblk V c 2 t) := by
  unfold Dat.leavesExact; rw [live_2 t, after_2]
theorem leaves_3 (c : Dev nD) (t : Fin cfg0.N) : (dat V c).leavesExact 3 t = owns (c : Thread nD τ) (ms_3 t) fullShare (iblk V c 3 t) := by
  unfold Dat.leavesExact; rw [live_3 t, after_3]
theorem leaves_4 (c : Dev nD) (t : Fin cfg0.N) : (dat V c).leavesExact 4 t = owns (c : Thread nD τ) (ms_4 t) fullShare (iblk V c 4 t) := by
  unfold Dat.leavesExact; rw [live_4 t, after_4]
theorem leaves_5 (c : Dev nD) (t : Fin cfg0.N) : (dat V c).leavesExact 5 t = owns (c : Thread nD τ) (ms_5 t) fullShare (iblk V c 5 t) := by
  unfold Dat.leavesExact; rw [live_5 t, after_5]
theorem leaves_6 (c : Dev nD) (t : Fin cfg0.N) : (dat V c).leavesExact 6 t = owns (c : Thread nD τ) (ms_6 t) fullShare (outAt V c t) := by
  unfold Dat.leavesExact; rw [live_6 t, after_6]

theorem outAt_lt (c : Dev nD) (t : Fin cfg0.N) (h : t.val < 25) :
    outAt V c t = k0_pay4 (AdjBlk V c t.val) (S1 V c) (B1 V c) (W2 V c) := by unfold outAt; rw [if_pos h]
theorem outAt_ge (c : Dev nD) (t : Fin cfg0.N) (h : ¬t.val < 25) :
    outAt V c t = k0_pay5 (AdjBlk V c t.val) (H2 V c) (B2 V c) := by unfold outAt; rw [if_neg h]

/-- The offset of a phase-0 point's slice is 400 times the point. -/
theorem off_at (t : Fin cfg0.N) (h : t.val < 25) : k0_off1 (grid0.coords t) = ![400 * t.val, 0] := by
  rw [hoff t, Nat.mod_eq_of_lt h]

/-! ## The body at a point -/

def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d))
    ∗ (∃ d, owns (c : Thread nD τ) (ms_5 t) fullShare ((dat V c).before 5 t d))
    ∗ (∃ d, owns (c : Thread nD τ) (ms_6 t) fullShare ((dat V c).before 6 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t)

set_option maxHeartbeats 4000000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5]
  rw [show (dat V c).owesAt () t.succ = (dat V c).owesAt () t.castSucc from rfl]
  rw [leaves_0, leaves_1, leaves_2, leaves_3, leaves_4, leaves_5, leaves_6]
  rw [iblk_0 V c t, iblk_1 V c t, iblk_2 V c t, iblk_3 V c t, iblk_4 V c t, iblk_5 V c t]
  rw [Phi_at, Phi_at]
  simp only [Fin.coe_castSucc, Fin.val_succ]
  rw [Phi_succ]
  have hN : t.val < 50 := lt_of_lt_of_eq t.isLt (show cfg0.N = 50 from N_0)
  by_cases h0 : t.val = 0
  · -- the first point
    have h25 : t.val < 25 := by omega
    have hc1 : cond1 (grid0.coords t) := (hcond1 t).mpr h0
    have hc2 : cond2 (grid0.coords t) := (hcond2 t).mpr h25
    have hc3 : ¬cond3 (grid0.coords t) := fun h => by have := (hcond3 t).mp h; omega
    rw [show Phi V c t.val = Pipeline.ΦA spec0 c from by rw [h0]; rfl, outAt_lt V c t h25]
    iintro ⟨HΦ, Ho, ⟨%d0, H0⟩, ⟨%d1, H1⟩, ⟨%d2, H2⟩, ⟨%d3, H3⟩, ⟨%d4, H4⟩, ⟨%d5, H5⟩, ⟨%d6, H6⟩⟩
    ihave HΦ' := (PhiA_open c) $$ HΦ
    icases HΦ' with ⟨⟨%dA, HA⟩, ⟨%dB, HB⟩, Hrest, Hp⟩
    iapply (run_A c Set.univ (grid0.coords t) _ _ _ _ _ _ _ _ _ _ _ _ _ _ _ _ _ _ hc1 hc2 hc3
      (AdjBlk V c t.val) (Xf V c) (W1 V c) (B1 V c) (W2 V c) dA dB _)
    isplitl [H0]; · iexact H0
    isplitl [H1]; · iexact H1
    isplitl [H2]; · iexact H2
    isplitl [H3]; · iexact H3
    isplitl [H4]; · iexact H4
    isplitl [H6]; · iexists _; iexact H6
    isplitl [HA]; · iexact HA
    isplitl [HB]; · iexact HB
    iintro ⟨H0, H1, H2, H3, H4, H6, HA, HB⟩
    isplitl [HA HB Hrest Hp]
    · isplitl [HA]; · iexact HA
      isplitl [HB]
      · iexists _; isplitl [HB]; · iexact HB
        ipureintro
        exact agree_step V c t.val dB (fun i hi => absurd hi (by rw [h0]; omega)) scB (Memref.isWhole_whole _) _ _ (off_at t h25)
      isplitl [Hrest]; · iexact Hrest
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [Phi_pos V c t.val h0]
    by_cases h25 : t.val < 25
    · -- a later point of phase 0
      have hc1 : ¬cond1 (grid0.coords t) := fun h => h0 ((hcond1 t).mp h)
      have hc2 : cond2 (grid0.coords t) := (hcond2 t).mpr h25
      have hc3 : ¬cond3 (grid0.coords t) := fun h => by have := (hcond3 t).mp h; omega
      rw [outAt_lt V c t h25]
      iintro ⟨⟨HA, ⟨%f, HB, %hAg⟩, Hrest, Hp⟩, Ho, ⟨%d0, H0⟩, ⟨%d1, H1⟩, ⟨%d2, H2⟩, ⟨%d3, H3⟩, ⟨%d4, H4⟩, ⟨%d5, H5⟩, ⟨%d6, H6⟩⟩
      iapply (run_B c Set.univ (grid0.coords t) _ _ _ _ _ _ _ _ _ _ _ _ _ _ _ _ _ _ hc1 hc2 hc3
        (AdjBlk V c t.val) (B1 V c) (W2 V c) (S1 V c) f _)
      isplitl [H0]; · iexact H0
      isplitl [H3]; · iexact H3
      isplitl [H4]; · iexact H4
      isplitl [H6]; · iexists _; iexact H6
      isplitl [HA]; · iexact HA
      isplitl [HB]; · iexact HB
      iintro ⟨H0, H3, H4, H6, HA, HB⟩
      isplitl [HA HB Hrest Hp]
      · isplitl [HA]; · iexact HA
        isplitl [HB]
        · iexists _; isplitl [HB]; · iexact HB
          ipureintro
          exact agree_step V c t.val f hAg scB (Memref.isWhole_whole _) _ _ (off_at t h25)
        isplitl [Hrest]; · iexact Hrest
        iexact Hp
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · -- a point of phase 1
      have hc1 : ¬cond1 (grid0.coords t) := fun h => h0 ((hcond1 t).mp h)
      have hc2 : ¬cond2 (grid0.coords t) := fun h => h25 ((hcond2 t).mp h)
      have hc3 : cond3 (grid0.coords t) := (hcond3 t).mpr (by omega)
      rw [outAt_ge V c t h25]
      iintro ⟨⟨HA, ⟨%f, HB, %hAg⟩, Hrest, Hp⟩, Ho, ⟨%d0, H0⟩, ⟨%d1, H1⟩, ⟨%d2, H2⟩, ⟨%d3, H3⟩, ⟨%d4, H4⟩, ⟨%d5, H5⟩, ⟨%d6, H6⟩⟩
      obtain rfl : f = H2 V c := agree_all V c t.val (by omega) f hAg
      iapply (run_C c Set.univ (grid0.coords t) _ _ _ _ _ _ _ _ _ _ _ _ _ _ _ _ _ _ hc1 hc2 hc3
        (AdjBlk V c t.val) (B2 V c) (H2 V c) _)
      isplitl [H0]; · iexact H0
      isplitl [H5]; · iexact H5
      isplitl [H6]; · iexists _; iexact H6
      isplitl [HB]; · iexact HB
      iintro ⟨H0, H5, H6, HB⟩
      isplitl [HA HB Hrest Hp]
      · isplitl [HA]; · iexact HA
        isplitl [HB]
        · iexists _; isplitl [HB]; · iexact HB
          ipureintro
          exact agree_of_eq V c _
        isplitl [Hrest]; · iexact Hrest
        iexact Hp
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.R0

end
-- ==== Proof.KR1Defs.lean ====
/-
  The second graph's two-layer convolution as one region, at a parameter `V`: the core's buffer contents when
  the region is entered. The grid has 50 points: point t < 25 is phase 0 at row block t, point t ≥ 25 is phase 1
  at row block t - 25. Stated here: the arrays the region reads as whole-array functions; the support
  S1 = X · W1; the hidden product H2 = relu (Adj · S1 + b1) · W2, row block by row block; what each point leaves
  in the output window's staging buffer; the invariant carried between points (the first scratch holds S1, the
  second agrees with H2 on the rows already written); and the proof data over them.
-/
import proofs.«103924_g73796128079920_cont_9to1c4b_223_14_alg».proof.Proof.Gen.Kernel.Launch
import proofs.«103924_g73796128079920_cont_9to1c4b_223_14_alg».proof.Proof.Gen.Kernel.Skeleton
import proofs.«103924_g73796128079920_cont_9to1c4b_223_14_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The arrays the region reads -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency matrix, the features, the two weight matrices and the two bias rows, whole. -/
abbrev Adj (c : Dev nD) : Vec F S10000x10000 .f32 := V c main_arg2
abbrev Xf (c : Dev nD) : Vec F S10000x128 .f32 := V c main_arg3
abbrev W1 (c : Dev nD) : Vec F S128x128 .f32 := V c main_arg8
abbrev B1 (c : Dev nD) : Vec F S1x128 .f32 := V c main_v5
abbrev W2 (c : Dev nD) : Vec F S128x128 .f32 := V c main_arg10
abbrev B2 (c : Dev nD) : Vec F S1x128 .f32 := V c main_v6

/-- Row `400 · (m mod 25) + a` of a 10000-row array is a row. -/
theorem row_lt (m : ℕ) (a : Fin 400) : 400 * (m % 25) + a.val < 10000 := by
  have := Nat.mod_lt m (by decide : 0 < 25); omega

/-- Rows `400 m … 400 m + 399` of the adjacency matrix (row blocks are taken mod 25). -/
def AdjBlk (c : Dev nD) (m : ℕ) : Vec F S400x10000 .f32 :=
  fun y => Adj V c (fun a => match a with
    | ⟨0, _⟩ => (⟨400 * (m % 25) + (y 0).val, row_lt m (y 0)⟩ : Fin 10000)
    | ⟨1, _⟩ => (y 1 : Fin 10000))

/-- The support of the first layer: features times first weights. -/
def S1 (c : Dev nD) : Vec F S10000x128 .f32 := k1_pay1 (Xf V c) (W1 V c)

/-- Row block `m` of the hidden product: relu (block · S1 + b1) · W2. -/
def H2blk (c : Dev nD) (m : ℕ) : Vec F S400x128 .f32 := k1_pay3 (AdjBlk V c m) (S1 V c) (B1 V c) (W2 V c)

/-- The hidden product, whole: row r is row r mod 400 of block r / 400. -/
def H2 (c : Dev nD) : Vec F S10000x128 .f32 :=
  fun i => H2blk V c ((i 0).val / 400) (fun a => match a with
    | ⟨0, _⟩ => (⟨(i 0).val % 400, Nat.mod_lt _ (by decide)⟩ : Fin 400)
    | ⟨1, _⟩ => (i 1 : Fin 128))

/-- What point `t` leaves in the output window's staging buffer: in phase 0 the hidden block, in phase 1 the
    block of the result. -/
def outAt (c : Dev nD) (t : Fin cfg1.N) : Vec F S1x400x128 .f32 :=
  if t.val < 25 then k1_pay4 (AdjBlk V c t.val) (S1 V c) (B1 V c) (W2 V c)
  else k1_pay5 (AdjBlk V c t.val) (H2 V c) (B2 V c)

/-! ## An input window's staging buffer holds its block at every point, fetched there or not

The index of an input window does not move between two fetches, so the block the previous fetch brought is the
block of this point. -/

theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The two scratch buffers and the region's invariant -/

/-- The scratch that holds the support, and the scratch that is filled with the hidden product one row block
    per point of phase 0. -/
abbrev scA : Memref sig .tc .vmem S10000x128 .f32 := Memref.whole cc1_scratch0
abbrev scB : Memref sig .tc .vmem S10000x128 .f32 := Memref.whole cc1_scratch1

/-- The rows below `400 · n` of `f` are the hidden product's. From `n = 25` on that is every row. -/
def Agree (c : Dev nD) (n : ℕ) (f : Vec F S10000x128 .f32) : Prop :=
  ∀ i : S10000x128.Idx, (i 0).val < 400 * n → f i = H2 V c i

/-- The other scoped buffers of the core, unopened. -/
abbrev restBut (c : Dev nD) : sProp 𝕄 :=
  Pipeline.scopedRestBut (Ix := Unit) (Name := ℕ) (U := UR sig nD τ) (Lvl := ℕ) (Val := Elt F) spec1 c [cc1_scratch0, cc1_scratch1]

/-- Before the first point every scoped buffer holds anything. After `n ≥ 1` points the first scratch holds the
    support and the second agrees with the hidden product on its first `400 · n` rows. -/
def Phi (c : Dev nD) : ℕ → sProp 𝕄
  | 0 => Pipeline.ΦA spec1 c
  | n + 1 => iprop(owns (c : Thread nD τ) scA fullShare (S1 V c)
      ∗ (∃ f, owns (c : Thread nD τ) scB fullShare f ∗ ⌜Agree V c (n + 1) f⌝)
      ∗ restBut c ∗ ∃ r, prngReg c r)

/-! ## The proof data -/

/-- The arrays as the region finds them; each input's buffer left at its block; the output's at `outAt`; the
    invariant `Phi`; nothing owed, full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => outAt V c t
  Φ t := Phi V c t.val
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = outAt V c t := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d
theorem before_4 (c : Dev nD) (t : Fin cfg1.N) (d) : (dat V c).before 4 t d = iblk V c 4 t :=
  before_4_of V (dat V c) (A_eq V c 4) (after_4 V c) t d
theorem before_5 (c : Dev nD) (t : Fin cfg1.N) (d) : (dat V c).before 5 t d = iblk V c 5 t :=
  before_5_of V (dat V c) (A_eq V c 5) (after_5 V c) t d

theorem Phi_at (c : Dev nD) (t : Fin (cfg1.N + 1)) : (dat V c).Φ t = Phi V c t.val := by dsimp only [dat]

/-- What the launch hands the region is the invariant before the first point. -/
theorem hin (c : Dev nD) : Pipeline.ΦA spec1 c ⊢ (dat V c).Φ 0 := by
  rw [Phi_at]; exact Idealize.SL.BI.Entails.refl _

end Cert.Kernel.R1

end
-- ==== Proof.KR1Blocks.lean ====
/-
  Each input window's block, read off the array the region finds, as a function of that array: the adjacency
  window's block at point t is rows 400 · (t mod 25) … 400 · (t mod 25) + 399 of the adjacency matrix; the other
  five windows' blocks are their whole arrays.
-/
import proofs.«103924_g73796128079920_cont_9to1c4b_223_14_alg».proof.Proof.KR1Defs

set_option maxRecDepth 16384

noncomputable section

namespace Cert.Kernel.R1

open Idealize.ShloMosaic Idealize.ShloMosaic.TcCoe Idealize.ShloMosaic.Tactic
open Idealize.ShloMosaic.Pipeline (Dat Cfg Window BodyObligation cellOf)
open Cert.Kernel Cert.Kernel.Gen

variable {F : FTy → Type} [FloatOps F]

variable (V : (c : Dev nD) → (b : Ref sig .tc) → Buf (Elt F) ((c : Thread nD τ).loc b))

/-- The index maps of the six input windows, decided over the grid: the adjacency window's row block is the
    point's second coordinate, every other index is zero. -/
theorem idx_in : ∀ t : Fin cfg1.N, win1_0.index t (0 : Fin 2) = t.val % 25 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- The adjacency window's block at point t: rows 400 · (t mod 25) onward. -/
theorem iblk_0 (c : Dev nD) (t : Fin cfg1.N) : (iblk V c 0 t : Vec F S400x10000 .f32) = AdjBlk V c t.val := by
  obtain ⟨e0, e1, -⟩ := idx_in t
  funext y
  unfold iblk AdjBlk
  rw [View.read_apply]
  show V c main_arg2 (((cfg1.win 0).blk t).view.emb y) = V c main_arg2 _
  congr 1
  funext a
  apply Fin.ext
  match a with
  | ⟨0, _⟩ => show win1_0.index t (0 : Fin 2) * 400 + 1 * (y 0).val = 400 * (t.val % 25) + (y 0).val; rw [e0]; omega
  | ⟨1, _⟩ => show win1_0.index t (1 : Fin 2) * 10000 + 1 * (y 1).val = (y 1).val; rw [e1]; omega

/-- The features window's block is the whole array. -/
theorem iblk_1 (c : Dev nD) (t : Fin cfg1.N) : (iblk V c 1 t : Vec F S10000x128 .f32) = Xf V c := by
  obtain ⟨-, -, e0, e1, -⟩ := idx_in t
  funext y
  unfold iblk
  rw [View.read_apply]
  show V c main_arg3 (((cfg1.win 1).blk t).view.emb y) = V c main_arg3 y
  congr 1
  funext a
  apply Fin.ext
  match a with
  | ⟨0, _⟩ => show win1_1.index t (0 : Fin 2) * 10000 + 1 * (y 0).val = (y 0).val; rw [e0]; omega
  | ⟨1, _⟩ => show win1_1.index t (1 : Fin 2) * 128 + 1 * (y 1).val = (y 1).val; rw [e1]; omega

/-- The first weights' block is the whole array. -/
theorem iblk_2 (c : Dev nD) (t : Fin cfg1.N) : (iblk V c 2 t : Vec F S128x128 .f32) = W1 V c := by
  obtain ⟨-, -, -, -, e0, e1, -⟩ := idx_in t
  funext y
  unfold iblk
  rw [View.read_apply]
  show V c main_arg8 (((cfg1.win 2).blk t).view.emb y) = V c main_arg8 y
  congr 1
  funext a
  apply Fin.ext
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

/-- The first bias row's block is the whole array. -/
theorem iblk_3 (c : Dev nD) (t : Fin cfg1.N) : (iblk V c 3 t : Vec F S1x128 .f32) = B1 V c := by
  obtain ⟨-, -, -, -, -, -, e0, e1, -⟩ := idx_in t
  funext y
  unfold iblk
  rw [View.read_apply]
  show V c main_v5 (((cfg1.win 3).blk t).view.emb y) = V c main_v5 y
  congr 1
  funext a
  apply Fin.ext
  match a with
  | ⟨0, _⟩ => show win1_3.index t (0 : Fin 2) * 1 + 1 * (y 0).val = (y 0).val; rw [e0]; omega
  | ⟨1, _⟩ => show win1_3.index t (1 : Fin 2) * 128 + 1 * (y 1).val = (y 1).val; rw [e1]; omega

/-- The second weights' block is the whole array. -/
theorem iblk_4 (c : Dev nD) (t : Fin cfg1.N) : (iblk V c 4 t : Vec F S128x128 .f32) = W2 V c := by
  obtain ⟨-, -, -, -, -, -, -, -, e0, e1, -⟩ := idx_in t
  funext y
  unfold iblk
  rw [View.read_apply]
  show V c main_arg10 (((cfg1.win 4).blk t).view.emb y) = V c main_arg10 y
  congr 1
  funext a
  apply Fin.ext
  match a with
  | ⟨0, _⟩ => show win1_4.index t (0 : Fin 2) * 128 + 1 * (y 0).val = (y 0).val; rw [e0]; omega
  | ⟨1, _⟩ => show win1_4.index t (1 : Fin 2) * 128 + 1 * (y 1).val = (y 1).val; rw [e1]; omega

/-- The second bias row's block is the whole array. -/
theorem iblk_5 (c : Dev nD) (t : Fin cfg1.N) : (iblk V c 5 t : Vec F S1x128 .f32) = B2 V c := by
  obtain ⟨-, -, -, -, -, -, -, -, -, -, e0, e1⟩ := idx_in t
  funext y
  unfold iblk
  rw [View.read_apply]
  show V c main_v6 (((cfg1.win 5).blk t).view.emb y) = V c main_v6 y
  congr 1
  funext a
  apply Fin.ext
  match a with
  | ⟨0, _⟩ => show win1_5.index t (0 : Fin 2) * 1 + 1 * (y 0).val = (y 0).val; rw [e0]; omega
  | ⟨1, _⟩ => show win1_5.index t (1 : Fin 2) * 128 + 1 * (y 1).val = (y 1).val; rw [e1]; omega

end Cert.Kernel.R1

end
-- ==== Proof.KR1Runs.lean ====
/-
  The kernel body of region 1 in each of its three cases, on whole staging and scratch memrefs: what it reads it
  leaves, and what it writes is the skeleton's payload of what it read. The three branch conditions are scalar
  chains over the grid coordinates: the first holds at the first point only, the second in phase 0, the third
  in phase 1.
-/
import proofs.«103924_g73796128079920_cont_9to1c4b_223_14_alg».proof.Proof.Gen.Kernel.Launch
import proofs.«103924_g73796128079920_cont_9to1c4b_223_14_alg».proof.Proof.Gen.Kernel.Skeleton
import proofs.«103924_g73796128079920_cont_9to1c4b_223_14_alg».proof.Proof.Gen.Kernel.Points
import proofs.«103924_g73796128079920_cont_9to1c4b_223_14_alg».proof.Proof.KR1Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.WritesUnit

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The three branch conditions, decided over the grid -/

/-- The first branch (store the support): taken at the first point only. -/
abbrev cond1 (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The second branch (phase 0) and the third (phase 1). -/
abbrev cond2 (i : grid1.Coords) : Prop := k1_cond2 i = 1#1
abbrev cond3 (i : grid1.Coords) : Prop := k1_cond3 i = 1#1

theorem hcond1 : ∀ t : Fin cfg1.N, cond1 (grid1.coords t) ↔ t.val = 0 :=
  (by decide +kernel : ∀ t : Fin grid1.N, cond1 (grid1.coords t) ↔ t.val = 0)
theorem hcond2 : ∀ t : Fin cfg1.N, cond2 (grid1.coords t) ↔ t.val < 25 :=
  (by decide +kernel : ∀ t : Fin grid1.N, cond2 (grid1.coords t) ↔ t.val < 25)
theorem hcond3 : ∀ t : Fin cfg1.N, cond3 (grid1.coords t) ↔ 25 ≤ t.val :=
  (by decide +kernel : ∀ t : Fin grid1.N, cond3 (grid1.coords t) ↔ 25 ≤ t.val)
/-- The row offset of the slice a phase-0 point stores: 400 times its row block. -/
theorem hoff : ∀ t : Fin cfg1.N, k1_off1 (grid1.coords t) = ![400 * (t.val % 25), 0] :=
  (by decide +kernel : ∀ t : Fin grid1.N, k1_off1 (grid1.coords t) = ![400 * (t.val % 25), 0])
/-- The output window is live at every point. -/
theorem live6 : ∀ t : Fin cfg1.N, cfg1.idle 6 (grid1.coords t) = false := by decide +kernel

theorem hz2 : (![0, 0] : Fin 2 → ℕ) = fun _ => 0 := by funext a; fin_cases a <;> rfl
theorem hz3 : (![0, 0, 0] : Fin 3 → ℕ) = fun _ => 0 := by funext a; fin_cases a <;> rfl

/-- A whole-rectangle store, alone, leaves its payload. -/
theorem read_whole_store {sh : Shape} {off : Fin sh.rank → ℕ} (hz : off = fun _ => 0) (inb : ∀ a, off a + sh.size a ≤ sh.size a)
    (M : Memref sig .tc .vmem sh .f32) (f : M.view.ty.Contents (Elt F)) (P : sh.Idx → Elt F .f32) :
    M.view.read (Elt F) (M.view.writes (Elt F) f [⟨Rect.unit off sh.size inb, P⟩]) = P :=
  (View.read_writes_eq_canon _ _ _ (fun y => ⟨_, List.mem_singleton_self _, View.mem_set_unit_zero hz inb y⟩)).trans
    (View.canon_unit_zero hz inb P)

set_option maxHeartbeats 4000000 in
/-- The first point: the body stores the support `x · w1` whole into the first scratch, reads it back, and then does
    what a phase-0 point does with it. -/
theorem run_A (c : Dev nD) (E : Set ℕ) (i : grid1.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x400x128 .f32) (harg8 : arg8.IsWhole) (arg9 : Memref sig .tc .vmem S10000x128 .f32) (harg9 : arg9.IsWhole) (arg10 : Memref sig .tc .vmem S10000x128 .f32) (harg10 : arg10.IsWhole)
    (hc1 : cond1 i) (hc2 : cond2 i) (hc3 : ¬cond3 i)
    (a : Vec F S400x10000 .f32) (x : Vec F S10000x128 .f32) (w1 : Vec F S128x128 .f32) (b1 : Vec F S1x128 .f32) (w2 : Vec F S128x128 .f32) (d9 : Vec F S10000x128 .f32) (h : Vec F S10000x128 .f32)
    (K : PUnit → sProp 𝕄) :
    iprop(owns (c : Thread nD τ) arg2 fullShare a ∗ owns (c : Thread nD τ) arg3 fullShare x ∗ owns (c : Thread nD τ) arg4 fullShare w1 ∗ owns (c : Thread nD τ) arg5 fullShare b1 ∗ owns (c : Thread nD τ) arg6 fullShare w2
        ∗ (∃ d, owns (c : Thread nD τ) arg8 fullShare d) ∗ owns (c : Thread nD τ) arg9 fullShare d9 ∗ owns (c : Thread nD τ) arg10 fullShare h
        ∗ (iprop(owns (c : Thread nD τ) arg2 fullShare a ∗ owns (c : Thread nD τ) arg3 fullShare x ∗ owns (c : Thread nD τ) arg4 fullShare w1 ∗ owns (c : Thread nD τ) arg5 fullShare b1 ∗ owns (c : Thread nD τ) arg6 fullShare w2
            ∗ owns (c : Thread nD τ) arg8 fullShare (k1_pay4 a (k1_pay1 x w1) b1 w2) ∗ owns (c : Thread nD τ) arg9 fullShare (k1_pay1 x w1)
            ∗ owns (c : Thread nD τ) arg10 fullShare (arg10.view.read (Elt F) (arg10.view.writes (Elt F) (harg10.unread h)
                [⟨Rect.unit (s := S10000x128) (k1_off1 i) S400x128.size (k1_off1_inb i hc2), k1_pay3 a (k1_pay1 x w1) b1 w2⟩]))) -∗ K ⟨⟩))
      ⊢ wp frame (wpE (defs₀ (F := F)) Variants.none c none) E (cc1__gcn_kernel i arg2 harg2 arg3 harg3 arg4 harg4 arg5 harg5 arg6 harg6 arg7 harg7 arg8 harg8 arg9 harg9 arg10 harg10) K := by
  simp only [cc1__gcn_kernel_eq_skeleton]; unfold cc1__gcn_kernel_skel
  unfold owns
  iintro ⟨⟨%f2, %hf2, H2⟩, ⟨%f3, %hf3, H3⟩, ⟨%f4, %hf4, H4⟩, ⟨%f5, %hf5, H5⟩, ⟨%f6, %hf6, H6⟩, ⟨%d8, %f8, -, H8⟩, ⟨%f9, %hf9, H9⟩, ⟨%f10, %hf10, H10⟩, Hk⟩
  obtain rfl := harg2.eq_unread hf2; obtain rfl := harg3.eq_unread hf3; obtain rfl := harg4.eq_unread hf4; obtain rfl := harg5.eq_unread hf5; obtain rfl := harg6.eq_unread hf6
  obtain rfl := harg9.eq_unread hf9; obtain rfl := harg10.eq_unread hf10
  sl_exec (disch := first | exact hc1 | exact hc2 | exact hc3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H8]
  · iexists _; isplitr
    swap; · iexact H8
    ipureintro
    refine (read_whole_store hz3 _ arg8 _ _).trans ?_
    sl_unfold_run_names
    simp only [View.readCov_unit_zero (S := S10000x128) arg9.view hz2, View.readAt_eq_ld, harg2.read_unread, harg3.read_unread, harg4.read_unread, harg5.read_unread, harg6.read_unread, harg7.read_unread, harg9.read_unread, harg10.read_unread,
      View.ld_unit_zero (S := S400x10000) hz2, View.ld_unit_zero (S := S10000x128) hz2, View.ld_unit_zero (S := S1x128) hz2, View.ld_unit_zero (S := S128x128) hz2]
  isplitl [H9]
  · iexists _; isplitr
    swap; · iexact H9
    ipureintro
    sl_unfold_run_names
    refine (read_whole_store hz2 _ arg9 _ _).trans ?_
    simp only [View.readCov_unit_zero (S := S10000x128) arg9.view hz2, View.readAt_eq_ld, harg2.read_unread, harg3.read_unread, harg4.read_unread, harg5.read_unread, harg6.read_unread, harg7.read_unread, harg9.read_unread, harg10.read_unread,
      View.ld_unit_zero (S := S400x10000) hz2, View.ld_unit_zero (S := S10000x128) hz2, View.ld_unit_zero (S := S1x128) hz2, View.ld_unit_zero (S := S128x128) hz2]
  iexists _; isplitr
  swap; · iexact H10
  ipureintro
  sl_unfold_run_names
  simp only [View.readCov_unit_zero (S := S10000x128) arg9.view hz2, View.readAt_eq_ld, harg2.read_unread, harg3.read_unread, harg4.read_unread, harg5.read_unread, harg6.read_unread, harg7.read_unread, harg9.read_unread, harg10.read_unread,
      View.ld_unit_zero (S := S400x10000) hz2, View.ld_unit_zero (S := S10000x128) hz2, View.ld_unit_zero (S := S1x128) hz2, View.ld_unit_zero (S := S128x128) hz2]

set_option maxHeartbeats 4000000 in
/-- A phase-0 point that is not the first: from the adjacency block `a`, the support `s1`, the bias row and the second
    weights, the body writes the hidden block whole into the output buffer and into rows `k1_off1 i` of the second
    scratch, and leaves everything it read as it was. -/
theorem run_B (c : Dev nD) (E : Set ℕ) (i : grid1.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x400x128 .f32) (harg8 : arg8.IsWhole) (arg9 : Memref sig .tc .vmem S10000x128 .f32) (harg9 : arg9.IsWhole) (arg10 : Memref sig .tc .vmem S10000x128 .f32) (harg10 : arg10.IsWhole)
    (hc1 : ¬cond1 i) (hc2 : cond2 i) (hc3 : ¬cond3 i)
    (a : Vec F S400x10000 .f32) (b1 : Vec F S1x128 .f32) (w2 : Vec F S128x128 .f32) (s1 : Vec F S10000x128 .f32) (h : Vec F S10000x128 .f32)
    (K : PUnit → sProp 𝕄) :
    iprop(owns (c : Thread nD τ) arg2 fullShare a ∗ owns (c : Thread nD τ) arg5 fullShare b1 ∗ owns (c : Thread nD τ) arg6 fullShare w2
        ∗ (∃ d, owns (c : Thread nD τ) arg8 fullShare d) ∗ owns (c : Thread nD τ) arg9 fullShare s1 ∗ owns (c : Thread nD τ) arg10 fullShare h
        ∗ (iprop(owns (c : Thread nD τ) arg2 fullShare a ∗ owns (c : Thread nD τ) arg5 fullShare b1 ∗ owns (c : Thread nD τ) arg6 fullShare w2
            ∗ owns (c : Thread nD τ) arg8 fullShare (k1_pay4 a s1 b1 w2) ∗ owns (c : Thread nD τ) arg9 fullShare s1
            ∗ owns (c : Thread nD τ) arg10 fullShare (arg10.view.read (Elt F) (arg10.view.writes (Elt F) (harg10.unread h)
                [⟨Rect.unit (s := S10000x128) (k1_off1 i) S400x128.size (k1_off1_inb i hc2), k1_pay3 a s1 b1 w2⟩]))) -∗ K ⟨⟩))
      ⊢ wp frame (wpE (defs₀ (F := F)) Variants.none c none) E (cc1__gcn_kernel i arg2 harg2 arg3 harg3 arg4 harg4 arg5 harg5 arg6 harg6 arg7 harg7 arg8 harg8 arg9 harg9 arg10 harg10) K := by
  simp only [cc1__gcn_kernel_eq_skeleton]; unfold cc1__gcn_kernel_skel
  unfold owns
  iintro ⟨⟨%f2, %hf2, H2⟩, ⟨%f5, %hf5, H5⟩, ⟨%f6, %hf6, H6⟩, ⟨%d8, %f8, -, H8⟩, ⟨%f9, %hf9, H9⟩, ⟨%f10, %hf10, H10⟩, Hk⟩
  obtain rfl := harg2.eq_unread hf2; obtain rfl := harg5.eq_unread hf5; obtain rfl := harg6.eq_unread hf6
  obtain rfl := harg9.eq_unread hf9; obtain rfl := harg10.eq_unread hf10
  sl_exec (disch := first | exact hc1 | exact hc2 | exact hc3)
  sl_step
  iapply Hk
  isplitl [H2]
  · iexists _; isplitr; · ipureintro; exact harg2.read_unread _
    iexact H2
  isplitl [H5]
  · iexists _; isplitr; · ipureintro; exact harg5.read_unread _
    iexact H5
  isplitl [H6]
  · iexists _; isplitr; · ipureintro; exact harg6.read_unread _
    iexact H6
  isplitl [H8]
  · iexists _; isplitr
    swap; · iexact H8
    ipureintro
    refine (read_whole_store hz3 _ arg8 _ _).trans ?_
    simp only [View.readAt_eq_ld, harg2.read_unread, harg3.read_unread, harg4.read_unread, harg5.read_unread, harg6.read_unread, harg7.read_unread, harg9.read_unread, harg10.read_unread,
      View.ld_unit_zero (S := S400x10000) hz2, View.ld_unit_zero (S := S10000x128) hz2, View.ld_unit_zero (S := S1x128) hz2, View.ld_unit_zero (S := S128x128) hz2]
  isplitl [H9]
  · iexists _; isplitr; · ipureintro; exact harg9.read_unread _
    iexact H9
  iexists _; isplitr
  swap; · iexact H10
  ipureintro
  simp only [View.readAt_eq_ld, harg2.read_unread, harg3.read_unread, harg4.read_unread, harg5.read_unread, harg6.read_unread, harg7.read_unread, harg9.read_unread, harg10.read_unread,
      View.ld_unit_zero (S := S400x10000) hz2, View.ld_unit_zero (S := S10000x128) hz2, View.ld_unit_zero (S := S1x128) hz2, View.ld_unit_zero (S := S128x128) hz2]

set_option maxHeartbeats 4000000 in
/-- A phase-1 point: from the adjacency block, the hidden product held whole in the second scratch and the second bias
    row, the body writes the block of the result into the output buffer and changes nothing else. -/
theorem run_C (c : Dev nD) (E : Set ℕ) (i : grid1.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x400x128 .f32) (harg8 : arg8.IsWhole) (arg9 : Memref sig .tc .vmem S10000x128 .f32) (harg9 : arg9.IsWhole) (arg10 : Memref sig .tc .vmem S10000x128 .f32) (harg10 : arg10.IsWhole)
    (hc1 : ¬cond1 i) (hc2 : ¬cond2 i) (hc3 : cond3 i)
    (a : Vec F S400x10000 .f32) (b2 : Vec F S1x128 .f32) (h2 : Vec F S10000x128 .f32)
    (K : PUnit → sProp 𝕄) :
    iprop(owns (c : Thread nD τ) arg2 fullShare a ∗ owns (c : Thread nD τ) arg7 fullShare b2
        ∗ (∃ d, owns (c : Thread nD τ) arg8 fullShare d) ∗ owns (c : Thread nD τ) arg10 fullShare h2
        ∗ (iprop(owns (c : Thread nD τ) arg2 fullShare a ∗ owns (c : Thread nD τ) arg7 fullShare b2
            ∗ owns (c : Thread nD τ) arg8 fullShare (k1_pay5 a h2 b2) ∗ owns (c : Thread nD τ) arg10 fullShare h2) -∗ K ⟨⟩))
      ⊢ wp frame (wpE (defs₀ (F := F)) Variants.none c none) E (cc1__gcn_kernel i arg2 harg2 arg3 harg3 arg4 harg4 arg5 harg5 arg6 harg6 arg7 harg7 arg8 harg8 arg9 harg9 arg10 harg10) K := by
  simp only [cc1__gcn_kernel_eq_skeleton]; unfold cc1__gcn_kernel_skel
  unfold owns
  iintro ⟨⟨%f2, %hf2, H2⟩, ⟨%f7, %hf7, H7⟩, ⟨%d8, %f8, -, H8⟩, ⟨%f10, %hf10, H10⟩, Hk⟩
  obtain rfl := harg2.eq_unread hf2; obtain rfl := harg7.eq_unread hf7; obtain rfl := harg10.eq_unread hf10
  sl_exec (disch := first | exact hc1 | exact hc2 | exact hc3)
  sl_step
  iapply Hk
  isplitl [H2]
  · iexists _; isplitr; · ipureintro; exact harg2.read_unread _
    iexact H2
  isplitl [H7]
  · iexists _; isplitr; · ipureintro; exact harg7.read_unread _
    iexact H7
  isplitl [H8]
  · iexists _; isplitr
    swap; · iexact H8
    ipureintro
    refine (read_whole_store hz3 _ arg8 _ _).trans ?_
    simp only [View.readAt_eq_ld, harg2.read_unread, harg3.read_unread, harg4.read_unread, harg5.read_unread, harg6.read_unread, harg7.read_unread, harg9.read_unread, harg10.read_unread,
      View.ld_unit_zero (S := S400x10000) hz2, View.ld_unit_zero (S := S10000x128) hz2, View.ld_unit_zero (S := S1x128) hz2, View.ld_unit_zero (S := S128x128) hz2]
  iexists _; isplitr; · ipureintro; exact harg10.read_unread _
  iexact H10

end Cert.Kernel.R1

end
-- ==== Proof.KR1Body.lean ====
/-
  The body obligation of region 1. At every point the invariant is opened, the case's run is applied to the
  staging memrefs the pipeline passes, and the invariant is closed one point later: the first scratch holds the
  support from the first point on; the second scratch agrees with the hidden product on one more row block after
  each point of phase 0, and is the hidden product throughout phase 1.
-/
import proofs.«103924_g73796128079920_cont_9to1c4b_223_14_alg».proof.Proof.Gen.Kernel.Launch
import proofs.«103924_g73796128079920_cont_9to1c4b_223_14_alg».proof.Proof.Gen.Kernel.Skeleton
import proofs.«103924_g73796128079920_cont_9to1c4b_223_14_alg».proof.Proof.Gen.Kernel.Points
import proofs.«103924_g73796128079920_cont_9to1c4b_223_14_alg».proof.Proof.KR1Defs
import proofs.«103924_g73796128079920_cont_9to1c4b_223_14_alg».proof.Proof.KR1Blocks
import proofs.«103924_g73796128079920_cont_9to1c4b_223_14_alg».proof.Proof.KR1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.WritesUnit

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The invariant opened and closed -/

theorem scoped_split (c : Dev nD) :
    (Pipeline.scopedRest (Ix := Unit) (Name := ℕ) (U := UR sig nD τ) (Lvl := ℕ) (Val := Elt F) spec1 c : sProp 𝕄)
      = iprop(((∃ d, owns (c : Thread nD τ) scA fullShare d) ∗ (∃ d, owns (c : Thread nD τ) scB fullShare d)) ∗ restBut c) := by
  rw [Pipeline.scopedRest_split_of_list spec1 c [cc1_scratch0, cc1_scratch1] (by decide) (by decide)]
  simp only [bigSepL_cons_cons, bigSepL_singleton, scA, scB, owns_whole]
  rfl

theorem PhiA_open (c : Dev nD) :
    (Pipeline.ΦA spec1 c : sProp 𝕄)
      ⊢ iprop((∃ d, owns (c : Thread nD τ) scA fullShare d) ∗ (∃ d, owns (c : Thread nD τ) scB fullShare d) ∗ restBut c ∗ ∃ r, prngReg c r) := by
  unfold Pipeline.ΦA
  rw [scoped_split]
  iintro ⟨⟨⟨HA, HB⟩, Hr⟩, Hp⟩
  isplitl [HA]; · iexact HA
  isplitl [HB]; · iexact HB
  isplitl [Hr]; · iexact Hr
  iexact Hp

theorem PhiA_close (c : Dev nD) :
    iprop((∃ d, owns (c : Thread nD τ) scA fullShare d) ∗ (∃ d, owns (c : Thread nD τ) scB fullShare d) ∗ restBut c ∗ ∃ r, prngReg c r)
      ⊢ (Pipeline.ΦA spec1 c : sProp 𝕄) := by
  unfold Pipeline.ΦA
  rw [scoped_split]
  iintro ⟨HA, HB, Hr, Hp⟩
  isplitr [Hp]
  · isplitr [Hr]
    · isplitl [HA]; · iexact HA
      iexact HB
    iexact Hr
  iexact Hp

theorem Phi_zero (c : Dev nD) : Phi V c 0 = Pipeline.ΦA spec1 c := rfl

theorem Phi_succ (c : Dev nD) (n : ℕ) :
    Phi V c (n + 1) = iprop(owns (c : Thread nD τ) scA fullShare (S1 V c)
      ∗ (∃ f, owns (c : Thread nD τ) scB fullShare f ∗ ⌜Agree V c (n + 1) f⌝) ∗ restBut c ∗ ∃ r, prngReg c r) := rfl

theorem Phi_pos (c : Dev nD) (n : ℕ) (hn : n ≠ 0) :
    Phi V c n = iprop(owns (c : Thread nD τ) scA fullShare (S1 V c)
      ∗ (∃ f, owns (c : Thread nD τ) scB fullShare f ∗ ⌜Agree V c n f⌝) ∗ restBut c ∗ ∃ r, prngReg c r) := by
  cases n with
  | zero => exact absurd rfl hn
  | succ n => rfl

/-- After the last point the invariant gives back what the launch handed the region. -/
theorem hout (c : Dev nD) : (dat V c).Φ (Fin.last cfg1.N) ⊢ Pipeline.ΦA spec1 c := by
  have hN : (Fin.last cfg1.N).val = 49 + 1 := by rw [Fin.val_last]; exact N_1
  rw [Phi_at, hN, Phi_succ]
  refine BIBase.Entails.trans ?_ (PhiA_close c)
  iintro ⟨HA, ⟨%f, HB, -⟩, Hr, Hp⟩
  isplitl [HA]; · iexists _; iexact HA
  isplitl [HB]; · iexists _; iexact HB
  isplitl [Hr]; · iexact Hr
  iexact Hp

/-- The invariant's step in phase 0: a buffer that agrees with the hidden product on the rows below `400 n`, once
    block `n` is stored at rows `400 n … 400 n + 399`, agrees with it on the rows below `400 (n + 1)`. -/
theorem agree_step (c : Dev nD) (n : ℕ) (h : Vec F S10000x128 .f32) (hAg : Agree V c n h)
    (M : Memref sig .tc .vmem S10000x128 .f32) (hM : M.IsWhole) (off : Fin 2 → ℕ) (inb : ∀ a, off a + S400x128.size a ≤ S10000x128.size a)
    (hoff : off = ![400 * n, 0]) :
    Agree V c (n + 1) (M.view.read (Elt F) (M.view.writes (Elt F) (hM.unread h)
        [⟨Rect.unit (s := S10000x128) off S400x128.size inb, k1_pay3 (AdjBlk V c n) (S1 V c) (B1 V c) (W2 V c)⟩])) := by
  intro i hi
  by_cases hlt : (i 0).val < 400 * n
  · rw [View.read_writes_cons_rows_of_not_mem (o := 400 * n) (W := 400) M.view (hM.unread h) inb _ [] i hoff rfl (Or.inl hlt)]
    rw [View.writes_nil, hM.read_unread]
    exact hAg i hlt
  · have h1 : 400 * n ≤ (i 0).val := Nat.le_of_not_lt hlt
    have h2 : (i 0).val < 400 * n + 400 := by omega
    have hq : (i 0).val / 400 = n := by omega
    rw [View.read_writes_cons_rows_of_mem (o := 400 * n) M.view (hM.unread h) inb _ [] i
      (fun a => match a with
        | ⟨0, _⟩ => (⟨(i 0).val - 400 * n, by omega⟩ : Fin 400)
        | ⟨1, _⟩ => (i 1 : Fin 128)) hoff
      (by show (i 0).val = 400 * n + ((i 0).val - 400 * n); omega) rfl]
    unfold H2 H2blk
    rw [hq]
    refine congrArg _ (funext fun a => ?_)
    match a with
    | ⟨0, _⟩ => exact Fin.ext (by show (i 0).val - 400 * n = (i 0).val % 400; omega)
    | ⟨1, _⟩ => rfl

/-- From 25 blocks on, agreeing on the written rows is being the hidden product. -/
theorem agree_all (c : Dev nD) (n : ℕ) (hn : 25 ≤ n) (h : Vec F S10000x128 .f32) (hAg : Agree V c n h) : h = H2 V c :=
  funext fun i => hAg i (by have := (i 0).isLt; show (i 0).val < 400 * n; have : (i 0).val < 10000 := (i 0).isLt; omega)

theorem agree_of_eq (c : Dev nD) (n : ℕ) : Agree V c n (H2 V c) := fun _ _ => rfl

/-! ## What each window's buffer is handed with and left with -/

abbrev ms_0 (t : Fin cfg1.N) : Memref sig .tc .vmem S400x10000 .f32 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S10000x128 .f32 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S128x128 .f32 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S1x128 .f32 := win1_3.stage (cfg1.slots t 3)
abbrev hs_3 (t : Fin cfg1.N) : (ms_3 t).IsWhole := hstage1_3 ((cfg1.slots t 3).cast nbuf1_3)
abbrev ms_4 (t : Fin cfg1.N) : Memref sig .tc .vmem S128x128 .f32 := win1_4.stage (cfg1.slots t 4)
abbrev hs_4 (t : Fin cfg1.N) : (ms_4 t).IsWhole := hstage1_4 ((cfg1.slots t 4).cast nbuf1_4)
abbrev ms_5 (t : Fin cfg1.N) : Memref sig .tc .vmem S1x128 .f32 := win1_5.stage (cfg1.slots t 5)
abbrev hs_5 (t : Fin cfg1.N) : (ms_5 t).IsWhole := hstage1_5 ((cfg1.slots t 5).cast nbuf1_5)
abbrev ms_6 (t : Fin cfg1.N) : Memref sig .tc .vmem S1x400x128 .f32 := win1_6.stage (cfg1.slots t 6)
abbrev hs_6 (t : Fin cfg1.N) : (ms_6 t).IsWhole := hstage1_6 ((cfg1.slots t 6).cast nbuf1_6)

theorem live_0 : ∀ t : Fin cfg1.N, cfg1.idle 0 (grid1.coords t) = false := by decide +kernel
theorem live_1 : ∀ t : Fin cfg1.N, cfg1.idle 1 (grid1.coords t) = false := by decide +kernel
theorem live_2 : ∀ t : Fin cfg1.N, cfg1.idle 2 (grid1.coords t) = false := by decide +kernel
theorem live_3 : ∀ t : Fin cfg1.N, cfg1.idle 3 (grid1.coords t) = false := by decide +kernel
theorem live_4 : ∀ t : Fin cfg1.N, cfg1.idle 4 (grid1.coords t) = false := by decide +kernel
theorem live_5 : ∀ t : Fin cfg1.N, cfg1.idle 5 (grid1.coords t) = false := by decide +kernel
theorem live_6 : ∀ t : Fin cfg1.N, cfg1.idle 6 (grid1.coords t) = false := by decide +kernel

theorem leaves_0 (c : Dev nD) (t : Fin cfg1.N) : (dat V c).leavesExact 0 t = owns (c : Thread nD τ) (ms_0 t) fullShare (iblk V c 0 t) := by
  unfold Dat.leavesExact; rw [live_0 t, after_0]
theorem leaves_1 (c : Dev nD) (t : Fin cfg1.N) : (dat V c).leavesExact 1 t = owns (c : Thread nD τ) (ms_1 t) fullShare (iblk V c 1 t) := by
  unfold Dat.leavesExact; rw [live_1 t, after_1]
theorem leaves_2 (c : Dev nD) (t : Fin cfg1.N) : (dat V c).leavesExact 2 t = owns (c : Thread nD τ) (ms_2 t) fullShare (iblk V c 2 t) := by
  unfold Dat.leavesExact; rw [live_2 t, after_2]
theorem leaves_3 (c : Dev nD) (t : Fin cfg1.N) : (dat V c).leavesExact 3 t = owns (c : Thread nD τ) (ms_3 t) fullShare (iblk V c 3 t) := by
  unfold Dat.leavesExact; rw [live_3 t, after_3]
theorem leaves_4 (c : Dev nD) (t : Fin cfg1.N) : (dat V c).leavesExact 4 t = owns (c : Thread nD τ) (ms_4 t) fullShare (iblk V c 4 t) := by
  unfold Dat.leavesExact; rw [live_4 t, after_4]
theorem leaves_5 (c : Dev nD) (t : Fin cfg1.N) : (dat V c).leavesExact 5 t = owns (c : Thread nD τ) (ms_5 t) fullShare (iblk V c 5 t) := by
  unfold Dat.leavesExact; rw [live_5 t, after_5]
theorem leaves_6 (c : Dev nD) (t : Fin cfg1.N) : (dat V c).leavesExact 6 t = owns (c : Thread nD τ) (ms_6 t) fullShare (outAt V c t) := by
  unfold Dat.leavesExact; rw [live_6 t, after_6]

theorem outAt_lt (c : Dev nD) (t : Fin cfg1.N) (h : t.val < 25) :
    outAt V c t = k1_pay4 (AdjBlk V c t.val) (S1 V c) (B1 V c) (W2 V c) := by unfold outAt; rw [if_pos h]
theorem outAt_ge (c : Dev nD) (t : Fin cfg1.N) (h : ¬t.val < 25) :
    outAt V c t = k1_pay5 (AdjBlk V c t.val) (H2 V c) (B2 V c) := by unfold outAt; rw [if_neg h]

/-- The offset of a phase-0 point's slice is 400 times the point. -/
theorem off_at (t : Fin cfg1.N) (h : t.val < 25) : k1_off1 (grid1.coords t) = ![400 * t.val, 0] := by
  rw [hoff t, Nat.mod_eq_of_lt h]

/-! ## The body at a point -/

def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d))
    ∗ (∃ d, owns (c : Thread nD τ) (ms_5 t) fullShare ((dat V c).before 5 t d))
    ∗ (∃ d, owns (c : Thread nD τ) (ms_6 t) fullShare ((dat V c).before 6 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t)

set_option maxHeartbeats 4000000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5]
  rw [show (dat V c).owesAt () t.succ = (dat V c).owesAt () t.castSucc from rfl]
  rw [leaves_0, leaves_1, leaves_2, leaves_3, leaves_4, leaves_5, leaves_6]
  rw [iblk_0 V c t, iblk_1 V c t, iblk_2 V c t, iblk_3 V c t, iblk_4 V c t, iblk_5 V c t]
  rw [Phi_at, Phi_at]
  simp only [Fin.coe_castSucc, Fin.val_succ]
  rw [Phi_succ]
  have hN : t.val < 50 := lt_of_lt_of_eq t.isLt (show cfg1.N = 50 from N_1)
  by_cases h0 : t.val = 0
  · -- the first point
    have h25 : t.val < 25 := by omega
    have hc1 : cond1 (grid1.coords t) := (hcond1 t).mpr h0
    have hc2 : cond2 (grid1.coords t) := (hcond2 t).mpr h25
    have hc3 : ¬cond3 (grid1.coords t) := fun h => by have := (hcond3 t).mp h; omega
    rw [show Phi V c t.val = Pipeline.ΦA spec1 c from by rw [h0]; rfl, outAt_lt V c t h25]
    iintro ⟨HΦ, Ho, ⟨%d0, H0⟩, ⟨%d1, H1⟩, ⟨%d2, H2⟩, ⟨%d3, H3⟩, ⟨%d4, H4⟩, ⟨%d5, H5⟩, ⟨%d6, H6⟩⟩
    ihave HΦ' := (PhiA_open c) $$ HΦ
    icases HΦ' with ⟨⟨%dA, HA⟩, ⟨%dB, HB⟩, Hrest, Hp⟩
    iapply (run_A c Set.univ (grid1.coords t) _ _ _ _ _ _ _ _ _ _ _ _ _ _ _ _ _ _ hc1 hc2 hc3
      (AdjBlk V c t.val) (Xf V c) (W1 V c) (B1 V c) (W2 V c) dA dB _)
    isplitl [H0]; · iexact H0
    isplitl [H1]; · iexact H1
    isplitl [H2]; · iexact H2
    isplitl [H3]; · iexact H3
    isplitl [H4]; · iexact H4
    isplitl [H6]; · iexists _; iexact H6
    isplitl [HA]; · iexact HA
    isplitl [HB]; · iexact HB
    iintro ⟨H0, H1, H2, H3, H4, H6, HA, HB⟩
    isplitl [HA HB Hrest Hp]
    · isplitl [HA]; · iexact HA
      isplitl [HB]
      · iexists _; isplitl [HB]; · iexact HB
        ipureintro
        exact agree_step V c t.val dB (fun i hi => absurd hi (by rw [h0]; omega)) scB (Memref.isWhole_whole _) _ _ (off_at t h25)
      isplitl [Hrest]; · iexact Hrest
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [Phi_pos V c t.val h0]
    by_cases h25 : t.val < 25
    · -- a later point of phase 0
      have hc1 : ¬cond1 (grid1.coords t) := fun h => h0 ((hcond1 t).mp h)
      have hc2 : cond2 (grid1.coords t) := (hcond2 t).mpr h25
      have hc3 : ¬cond3 (grid1.coords t) := fun h => by have := (hcond3 t).mp h; omega
      rw [outAt_lt V c t h25]
      iintro ⟨⟨HA, ⟨%f, HB, %hAg⟩, Hrest, Hp⟩, Ho, ⟨%d0, H0⟩, ⟨%d1, H1⟩, ⟨%d2, H2⟩, ⟨%d3, H3⟩, ⟨%d4, H4⟩, ⟨%d5, H5⟩, ⟨%d6, H6⟩⟩
      iapply (run_B c Set.univ (grid1.coords t) _ _ _ _ _ _ _ _ _ _ _ _ _ _ _ _ _ _ hc1 hc2 hc3
        (AdjBlk V c t.val) (B1 V c) (W2 V c) (S1 V c) f _)
      isplitl [H0]; · iexact H0
      isplitl [H3]; · iexact H3
      isplitl [H4]; · iexact H4
      isplitl [H6]; · iexists _; iexact H6
      isplitl [HA]; · iexact HA
      isplitl [HB]; · iexact HB
      iintro ⟨H0, H3, H4, H6, HA, HB⟩
      isplitl [HA HB Hrest Hp]
      · isplitl [HA]; · iexact HA
        isplitl [HB]
        · iexists _; isplitl [HB]; · iexact HB
          ipureintro
          exact agree_step V c t.val f hAg scB (Memref.isWhole_whole _) _ _ (off_at t h25)
        isplitl [Hrest]; · iexact Hrest
        iexact Hp
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · -- a point of phase 1
      have hc1 : ¬cond1 (grid1.coords t) := fun h => h0 ((hcond1 t).mp h)
      have hc2 : ¬cond2 (grid1.coords t) := fun h => h25 ((hcond2 t).mp h)
      have hc3 : cond3 (grid1.coords t) := (hcond3 t).mpr (by omega)
      rw [outAt_ge V c t h25]
      iintro ⟨⟨HA, ⟨%f, HB, %hAg⟩, Hrest, Hp⟩, Ho, ⟨%d0, H0⟩, ⟨%d1, H1⟩, ⟨%d2, H2⟩, ⟨%d3, H3⟩, ⟨%d4, H4⟩, ⟨%d5, H5⟩, ⟨%d6, H6⟩⟩
      obtain rfl : f = H2 V c := agree_all V c t.val (by omega) f hAg
      iapply (run_C c Set.univ (grid1.coords t) _ _ _ _ _ _ _ _ _ _ _ _ _ _ _ _ _ _ hc1 hc2 hc3
        (AdjBlk V c t.val) (B2 V c) (H2 V c) _)
      isplitl [H0]; · iexact H0
      isplitl [H5]; · iexact H5
      isplitl [H6]; · iexists _; iexact H6
      isplitl [HB]; · iexact HB
      iintro ⟨H0, H5, H6, HB⟩
      isplitl [HA HB Hrest Hp]
      · isplitl [HA]; · iexact HA
        isplitl [HB]
        · iexists _; isplitl [HB]; · iexact HB
          ipureintro
          exact agree_of_eq V c _
        isplitl [Hrest]; · iexact Hrest
        iexact Hp
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The library's body obligation, at every point. -/
theorem body_obligation (c : Dev nD) : BodyObligation (dat (F := F) V c) (defs₀ (F := F)) Variants.none () Set.univ := fun t => by
  rw [bigSep_W1, bigSep_W1]
  exact sound_body V c t

end Cert.Kernel.R1

end
-- ==== Proof.KRun.lean ====
/-
  The run of the program's entry function, at any float model: two reshapes of the first graph's biases, the first
  graph's region, a slice and three reshapes, the second graph's region, a slice and a reshape. The contents of
  every unscoped buffer at each of the six boundaries are a fold from the launch memory; every weakly fair execution
  terminates with every unscoped buffer at the last boundary's contents. Read off that: the arguments end as
  launched, and the two results are the slice and reshape of what the regions' write-backs leave.
-/
import proofs.«103924_g73796128079920_cont_9to1c4b_223_14_alg».proof.Proof.Gen.Kernel.Launch
import proofs.«103924_g73796128079920_cont_9to1c4b_223_14_alg».proof.Proof.Gen.Kernel.Skeleton
import proofs.«103924_g73796128079920_cont_9to1c4b_223_14_alg».proof.Proof.Gen.Kernel.Points
import proofs.«103924_g73796128079920_cont_9to1c4b_223_14_alg».proof.Proof.Gen.Kernel.Regions
import proofs.«103924_g73796128079920_cont_9to1c4b_223_14_alg».proof.Proof.KR0Body
import proofs.«103924_g73796128079920_cont_9to1c4b_223_14_alg».proof.Proof.KR1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through the entry function -/

/-- Core `c`'s buffers at launch. -/
abbrev W0 : Dev nD → Valuation τ sig (Elt F) := fun c b => m ((c : Dev nD), b)
/-- After the first host stretch (the first region's entry). -/
abbrev W1 : Dev nD → Valuation τ sig (Elt F) := fun c => StableHlo.after hostOps0 (W0 m c)
/-- The same read at the core's references: what the first region's proof data take. -/
abbrev V1 : (c : Dev nD) → (b : Ref sig .tc) → Buf (Elt F) ((c : Thread nD τ).loc b) := fun c b => W1 m c b
/-- At the first region's exit: its arrays at what the pipeline leaves (the inputs as entered, the output's
    write-backs folded), every other buffer as entered. -/
def W2 (c : Dev nD) : Valuation τ sig (Elt F) :=
  Pipeline.withArrays spec0 c (W1 m c) fun w => (R0.dat (V1 m) c).arrAt w cfg0.N
theorem W2_arr (c : Dev nD) (w : Fin cfg0.W) :
    W2 m c (Proc.devRef .tc (Pipeline.arrRef spec0 w)) = (R0.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the core's references. -/
abbrev V2 : (c : Dev nD) → (b : Ref sig .tc) → Buf (Elt F) ((c : Thread nD τ).loc b) := fun c b => W2 m c b
theorem hF0 (c : Dev nD) (w : Fin cfg0.W) : (R0.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (the second region's entry). -/
abbrev W3 : Dev nD → Valuation τ sig (Elt F) := fun c => StableHlo.after hostOps1 (W2 m c)
/-- The same read at the core's references: what the second region's proof data take. -/
abbrev V3 : (c : Dev nD) → (b : Ref sig .tc) → Buf (Elt F) ((c : Thread nD τ).loc b) := fun c b => W3 m c b
/-- At the second region's exit. -/
def W4 (c : Dev nD) : Valuation τ sig (Elt F) :=
  Pipeline.withArrays spec1 c (W3 m c) fun w => (R1.dat (V3 m) c).arrAt w cfg1.N
theorem W4_arr (c : Dev nD) (w : Fin cfg1.W) :
    W4 m c (Proc.devRef .tc (Pipeline.arrRef spec1 w)) = (R1.dat (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the core's references. -/
abbrev V4 : (c : Dev nD) → (b : Ref sig .tc) → Buf (Elt F) ((c : Thread nD τ).loc b) := fun c b => W4 m c b
theorem hF1 (c : Dev nD) (w : Fin cfg1.W) : (R1.dat (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the last host stretch: the contents at the return. -/
abbrev W5 : Dev nD → Valuation τ sig (Elt F) := fun c => StableHlo.after hostOps2 (W4 m c)

/-! ## The proof data family and the thread state -/

/-- Each pipeline's proof data at its region's entry contents: a literal match, so that the pinned configuration
    at a numeral reduces to the printed one. -/
def pdats : (p : Fin 2) → (c : Dev nD) → Dat τ (Elt F) Unit ℕ (UR sig nD τ) ℕ (Pipeline.pin (pcfgs (F := F)) adm p) c
  | ⟨0, _⟩ => fun c => R0.dat (V1 m) c
  | ⟨1, _⟩ => fun c => R1.dat (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state, and the
    core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it runs to
    those references at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents, the
    generator register at some state. -/
abbrev Tₙ (c : Dev nD) : sProp 𝕄 := iprop(StableHlo.held (c : Thread nD τ) (Pipeline.ucRefs τ sig) (W5 m c) ∗ ∃ r, prngReg c r)

/-! ## The regions as segments -/

-- a library lemma stated over the pinned configuration unifies with the printed one only when unification may
-- unfold plain definitions in a metavariable's type
set_option backward.isDefEq.respectTransparency.types false in
/-- Region 0 over the thread state: entered from every unscoped buffer at `W1`, left at `W2`. Its
    arrays are split out of the unscoped buffers and put back at the exit contents; the generator register and the
    scoped buffers go into the region's invariant and come back; nothing is owed; the kernel has no semaphore of
    its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (R0.dat (V1 m) c).Φ 0 from rfl]
    refine BIBase.Entails.trans ?_ (R0.hin (V1 m) c)
    unfold Pipeline.ΦA
    iintro ⟨Hp, -, Hr⟩
    isplitl [Hr]; · iexact Hr
    iexact Hp
  hout c := by
    rw [Pipeline.ownSems0_none, show (pdats m 0 c).Φ (Fin.last _) = (R0.dat (V1 m) c).Φ (Fin.last cfg0.N) from rfl]
    refine (R0.hout (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 1 over the thread state: entered from every unscoped buffer at `W3`, left at `W4`. Its
    arrays are split out of the unscoped buffers and put back at the exit contents; the generator register and the
    scoped buffers go into the region's invariant and come back; nothing is owed; the kernel has no semaphore of
    its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (R1.dat (V3 m) c).Φ 0 from rfl]
    refine BIBase.Entails.trans ?_ (R1.hin (V3 m) c)
    unfold Pipeline.ΦA
    iintro ⟨Hp, -, Hr⟩
    isplitl [Hr]; · iexact Hr
    iexact Hp
  hout c := by
    rw [Pipeline.ownSems0_none, show (pdats m 1 c).Φ (Fin.last _) = (R1.dat (V3 m) c).Φ (Fin.last cfg1.N) from rfl]
    refine (R1.hout (V3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The entry function as segments, and the launch -/

/-- The five segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
/-- The entry function is the run of the segments. -/
theorem main_run (c : Dev nD) : main (F := F) c = Pipeline.Seg.run (segs m) := (main_chain c).trans (by chain_rfl)

set_option backward.isDefEq.respectTransparency.types false in
/-- At the compiled mesh, from any memory with zero counters, every weakly fair execution of the entry function on
    the cores terminates, nothing faulting, and every final state has every unscoped buffer at the last boundary's
    contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-! ## The arguments end as launched

No host stretch writes an argument, and a region reads it through an input window or bypasses it: the fold at an
argument's buffer walks back to the launch memory. -/

theorem W1_keep (c : Dev nD) (r : Ref sig .tc) (h : r ∉ hostOps0_W) : W1 m c (Proc.devRef .tc r) = W0 m c (Proc.devRef .tc r) :=
  StableHlo.after_of_writes_sub hostOps0 _ hostOps0_writes h
theorem W3_keep (c : Dev nD) (r : Ref sig .tc) (h : r ∉ hostOps1_W) : W3 m c (Proc.devRef .tc r) = W2 m c (Proc.devRef .tc r) :=
  StableHlo.after_of_writes_sub hostOps1 _ hostOps1_writes h
theorem W5_keep (c : Dev nD) (r : Ref sig .tc) (h : r ∉ hostOps2_W) : W5 m c (Proc.devRef .tc r) = W4 m c (Proc.devRef .tc r) :=
  StableHlo.after_of_writes_sub hostOps2 _ hostOps2_writes h
/-- An input window's array leaves the first region as it entered. -/
theorem W2_in (c : Dev nD) (w : Fin cfg0.W) (hin : (cfg0.win w).isOut = false) :
    W2 m c (Proc.devRef .tc (Pipeline.arrRef spec0 w)) = W1 m c (Proc.devRef .tc (Pipeline.arrRef spec0 w)) :=
  (W2_arr m c w).trans (((R0.dat (V1 m) c).arrAt_in w hin _).trans (R0.A_eq (V1 m) c w))
/-- An input window's array leaves the second region as it entered. -/
theorem W4_in (c : Dev nD) (w : Fin cfg1.W) (hin : (cfg1.win w).isOut = false) :
    W4 m c (Proc.devRef .tc (Pipeline.arrRef spec1 w)) = W3 m c (Proc.devRef .tc (Pipeline.arrRef spec1 w)) :=
  (W4_arr m c w).trans (((R1.dat (V3 m) c).arrAt_in w hin _).trans (R1.A_eq (V3 m) c w))

theorem W5_main_arg0 (c : Dev nD) : W5 m c (Proc.devRef .tc main_arg0) = m ((c : Thread nD τ).loc main_arg0) :=
  calc W5 m c (Proc.devRef .tc main_arg0)
    _ = W4 m c (Proc.devRef .tc main_arg0) := W5_keep m c main_arg0 (by decide)
    _ = W3 m c (Proc.devRef .tc main_arg0) := W4_of_ne m c main_arg0 (by decide)
    _ = W2 m c (Proc.devRef .tc main_arg0) := W3_keep m c main_arg0 (by decide)
    _ = W1 m c (Proc.devRef .tc main_arg0) := W2_in m c 0 rfl
    _ = W0 m c (Proc.devRef .tc main_arg0) := W1_keep m c main_arg0 (by decide)
    _ = m ((c : Thread nD τ).loc main_arg0) := rfl
theorem W5_main_arg1 (c : Dev nD) : W5 m c (Proc.devRef .tc main_arg1) = m ((c : Thread nD τ).loc main_arg1) :=
  calc W5 m c (Proc.devRef .tc main_arg1)
    _ = W4 m c (Proc.devRef .tc main_arg1) := W5_keep m c main_arg1 (by decide)
    _ = W3 m c (Proc.devRef .tc main_arg1) := W4_of_ne m c main_arg1 (by decide)
    _ = W2 m c (Proc.devRef .tc main_arg1) := W3_keep m c main_arg1 (by decide)
    _ = W1 m c (Proc.devRef .tc main_arg1) := W2_in m c 1 rfl
    _ = W0 m c (Proc.devRef .tc main_arg1) := W1_keep m c main_arg1 (by decide)
    _ = m ((c : Thread nD τ).loc main_arg1) := rfl
theorem W5_main_arg2 (c : Dev nD) : W5 m c (Proc.devRef .tc main_arg2) = m ((c : Thread nD τ).loc main_arg2) :=
  calc W5 m c (Proc.devRef .tc main_arg2)
    _ = W4 m c (Proc.devRef .tc main_arg2) := W5_keep m c main_arg2 (by decide)
    _ = W3 m c (Proc.devRef .tc main_arg2) := W4_in m c 0 rfl
    _ = W2 m c (Proc.devRef .tc main_arg2) := W3_keep m c main_arg2 (by decide)
    _ = W1 m c (Proc.devRef .tc main_arg2) := W2_of_ne m c main_arg2 (by decide)
    _ = W0 m c (Proc.devRef .tc main_arg2) := W1_keep m c main_arg2 (by decide)
    _ = m ((c : Thread nD τ).loc main_arg2) := rfl
theorem W5_main_arg3 (c : Dev nD) : W5 m c (Proc.devRef .tc main_arg3) = m ((c : Thread nD τ).loc main_arg3) :=
  calc W5 m c (Proc.devRef .tc main_arg3)
    _ = W4 m c (Proc.devRef .tc main_arg3) := W5_keep m c main_arg3 (by decide)
    _ = W3 m c (Proc.devRef .tc main_arg3) := W4_in m c 1 rfl
    _ = W2 m c (Proc.devRef .tc main_arg3) := W3_keep m c main_arg3 (by decide)
    _ = W1 m c (Proc.devRef .tc main_arg3) := W2_of_ne m c main_arg3 (by decide)
    _ = W0 m c (Proc.devRef .tc main_arg3) := W1_keep m c main_arg3 (by decide)
    _ = m ((c : Thread nD τ).loc main_arg3) := rfl
theorem W5_main_arg4 (c : Dev nD) : W5 m c (Proc.devRef .tc main_arg4) = m ((c : Thread nD τ).loc main_arg4) :=
  calc W5 m c (Proc.devRef .tc main_arg4)
    _ = W4 m c (Proc.devRef .tc main_arg4) := W5_keep m c main_arg4 (by decide)
    _ = W3 m c (Proc.devRef .tc main_arg4) := W4_of_ne m c main_arg4 (by decide)
    _ = W2 m c (Proc.devRef .tc main_arg4) := W3_keep m c main_arg4 (by decide)
    _ = W1 m c (Proc.devRef .tc main_arg4) := W2_in m c 2 rfl
    _ = W0 m c (Proc.devRef .tc main_arg4) := W1_keep m c main_arg4 (by decide)
    _ = m ((c : Thread nD τ).loc main_arg4) := rfl
theorem W5_main_arg5 (c : Dev nD) : W5 m c (Proc.devRef .tc main_arg5) = m ((c : Thread nD τ).loc main_arg5) :=
  calc W5 m c (Proc.devRef .tc main_arg5)
    _ = W4 m c (Proc.devRef .tc main_arg5) := W5_keep m c main_arg5 (by decide)
    _ = W3 m c (Proc.devRef .tc main_arg5) := W4_of_ne m c main_arg5 (by decide)
    _ = W2 m c (Proc.devRef .tc main_arg5) := W3_keep m c main_arg5 (by decide)
    _ = W1 m c (Proc.devRef .tc main_arg5) := W2_of_ne m c main_arg5 (by decide)
    _ = W0 m c (Proc.devRef .tc main_arg5) := W1_keep m c main_arg5 (by decide)
    _ = m ((c : Thread nD τ).loc main_arg5) := rfl
theorem W5_main_arg6 (c : Dev nD) : W5 m c (Proc.devRef .tc main_arg6) = m ((c : Thread nD τ).loc main_arg6) :=
  calc W5 m c (Proc.devRef .tc main_arg6)
    _ = W4 m c (Proc.devRef .tc main_arg6) := W5_keep m c main_arg6 (by decide)
    _ = W3 m c (Proc.devRef .tc main_arg6) := W4_of_ne m c main_arg6 (by decide)
    _ = W2 m c (Proc.devRef .tc main_arg6) := W3_keep m c main_arg6 (by decide)
    _ = W1 m c (Proc.devRef .tc main_arg6) := W2_in m c 4 rfl
    _ = W0 m c (Proc.devRef .tc main_arg6) := W1_keep m c main_arg6 (by decide)
    _ = m ((c : Thread nD τ).loc main_arg6) := rfl
theorem W5_main_arg7 (c : Dev nD) : W5 m c (Proc.devRef .tc main_arg7) = m ((c : Thread nD τ).loc main_arg7) :=
  calc W5 m c (Proc.devRef .tc main_arg7)
    _ = W4 m c (Proc.devRef .tc main_arg7) := W5_keep m c main_arg7 (by decide)
    _ = W3 m c (Proc.devRef .tc main_arg7) := W4_of_ne m c main_arg7 (by decide)
    _ = W2 m c (Proc.devRef .tc main_arg7) := W3_keep m c main_arg7 (by decide)
    _ = W1 m c (Proc.devRef .tc main_arg7) := W2_of_ne m c main_arg7 (by decide)
    _ = W0 m c (Proc.devRef .tc main_arg7) := W1_keep m c main_arg7 (by decide)
    _ = m ((c : Thread nD τ).loc main_arg7) := rfl
theorem W5_main_arg8 (c : Dev nD) : W5 m c (Proc.devRef .tc main_arg8) = m ((c : Thread nD τ).loc main_arg8) :=
  calc W5 m c (Proc.devRef .tc main_arg8)
    _ = W4 m c (Proc.devRef .tc main_arg8) := W5_keep m c main_arg8 (by decide)
    _ = W3 m c (Proc.devRef .tc main_arg8) := W4_in m c 2 rfl
    _ = W2 m c (Proc.devRef .tc main_arg8) := W3_keep m c main_arg8 (by decide)
    _ = W1 m c (Proc.devRef .tc main_arg8) := W2_of_ne m c main_arg8 (by decide)
    _ = W0 m c (Proc.devRef .tc main_arg8) := W1_keep m c main_arg8 (by decide)
    _ = m ((c : Thread nD τ).loc main_arg8) := rfl
theorem W5_main_arg9 (c : Dev nD) : W5 m c (Proc.devRef .tc main_arg9) = m ((c : Thread nD τ).loc main_arg9) :=
  calc W5 m c (Proc.devRef .tc main_arg9)
    _ = W4 m c (Proc.devRef .tc main_arg9) := W5_keep m c main_arg9 (by decide)
    _ = W3 m c (Proc.devRef .tc main_arg9) := W4_of_ne m c main_arg9 (by decide)
    _ = W2 m c (Proc.devRef .tc main_arg9) := W3_keep m c main_arg9 (by decide)
    _ = W1 m c (Proc.devRef .tc main_arg9) := W2_of_ne m c main_arg9 (by decide)
    _ = W0 m c (Proc.devRef .tc main_arg9) := W1_keep m c main_arg9 (by decide)
    _ = m ((c : Thread nD τ).loc main_arg9) := rfl
theorem W5_main_arg10 (c : Dev nD) : W5 m c (Proc.devRef .tc main_arg10) = m ((c : Thread nD τ).loc main_arg10) :=
  calc W5 m c (Proc.devRef .tc main_arg10)
    _ = W4 m c (Proc.devRef .tc main_arg10) := W5_keep m c main_arg10 (by decide)
    _ = W3 m c (Proc.devRef .tc main_arg10) := W4_in m c 4 rfl
    _ = W2 m c (Proc.devRef .tc main_arg10) := W3_keep m c main_arg10 (by decide)
    _ = W1 m c (Proc.devRef .tc main_arg10) := W2_of_ne m c main_arg10 (by decide)
    _ = W0 m c (Proc.devRef .tc main_arg10) := W1_keep m c main_arg10 (by decide)
    _ = m ((c : Thread nD τ).loc main_arg10) := rfl
theorem W5_main_arg11 (c : Dev nD) : W5 m c (Proc.devRef .tc main_arg11) = m ((c : Thread nD τ).loc main_arg11) :=
  calc W5 m c (Proc.devRef .tc main_arg11)
    _ = W4 m c (Proc.devRef .tc main_arg11) := W5_keep m c main_arg11 (by decide)
    _ = W3 m c (Proc.devRef .tc main_arg11) := W4_of_ne m c main_arg11 (by decide)
    _ = W2 m c (Proc.devRef .tc main_arg11) := W3_keep m c main_arg11 (by decide)
    _ = W1 m c (Proc.devRef .tc main_arg11) := W2_of_ne m c main_arg11 (by decide)
    _ = W0 m c (Proc.devRef .tc main_arg11) := W1_keep m c main_arg11 (by decide)
    _ = m ((c : Thread nD τ).loc main_arg11) := rfl

/-- Every weakly fair execution of the entry function terminates, nothing faulting, and every final state has the
    argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (W5_main_arg0 m c),
    (h c _ (mem_uc main_arg1 (by decide))).trans (W5_main_arg1 m c),
    (h c _ (mem_uc main_arg2 (by decide))).trans (W5_main_arg2 m c),
    (h c _ (mem_uc main_arg3 (by decide))).trans (W5_main_arg3 m c),
    (h c _ (mem_uc main_arg4 (by decide))).trans (W5_main_arg4 m c),
    (h c _ (mem_uc main_arg5 (by decide))).trans (W5_main_arg5 m c),
    (h c _ (mem_uc main_arg6 (by decide))).trans (W5_main_arg6 m c),
    (h c _ (mem_uc main_arg7 (by decide))).trans (W5_main_arg7 m c),
    (h c _ (mem_uc main_arg8 (by decide))).trans (W5_main_arg8 m c),
    (h c _ (mem_uc main_arg9 (by decide))).trans (W5_main_arg9 m c),
    (h c _ (mem_uc main_arg10 (by decide))).trans (W5_main_arg10 m c),
    (h c _ (mem_uc main_arg11 (by decide))).trans (W5_main_arg11 m c)⟩) (run_all m ρ)

/-! ## What the host stretches compute

Each stretch's result at a buffer it writes, from any contents `V` before it: the operations as printed, applied to
the contents of the buffer they read. -/

section Host
variable (V : Valuation τ sig (Elt F))

theorem after_hostOps0_v0 : StableHlo.after hostOps0 V (Proc.devRef .tc main_v0)
    = shapeCast S1x128 (V (Proc.devRef .tc main_arg5)) shapeCasts_S128_S1x128 := by
  dsimp only [hostOps0]; after_results; rfl
theorem after_hostOps0_v1 : StableHlo.after hostOps0 V (Proc.devRef .tc main_v1)
    = shapeCast S1x128 (V (Proc.devRef .tc main_arg7)) shapeCasts_S128_S1x128 := by
  dsimp only [hostOps0]; after_results; rfl
theorem after_hostOps1_v4 : StableHlo.after hostOps1 V (Proc.devRef .tc main_v4)
    = shapeCast S10000x128 (extractStridedSlice S1x10000x128 ![1, 0, 0] (V (Proc.devRef .tc main_v2)) slices_S2x10000x128_S1x10000x128_1_0_0)
        shapeCasts_S1x10000x128_S10000x128 := by
  dsimp only [hostOps1]; after_results; rfl
theorem after_hostOps1_v5 : StableHlo.after hostOps1 V (Proc.devRef .tc main_v5)
    = shapeCast S1x128 (V (Proc.devRef .tc main_arg9)) shapeCasts_S128_S1x128 := by
  dsimp only [hostOps1]; after_results; rfl
theorem after_hostOps1_v6 : StableHlo.after hostOps1 V (Proc.devRef .tc main_v6)
    = shapeCast S1x128 (V (Proc.devRef .tc main_arg11)) shapeCasts_S128_S1x128 := by
  dsimp only [hostOps1]; after_results; rfl
theorem after_hostOps2_v9 : StableHlo.after hostOps2 V (Proc.devRef .tc main_v9)
    = shapeCast S10000x128 (extractStridedSlice S1x10000x128 ![1, 0, 0] (V (Proc.devRef .tc main_v7)) slices_S2x10000x128_S1x10000x128_1_0_0)
        shapeCasts_S1x10000x128_S10000x128 := by
  dsimp only [hostOps2]; after_results; rfl

end Host

/-! ## What the regions are entered with -/

theorem V1_main_arg0 (c : Dev nD) : V1 m c main_arg0 = m ((c : Thread nD τ).loc main_arg0) := W1_keep m c main_arg0 (by decide)
theorem V1_main_arg1 (c : Dev nD) : V1 m c main_arg1 = m ((c : Thread nD τ).loc main_arg1) := W1_keep m c main_arg1 (by decide)
theorem V1_main_arg4 (c : Dev nD) : V1 m c main_arg4 = m ((c : Thread nD τ).loc main_arg4) := W1_keep m c main_arg4 (by decide)
theorem V1_main_arg6 (c : Dev nD) : V1 m c main_arg6 = m ((c : Thread nD τ).loc main_arg6) := W1_keep m c main_arg6 (by decide)
/-- The first bias as a row. -/
theorem V1_main_v0 (c : Dev nD) : V1 m c main_v0 = shapeCast S1x128 (m ((c : Thread nD τ).loc main_arg5)) shapeCasts_S128_S1x128 :=
  after_hostOps0_v0 (W0 m c)
/-- The second bias as a row. -/
theorem V1_main_v1 (c : Dev nD) : V1 m c main_v1 = shapeCast S1x128 (m ((c : Thread nD τ).loc main_arg7)) shapeCasts_S128_S1x128 :=
  after_hostOps0_v1 (W0 m c)

/-- A buffer neither the first stretch nor the first region writes holds its launch contents after the region. -/
theorem W2_launch (c : Dev nD) (r : Ref sig .tc) (h0 : r ∉ hostOps0_W) (hne : ∀ w, Pipeline.arrRef spec0 w ≠ r) :
    W2 m c (Proc.devRef .tc r) = m ((c : Thread nD τ).loc r) :=
  (W2_of_ne m c r hne).trans (W1_keep m c r h0)

theorem V3_main_arg2 (c : Dev nD) : V3 m c main_arg2 = m ((c : Thread nD τ).loc main_arg2) :=
  (W3_keep m c main_arg2 (by decide)).trans (W2_launch m c main_arg2 (by decide) (by decide))
theorem V3_main_arg3 (c : Dev nD) : V3 m c main_arg3 = m ((c : Thread nD τ).loc main_arg3) :=
  (W3_keep m c main_arg3 (by decide)).trans (W2_launch m c main_arg3 (by decide) (by decide))
theorem V3_main_arg8 (c : Dev nD) : V3 m c main_arg8 = m ((c : Thread nD τ).loc main_arg8) :=
  (W3_keep m c main_arg8 (by decide)).trans (W2_launch m c main_arg8 (by decide) (by decide))
theorem V3_main_arg10 (c : Dev nD) : V3 m c main_arg10 = m ((c : Thread nD τ).loc main_arg10) :=
  (W3_keep m c main_arg10 (by decide)).trans (W2_launch m c main_arg10 (by decide) (by decide))
/-- The second graph's first bias as a row. -/
theorem V3_main_v5 (c : Dev nD) : V3 m c main_v5 = shapeCast S1x128 (m ((c : Thread nD τ).loc main_arg9)) shapeCasts_S128_S1x128 :=
  (after_hostOps1_v5 (W2 m c)).trans (congrArg (fun x => shapeCast S1x128 x shapeCasts_S128_S1x128) (W2_launch m c main_arg9 (by decide) (by decide)))
/-- The second graph's second bias as a row. -/
theorem V3_main_v6 (c : Dev nD) : V3 m c main_v6 = shapeCast S1x128 (m ((c : Thread nD τ).loc main_arg11)) shapeCasts_S128_S1x128 :=
  (after_hostOps1_v6 (W2 m c)).trans (congrArg (fun x => shapeCast S1x128 x shapeCasts_S128_S1x128) (W2_launch m c main_arg11 (by decide) (by decide)))

/-! ## The two results at the return -/

/-- The first result: the second plane of what the first region's write-backs leave in its output array, as a
    matrix. -/
theorem W5_main_v4 (c : Dev nD) : W5 m c (Proc.devRef .tc main_v4)
    = shapeCast S10000x128 (extractStridedSlice S1x10000x128 ![1, 0, 0] ((R0.dat (V1 m) c).arrAt 6 cfg0.N) slices_S2x10000x128_S1x10000x128_1_0_0)
        shapeCasts_S1x10000x128_S10000x128 :=
  calc W5 m c (Proc.devRef .tc main_v4)
    _ = W4 m c (Proc.devRef .tc main_v4) := W5_keep m c main_v4 (by decide)
    _ = W3 m c (Proc.devRef .tc main_v4) := W4_of_ne m c main_v4 (by decide)
    _ = _ := after_hostOps1_v4 (W2 m c)
    _ = _ := congrArg (fun x => shapeCast S10000x128 (extractStridedSlice S1x10000x128 ![1, 0, 0] x slices_S2x10000x128_S1x10000x128_1_0_0)
        shapeCasts_S1x10000x128_S10000x128) (W2_arr m c 6)

/-- The second result: the same of the second region. -/
theorem W5_main_v9 (c : Dev nD) : W5 m c (Proc.devRef .tc main_v9)
    = shapeCast S10000x128 (extractStridedSlice S1x10000x128 ![1, 0, 0] ((R1.dat (V3 m) c).arrAt 6 cfg1.N) slices_S2x10000x128_S1x10000x128_1_0_0)
        shapeCasts_S1x10000x128_S10000x128 :=
  (after_hostOps2_v9 (W4 m c)).trans
    (congrArg (fun x => shapeCast S10000x128 (extractStridedSlice S1x10000x128 ![1, 0, 0] x slices_S2x10000x128_S1x10000x128_1_0_0)
        shapeCasts_S1x10000x128_S10000x128) (W4_arr m c 6))

end Cert.Kernel.Run

end
-- ==== Proof.ClaimsK.lean ====
/-
The word-level program's frame claim: it runs, terminates without a fault, and leaves its argument arrays as launched.
The run is the same chain of host stretches and two regions as at the ideal instance, read at bit patterns; nothing
about the values the kernel computes is claimed here.
-/
import proofs.«103924_g73796128079920_cont_9to1c4b_223_14_alg».proof.Defs
import proofs.«103924_g73796128079920_cont_9to1c4b_223_14_alg».proof.Proof.Gen.Kernel
import proofs.«103924_g73796128079920_cont_9to1c4b_223_14_alg».proof.Proof.Gen.Pre_finite_inputs
import proofs.«103924_g73796128079920_cont_9to1c4b_223_14_alg».proof.Proof.KRun

noncomputable section

namespace Cert.Proof.Claims

open Idealize.ShloMosaic Idealize.SL.Sem

theorem frame_p : Cert.frame_Kernel := fun m ρ _ => Cert.Kernel.Run.frame m ρ

end Cert.Proof.Claims

end
-- ==== Proof.GcnSpec.lean ====
/-
The mathematics of a two-layer graph convolution, index by index, over the extended reals.

For an adjacency matrix `adj` (10000 × 10000), features `x` (10000 × 128), weights `w1`, `w2` (128 × 128) and
biases `b1`, `b2` (128), the result is

  out = adj · (relu (adj · (x · w1) + b1) · w2) + b2,

every product a matrix product grouped exactly as written, every sum a sum over the whole contracted axis, `relu t =
max t 0`, a bias added along the rows. Nothing is reassociated: entry (r, j) of a product uses row r of its left factor and
column j of its right factor, and that is the only fact the two programs' agreement rests on.
-/
import Mathlib
import Idealize.ShloMosaic.PureOps.Ideal
import Idealize.ShloMosaic.Lib.ValueIdx

noncomputable section

open scoped BigOperators

namespace GcnSpec

open Idealize.ShloMosaic Idealize.ShloMosaic.ValueIdx

/-- The adjacency matrix's shape. -/
abbrev Sadj : Shape := ⟨2, ![10000, 10000]⟩
/-- The shape of the features, of every intermediate, and of the result. -/
abbrev Sx : Shape := ⟨2, ![10000, 128]⟩
/-- A weight matrix's shape. -/
abbrev Sw : Shape := ⟨2, ![128, 128]⟩
/-- A bias vector's shape. -/
abbrev Sb : Shape := ⟨1, ![128]⟩

/-- The features times the first weights: entry (r, j) is the sum over k of x (r, k) · w1 (k, j). -/
def s1 (x : Sx.Idx → EReal) (w1 : Sw.Idx → EReal) : Sx.Idx → EReal := fun i =>
  ∑ k : Fin 128, x (ix2 (i 0) k) * w1 (ix2 k (i 1))

/-- The hidden layer times the second weights: entry (r, j) is the sum over k of
    max (Σ_q adj (r, q) · s1 (q, k) + b1 k) 0 · w2 (k, j). -/
def h2 (adj : Sadj.Idx → EReal) (x : Sx.Idx → EReal) (w1 : Sw.Idx → EReal) (b1 : Sb.Idx → EReal) (w2 : Sw.Idx → EReal) :
    Sx.Idx → EReal := fun i =>
  ∑ k : Fin 128, max ((∑ q : Fin 10000, adj (ix2 (i 0) q) * s1 x w1 (ix2 q k)) + b1 (ix1 k)) 0 * w2 (ix2 k (i 1))

/-- The result: entry (r, j) is Σ_q adj (r, q) · h2 (q, j) + b2 j. -/
def out (adj : Sadj.Idx → EReal) (x : Sx.Idx → EReal) (w1 : Sw.Idx → EReal) (b1 : Sb.Idx → EReal) (w2 : Sw.Idx → EReal)
    (b2 : Sb.Idx → EReal) : Sx.Idx → EReal := fun i =>
  (∑ q : Fin 10000, adj (ix2 (i 0) q) * h2 adj x w1 b1 w2 (ix2 q (i 1))) + b2 (ix1 (i 1))

/-- `s1` at an index given by its coordinates. -/
theorem s1_ix2 (x : Sx.Idx → EReal) (w1 : Sw.Idx → EReal) (r : Fin 10000) (j : Fin 128) :
    s1 x w1 (ix2 r j) = ∑ k : Fin 128, x (ix2 r k) * w1 (ix2 k j) := rfl

/-- `h2` at an index given by its coordinates. -/
theorem h2_ix2 (adj : Sadj.Idx → EReal) (x : Sx.Idx → EReal) (w1 : Sw.Idx → EReal) (b1 : Sb.Idx → EReal) (w2 : Sw.Idx → EReal)
    (r : Fin 10000) (j : Fin 128) :
    h2 adj x w1 b1 w2 (ix2 r j)
      = ∑ k : Fin 128, max ((∑ q : Fin 10000, adj (ix2 r q) * s1 x w1 (ix2 q k)) + b1 (ix1 k)) 0 * w2 (ix2 k j) := rfl

/-- `out` at an index given by its coordinates. -/
theorem out_ix2 (adj : Sadj.Idx → EReal) (x : Sx.Idx → EReal) (w1 : Sw.Idx → EReal) (b1 : Sb.Idx → EReal) (w2 : Sw.Idx → EReal)
    (b2 : Sb.Idx → EReal) (r : Fin 10000) (j : Fin 128) :
    out adj x w1 b1 w2 b2 (ix2 r j)
      = (∑ q : Fin 10000, adj (ix2 r q) * h2 adj x w1 b1 w2 (ix2 q j)) + b2 (ix1 j) := rfl

end GcnSpec

end
-- ==== Proof.RefIsSpec.lean ====
/-
The reference program computes the specification.

The reference applies, to whole arrays and in this order: x · w1; adj · (that); a row bias broadcast down the rows; a
maximum with zero; (that) · w2; adj · (that); a second row bias. Read at an entry, every product is the sum over its
contracted axis, every broadcast reads the bias at the column, and the operations compose to the formula
`GcnSpec.out` states, for each of the two graphs.
-/
import proofs.«103924_g73796128079920_cont_9to1c4b_223_14_alg».proof.Proof.Gen.ReferenceIdeal.Read
import proofs.«103924_g73796128079920_cont_9to1c4b_223_14_alg».proof.Proof.GcnSpec

noncomputable section

open scoped BigOperators

namespace Cert.RefIsSpec

open Cert.ReferenceIdeal Cert.ReferenceIdeal.Read Idealize.ShloMosaic Idealize.ShloMosaic.ValueIdx

/-! ## Graph g0 -/

theorem lidx_v0 (r : Fin 10000) (j : Fin 128) (k : Fin 128) : lidx_main_v0 (ix2 r j) k = ix2 r k :=
  funext fun a => Fin.ext (by match a with | ⟨0, _⟩ => rfl | ⟨1, _⟩ => rfl)
theorem ridx_v0 (r : Fin 10000) (j : Fin 128) (k : Fin 128) : ridx_main_v0 (ix2 r j) k = ix2 k j :=
  funext fun a => Fin.ext (by match a with | ⟨0, _⟩ => rfl | ⟨1, _⟩ => rfl)
theorem lidx_v1 (r : Fin 10000) (j : Fin 128) (q : Fin 10000) : lidx_main_v1 (ix2 r j) q = ix2 r q :=
  funext fun a => Fin.ext (by match a with | ⟨0, _⟩ => rfl | ⟨1, _⟩ => rfl)
theorem ridx_v1 (r : Fin 10000) (j : Fin 128) (q : Fin 10000) : ridx_main_v1 (ix2 r j) q = ix2 q j :=
  funext fun a => Fin.ext (by match a with | ⟨0, _⟩ => rfl | ⟨1, _⟩ => rfl)
theorem idx_v2 (u : Fin 1) (j : Fin 128) : idx_main_v2 (ix2 u j) = ix1 j :=
  funext fun a => Fin.ext (by match a with | ⟨0, _⟩ => rfl)
theorem idx_v3 (r : Fin 10000) (j : Fin 128) : idx_main_v3 (ix2 r j) = ix2 (0 : Fin 1) j :=
  funext fun a => Fin.ext (by match a with | ⟨0, _⟩ => rfl | ⟨1, _⟩ => rfl)
theorem lidx_v6 (r : Fin 10000) (j : Fin 128) (k : Fin 128) : lidx_main_v6 (ix2 r j) k = ix2 r k :=
  funext fun a => Fin.ext (by match a with | ⟨0, _⟩ => rfl | ⟨1, _⟩ => rfl)
theorem ridx_v6 (r : Fin 10000) (j : Fin 128) (k : Fin 128) : ridx_main_v6 (ix2 r j) k = ix2 k j :=
  funext fun a => Fin.ext (by match a with | ⟨0, _⟩ => rfl | ⟨1, _⟩ => rfl)
theorem lidx_v7 (r : Fin 10000) (j : Fin 128) (q : Fin 10000) : lidx_main_v7 (ix2 r j) q = ix2 r q :=
  funext fun a => Fin.ext (by match a with | ⟨0, _⟩ => rfl | ⟨1, _⟩ => rfl)
theorem ridx_v7 (r : Fin 10000) (j : Fin 128) (q : Fin 10000) : ridx_main_v7 (ix2 r j) q = ix2 q j :=
  funext fun a => Fin.ext (by match a with | ⟨0, _⟩ => rfl | ⟨1, _⟩ => rfl)
theorem idx_v8 (u : Fin 1) (j : Fin 128) : idx_main_v8 (ix2 u j) = ix1 j :=
  funext fun a => Fin.ext (by match a with | ⟨0, _⟩ => rfl)
theorem idx_v9 (r : Fin 10000) (j : Fin 128) : idx_main_v9 (ix2 r j) = ix2 (0 : Fin 1) j :=
  funext fun a => Fin.ext (by match a with | ⟨0, _⟩ => rfl | ⟨1, _⟩ => rfl)

/-- The reference's first product is x · w1. -/
theorem ref_s1_g0 (x1 : (⟨S10000x128, .f32⟩ : BufTy).Contents (Elt Ideal)) (x4 : (⟨S128x128, .f32⟩ : BufTy).Contents (Elt Ideal)) :
    val_main_v0 (F := Ideal) x1 x4 = GcnSpec.s1 x1 x4 := by
  funext i
  obtain ⟨r, j, rfl⟩ : ∃ (r : Fin 10000) (j : Fin 128), i = ix2 r j := ⟨i 0, i 1, eq_ix2 i⟩
  rw [val_main_v0_apply, GcnSpec.s1_ix2]
  simp only [lidx_v0, ridx_v0]

/-- The reference's row bias, broadcast in two steps, at an entry is the bias at the column. -/
theorem ref_bias_3 (b : (⟨S128, .f32⟩ : BufTy).Contents (Elt Ideal)) (r : Fin 10000) (j : Fin 128) :
    val_main_v3 (F := Ideal) b (ix2 r j) = b (ix1 j) := by
  rw [val_main_v3_apply, idx_v3, val_main_v2_apply, idx_v2]
theorem ref_bias_9 (b : (⟨S128, .f32⟩ : BufTy).Contents (Elt Ideal)) (r : Fin 10000) (j : Fin 128) :
    val_main_v9 (F := Ideal) b (ix2 r j) = b (ix1 j) := by
  rw [val_main_v9_apply, idx_v9, val_main_v8_apply, idx_v8]

/-- The reference's hidden layer at an entry: max (Σ_q adj (r, q) · s1 (q, k) + b1 k) 0. -/
theorem ref_relu_g0 (x0 : (⟨S10000x10000, .f32⟩ : BufTy).Contents (Elt Ideal)) (x1 : (⟨S10000x128, .f32⟩ : BufTy).Contents (Elt Ideal)) (x4 : (⟨S128x128, .f32⟩ : BufTy).Contents (Elt Ideal)) (x5 : (⟨S128, .f32⟩ : BufTy).Contents (Elt Ideal))
    (r : Fin 10000) (k : Fin 128) :
    val_main_v5 (F := Ideal) x0 x1 x4 x5 (ix2 r k)
      = max ((∑ q : Fin 10000, x0 (ix2 r q) * GcnSpec.s1 x1 x4 (ix2 q k)) + x5 (ix1 k)) 0 := by
  rw [val_main_v5_apply, val_main_v4_apply, val_main_v1_apply, ref_s1_g0, ref_bias_3, val_main_call0_v0_apply,
    val_main_call0_cst_apply]
  simp only [lidx_v1, ridx_v1, Ideal.addf_def, Ideal.maximumf_def, Ideal.ofBits_def, Ideal.ofBits_zero_f32]

/-- The reference's second product is relu (adj · s1 + b1) · w2. -/
theorem ref_h2_g0 (x0 : (⟨S10000x10000, .f32⟩ : BufTy).Contents (Elt Ideal)) (x1 : (⟨S10000x128, .f32⟩ : BufTy).Contents (Elt Ideal)) (x4 : (⟨S128x128, .f32⟩ : BufTy).Contents (Elt Ideal)) (x5 : (⟨S128, .f32⟩ : BufTy).Contents (Elt Ideal))
    (x6 : (⟨S128x128, .f32⟩ : BufTy).Contents (Elt Ideal)) :
    val_main_v6 (F := Ideal) x0 x1 x4 x5 x6 = GcnSpec.h2 x0 x1 x4 x5 x6 := by
  funext i
  obtain ⟨r, j, rfl⟩ : ∃ (r : Fin 10000) (j : Fin 128), i = ix2 r j := ⟨i 0, i 1, eq_ix2 i⟩
  rw [val_main_v6_apply, GcnSpec.h2_ix2]
  simp only [lidx_v6, ridx_v6, ref_relu_g0]

/-- The reference's first result is the specification of the first graph's arguments. -/
theorem ref_out0 (x0 : (⟨S10000x10000, .f32⟩ : BufTy).Contents (Elt Ideal)) (x1 : (⟨S10000x128, .f32⟩ : BufTy).Contents (Elt Ideal)) (x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal)) :
    val_main_v10 (F := Ideal) x0 x1 x4 x5 x6 x7 = GcnSpec.out x0 x1 x4 x5 x6 x7 := by
  funext i
  obtain ⟨r, j, rfl⟩ : ∃ (r : Fin 10000) (j : Fin 128), i = ix2 r j := ⟨i 0, i 1, eq_ix2 i⟩
  rw [val_main_v10_apply, val_main_v7_apply, ref_h2_g0, ref_bias_9, GcnSpec.out_ix2]
  simp only [lidx_v7, ridx_v7, Ideal.addf_def]

/-! ## Graph g1 -/

theorem lidx_v11 (r : Fin 10000) (j : Fin 128) (k : Fin 128) : lidx_main_v11 (ix2 r j) k = ix2 r k :=
  funext fun a => Fin.ext (by match a with | ⟨0, _⟩ => rfl | ⟨1, _⟩ => rfl)
theorem ridx_v11 (r : Fin 10000) (j : Fin 128) (k : Fin 128) : ridx_main_v11 (ix2 r j) k = ix2 k j :=
  funext fun a => Fin.ext (by match a with | ⟨0, _⟩ => rfl | ⟨1, _⟩ => rfl)
theorem lidx_v12 (r : Fin 10000) (j : Fin 128) (q : Fin 10000) : lidx_main_v12 (ix2 r j) q = ix2 r q :=
  funext fun a => Fin.ext (by match a with | ⟨0, _⟩ => rfl | ⟨1, _⟩ => rfl)
theorem ridx_v12 (r : Fin 10000) (j : Fin 128) (q : Fin 10000) : ridx_main_v12 (ix2 r j) q = ix2 q j :=
  funext fun a => Fin.ext (by match a with | ⟨0, _⟩ => rfl | ⟨1, _⟩ => rfl)
theorem idx_v13 (u : Fin 1) (j : Fin 128) : idx_main_v13 (ix2 u j) = ix1 j :=
  funext fun a => Fin.ext (by match a with | ⟨0, _⟩ => rfl)
theorem idx_v14 (r : Fin 10000) (j : Fin 128) : idx_main_v14 (ix2 r j) = ix2 (0 : Fin 1) j :=
  funext fun a => Fin.ext (by match a with | ⟨0, _⟩ => rfl | ⟨1, _⟩ => rfl)
theorem lidx_v17 (r : Fin 10000) (j : Fin 128) (k : Fin 128) : lidx_main_v17 (ix2 r j) k = ix2 r k :=
  funext fun a => Fin.ext (by match a with | ⟨0, _⟩ => rfl | ⟨1, _⟩ => rfl)
theorem ridx_v17 (r : Fin 10000) (j : Fin 128) (k : Fin 128) : ridx_main_v17 (ix2 r j) k = ix2 k j :=
  funext fun a => Fin.ext (by match a with | ⟨0, _⟩ => rfl | ⟨1, _⟩ => rfl)
theorem lidx_v18 (r : Fin 10000) (j : Fin 128) (q : Fin 10000) : lidx_main_v18 (ix2 r j) q = ix2 r q :=
  funext fun a => Fin.ext (by match a with | ⟨0, _⟩ => rfl | ⟨1, _⟩ => rfl)
theorem ridx_v18 (r : Fin 10000) (j : Fin 128) (q : Fin 10000) : ridx_main_v18 (ix2 r j) q = ix2 q j :=
  funext fun a => Fin.ext (by match a with | ⟨0, _⟩ => rfl | ⟨1, _⟩ => rfl)
theorem idx_v19 (u : Fin 1) (j : Fin 128) : idx_main_v19 (ix2 u j) = ix1 j :=
  funext fun a => Fin.ext (by match a with | ⟨0, _⟩ => rfl)
theorem idx_v20 (r : Fin 10000) (j : Fin 128) : idx_main_v20 (ix2 r j) = ix2 (0 : Fin 1) j :=
  funext fun a => Fin.ext (by match a with | ⟨0, _⟩ => rfl | ⟨1, _⟩ => rfl)

/-- The reference's first product is x · w1. -/
theorem ref_s1_g1 (x3 : (⟨S10000x128, .f32⟩ : BufTy).Contents (Elt Ideal)) (x8 : (⟨S128x128, .f32⟩ : BufTy).Contents (Elt Ideal)) :
    val_main_v11 (F := Ideal) x3 x8 = GcnSpec.s1 x3 x8 := by
  funext i
  obtain ⟨r, j, rfl⟩ : ∃ (r : Fin 10000) (j : Fin 128), i = ix2 r j := ⟨i 0, i 1, eq_ix2 i⟩
  rw [val_main_v11_apply, GcnSpec.s1_ix2]
  simp only [lidx_v11, ridx_v11]

/-- The reference's row bias, broadcast in two steps, at an entry is the bias at the column. -/
theorem ref_bias_14 (b : (⟨S128, .f32⟩ : BufTy).Contents (Elt Ideal)) (r : Fin 10000) (j : Fin 128) :
    val_main_v14 (F := Ideal) b (ix2 r j) = b (ix1 j) := by
  rw [val_main_v14_apply, idx_v14, val_main_v13_apply, idx_v13]
theorem ref_bias_20 (b : (⟨S128, .f32⟩ : BufTy).Contents (Elt Ideal)) (r : Fin 10000) (j : Fin 128) :
    val_main_v20 (F := Ideal) b (ix2 r j) = b (ix1 j) := by
  rw [val_main_v20_apply, idx_v20, val_main_v19_apply, idx_v19]

/-- The reference's hidden layer at an entry: max (Σ_q adj (r, q) · s1 (q, k) + b1 k) 0. -/
theorem ref_relu_g1 (x2 : (⟨S10000x10000, .f32⟩ : BufTy).Contents (Elt Ideal)) (x3 : (⟨S10000x128, .f32⟩ : BufTy).Contents (Elt Ideal)) (x8 : (⟨S128x128, .f32⟩ : BufTy).Contents (Elt Ideal)) (x9 : (⟨S128, .f32⟩ : BufTy).Contents (Elt Ideal))
    (r : Fin 10000) (k : Fin 128) :
    val_main_v16 (F := Ideal) x2 x3 x8 x9 (ix2 r k)
      = max ((∑ q : Fin 10000, x2 (ix2 r q) * GcnSpec.s1 x3 x8 (ix2 q k)) + x9 (ix1 k)) 0 := by
  rw [val_main_v16_apply, val_main_v15_apply, val_main_v12_apply, ref_s1_g1, ref_bias_14, val_main_call1_v0_apply,
    val_main_call1_cst_apply]
  simp only [lidx_v12, ridx_v12, Ideal.addf_def, Ideal.maximumf_def, Ideal.ofBits_def, Ideal.ofBits_zero_f32]

/-- The reference's second product is relu (adj · s1 + b1) · w2. -/
theorem ref_h2_g1 (x2 : (⟨S10000x10000, .f32⟩ : BufTy).Contents (Elt Ideal)) (x3 : (⟨S10000x128, .f32⟩ : BufTy).Contents (Elt Ideal)) (x8 : (⟨S128x128, .f32⟩ : BufTy).Contents (Elt Ideal)) (x9 : (⟨S128, .f32⟩ : BufTy).Contents (Elt Ideal))
    (x10 : (⟨S128x128, .f32⟩ : BufTy).Contents (Elt Ideal)) :
    val_main_v17 (F := Ideal) x2 x3 x8 x9 x10 = GcnSpec.h2 x2 x3 x8 x9 x10 := by
  funext i
  obtain ⟨r, j, rfl⟩ : ∃ (r : Fin 10000) (j : Fin 128), i = ix2 r j := ⟨i 0, i 1, eq_ix2 i⟩
  rw [val_main_v17_apply, GcnSpec.h2_ix2]
  simp only [lidx_v17, ridx_v17, ref_relu_g1]

/-- The reference's second result is the specification of the second graph's arguments. -/
theorem ref_out1 (x2 : (⟨S10000x10000, .f32⟩ : BufTy).Contents (Elt Ideal)) (x3 : (⟨S10000x128, .f32⟩ : BufTy).Contents (Elt Ideal)) (x8 : (⟨S128x128, .f32⟩ : BufTy).Contents (Elt Ideal)) (x9 : (⟨S128, .f32⟩ : BufTy).Contents (Elt Ideal))
    (x10 : (⟨S128x128, .f32⟩ : BufTy).Contents (Elt Ideal)) (x11 : (⟨S128, .f32⟩ : BufTy).Contents (Elt Ideal)) :
    val_main_v21 (F := Ideal) x2 x3 x8 x9 x10 x11 = GcnSpec.out x2 x3 x8 x9 x10 x11 := by
  funext i
  obtain ⟨r, j, rfl⟩ : ∃ (r : Fin 10000) (j : Fin 128), i = ix2 r j := ⟨i 0, i 1, eq_ix2 i⟩
  rw [val_main_v21_apply, val_main_v18_apply, ref_h2_g1, ref_bias_20, GcnSpec.out_ix2]
  simp only [lidx_v18, ridx_v18, Ideal.addf_def]

end Cert.RefIsSpec

end
-- ==== Proof.R0Defs.lean ====
/-
  The first graph's two-layer convolution as one region, at a parameter `V`: the core's buffer contents when
  the region is entered. The grid has 50 points: point t < 25 is phase 0 at row block t, point t ≥ 25 is phase 1
  at row block t - 25. Stated here: the arrays the region reads as whole-array functions; the support
  S1 = X · W1; the hidden product H2 = relu (Adj · S1 + b1) · W2, row block by row block; what each point leaves
  in the output window's staging buffer; the invariant carried between points (the first scratch holds S1, the
  second agrees with H2 on the rows already written); and the proof data over them.
-/
import proofs.«103924_g73796128079920_cont_9to1c4b_223_14_alg».proof.Proof.Gen.KernelIdeal.Launch
import proofs.«103924_g73796128079920_cont_9to1c4b_223_14_alg».proof.Proof.Gen.KernelIdeal.Skeleton
import proofs.«103924_g73796128079920_cont_9to1c4b_223_14_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The arrays the region reads -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency matrix, the features, the two weight matrices and the two bias rows, whole. -/
abbrev Adj (c : Dev nD) : Vec F S10000x10000 .f32 := V c main_arg0
abbrev Xf (c : Dev nD) : Vec F S10000x128 .f32 := V c main_arg1
abbrev W1 (c : Dev nD) : Vec F S128x128 .f32 := V c main_arg4
abbrev B1 (c : Dev nD) : Vec F S1x128 .f32 := V c main_v0
abbrev W2 (c : Dev nD) : Vec F S128x128 .f32 := V c main_arg6
abbrev B2 (c : Dev nD) : Vec F S1x128 .f32 := V c main_v1

/-- Row `400 · (m mod 25) + a` of a 10000-row array is a row. -/
theorem row_lt (m : ℕ) (a : Fin 400) : 400 * (m % 25) + a.val < 10000 := by
  have := Nat.mod_lt m (by decide : 0 < 25); omega

/-- Rows `400 m … 400 m + 399` of the adjacency matrix (row blocks are taken mod 25). -/
def AdjBlk (c : Dev nD) (m : ℕ) : Vec F S400x10000 .f32 :=
  fun y => Adj V c (fun a => match a with
    | ⟨0, _⟩ => (⟨400 * (m % 25) + (y 0).val, row_lt m (y 0)⟩ : Fin 10000)
    | ⟨1, _⟩ => (y 1 : Fin 10000))

/-- The support of the first layer: features times first weights. -/
def S1 (c : Dev nD) : Vec F S10000x128 .f32 := k0_pay1 (Xf V c) (W1 V c)

/-- Row block `m` of the hidden product: relu (block · S1 + b1) · W2. -/
def H2blk (c : Dev nD) (m : ℕ) : Vec F S400x128 .f32 := k0_pay3 (AdjBlk V c m) (S1 V c) (B1 V c) (W2 V c)

/-- The hidden product, whole: row r is row r mod 400 of block r / 400. -/
def H2 (c : Dev nD) : Vec F S10000x128 .f32 :=
  fun i => H2blk V c ((i 0).val / 400) (fun a => match a with
    | ⟨0, _⟩ => (⟨(i 0).val % 400, Nat.mod_lt _ (by decide)⟩ : Fin 400)
    | ⟨1, _⟩ => (i 1 : Fin 128))

/-- What point `t` leaves in the output window's staging buffer: in phase 0 the hidden block, in phase 1 the
    block of the result. -/
def outAt (c : Dev nD) (t : Fin cfg0.N) : Vec F S1x400x128 .f32 :=
  if t.val < 25 then k0_pay4 (AdjBlk V c t.val) (S1 V c) (B1 V c) (W2 V c)
  else k0_pay5 (AdjBlk V c t.val) (H2 V c) (B2 V c)

/-! ## An input window's staging buffer holds its block at every point, fetched there or not

The index of an input window does not move between two fetches, so the block the previous fetch brought is the
block of this point. -/

theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The two scratch buffers and the region's invariant -/

/-- The scratch that holds the support, and the scratch that is filled with the hidden product one row block
    per point of phase 0. -/
abbrev scA : Memref sig .tc .vmem S10000x128 .f32 := Memref.whole cc0_scratch0
abbrev scB : Memref sig .tc .vmem S10000x128 .f32 := Memref.whole cc0_scratch1

/-- The rows below `400 · n` of `f` are the hidden product's. From `n = 25` on that is every row. -/
def Agree (c : Dev nD) (n : ℕ) (f : Vec F S10000x128 .f32) : Prop :=
  ∀ i : S10000x128.Idx, (i 0).val < 400 * n → f i = H2 V c i

/-- The other scoped buffers of the core, unopened. -/
abbrev restBut (c : Dev nD) : sProp 𝕄 :=
  Pipeline.scopedRestBut (Ix := Unit) (Name := ℕ) (U := UR sig nD τ) (Lvl := ℕ) (Val := Elt F) spec0 c [cc0_scratch0, cc0_scratch1]

/-- Before the first point every scoped buffer holds anything. After `n ≥ 1` points the first scratch holds the
    support and the second agrees with the hidden product on its first `400 · n` rows. -/
def Phi (c : Dev nD) : ℕ → sProp 𝕄
  | 0 => Pipeline.ΦA spec0 c
  | n + 1 => iprop(owns (c : Thread nD τ) scA fullShare (S1 V c)
      ∗ (∃ f, owns (c : Thread nD τ) scB fullShare f ∗ ⌜Agree V c (n + 1) f⌝)
      ∗ restBut c ∗ ∃ r, prngReg c r)

/-! ## The proof data -/

/-- The arrays as the region finds them; each input's buffer left at its block; the output's at `outAt`; the
    invariant `Phi`; nothing owed, full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => outAt V c t
  Φ t := Phi V c t.val
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = iblk V c 5 t := by dsimp only [dat]
theorem after_6 (c : Dev nD) (t : Fin cfg0.N) : (dat V c).after 6 t = outAt V c t := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d
theorem before_3 (c : Dev nD) (t : Fin cfg0.N) (d) : (dat V c).before 3 t d = iblk V c 3 t :=
  before_3_of V (dat V c) (A_eq V c 3) (after_3 V c) t d
theorem before_4 (c : Dev nD) (t : Fin cfg0.N) (d) : (dat V c).before 4 t d = iblk V c 4 t :=
  before_4_of V (dat V c) (A_eq V c 4) (after_4 V c) t d
theorem before_5 (c : Dev nD) (t : Fin cfg0.N) (d) : (dat V c).before 5 t d = iblk V c 5 t :=
  before_5_of V (dat V c) (A_eq V c 5) (after_5 V c) t d

theorem Phi_at (c : Dev nD) (t : Fin (cfg0.N + 1)) : (dat V c).Φ t = Phi V c t.val := by dsimp only [dat]

/-- What the launch hands the region is the invariant before the first point. -/
theorem hin (c : Dev nD) : Pipeline.ΦA spec0 c ⊢ (dat V c).Φ 0 := by
  rw [Phi_at]; exact Idealize.SL.BI.Entails.refl _

end Cert.KernelIdeal.R0

end
-- ==== Proof.R0Blocks.lean ====
/-
  Each input window's block, read off the array the region finds, as a function of that array: the adjacency
  window's block at point t is rows 400 · (t mod 25) … 400 · (t mod 25) + 399 of the adjacency matrix; the other
  five windows' blocks are their whole arrays.
-/
import proofs.«103924_g73796128079920_cont_9to1c4b_223_14_alg».proof.Proof.R0Defs

set_option maxRecDepth 16384

noncomputable section

namespace Cert.KernelIdeal.R0

open Idealize.ShloMosaic Idealize.ShloMosaic.TcCoe Idealize.ShloMosaic.Tactic
open Idealize.ShloMosaic.Pipeline (Dat Cfg Window BodyObligation cellOf)
open Cert.KernelIdeal Cert.KernelIdeal.Gen

variable {F : FTy → Type} [FloatOps F]

variable (V : (c : Dev nD) → (b : Ref sig .tc) → Buf (Elt F) ((c : Thread nD τ).loc b))

/-- The index maps of the six input windows, decided over the grid: the adjacency window's row block is the
    point's second coordinate, every other index is zero. -/
theorem idx_in : ∀ t : Fin cfg0.N, win0_0.index t (0 : Fin 2) = t.val % 25 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- The adjacency window's block at point t: rows 400 · (t mod 25) onward. -/
theorem iblk_0 (c : Dev nD) (t : Fin cfg0.N) : (iblk V c 0 t : Vec F S400x10000 .f32) = AdjBlk V c t.val := by
  obtain ⟨e0, e1, -⟩ := idx_in t
  funext y
  unfold iblk AdjBlk
  rw [View.read_apply]
  show V c main_arg0 (((cfg0.win 0).blk t).view.emb y) = V c main_arg0 _
  congr 1
  funext a
  apply Fin.ext
  match a with
  | ⟨0, _⟩ => show win0_0.index t (0 : Fin 2) * 400 + 1 * (y 0).val = 400 * (t.val % 25) + (y 0).val; rw [e0]; omega
  | ⟨1, _⟩ => show win0_0.index t (1 : Fin 2) * 10000 + 1 * (y 1).val = (y 1).val; rw [e1]; omega

/-- The features window's block is the whole array. -/
theorem iblk_1 (c : Dev nD) (t : Fin cfg0.N) : (iblk V c 1 t : Vec F S10000x128 .f32) = Xf V c := by
  obtain ⟨-, -, e0, e1, -⟩ := idx_in t
  funext y
  unfold iblk
  rw [View.read_apply]
  show V c main_arg1 (((cfg0.win 1).blk t).view.emb y) = V c main_arg1 y
  congr 1
  funext a
  apply Fin.ext
  match a with
  | ⟨0, _⟩ => show win0_1.index t (0 : Fin 2) * 10000 + 1 * (y 0).val = (y 0).val; rw [e0]; omega
  | ⟨1, _⟩ => show win0_1.index t (1 : Fin 2) * 128 + 1 * (y 1).val = (y 1).val; rw [e1]; omega

/-- The first weights' block is the whole array. -/
theorem iblk_2 (c : Dev nD) (t : Fin cfg0.N) : (iblk V c 2 t : Vec F S128x128 .f32) = W1 V c := by
  obtain ⟨-, -, -, -, e0, e1, -⟩ := idx_in t
  funext y
  unfold iblk
  rw [View.read_apply]
  show V c main_arg4 (((cfg0.win 2).blk t).view.emb y) = V c main_arg4 y
  congr 1
  funext a
  apply Fin.ext
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

/-- The first bias row's block is the whole array. -/
theorem iblk_3 (c : Dev nD) (t : Fin cfg0.N) : (iblk V c 3 t : Vec F S1x128 .f32) = B1 V c := by
  obtain ⟨-, -, -, -, -, -, e0, e1, -⟩ := idx_in t
  funext y
  unfold iblk
  rw [View.read_apply]
  show V c main_v0 (((cfg0.win 3).blk t).view.emb y) = V c main_v0 y
  congr 1
  funext a
  apply Fin.ext
  match a with
  | ⟨0, _⟩ => show win0_3.index t (0 : Fin 2) * 1 + 1 * (y 0).val = (y 0).val; rw [e0]; omega
  | ⟨1, _⟩ => show win0_3.index t (1 : Fin 2) * 128 + 1 * (y 1).val = (y 1).val; rw [e1]; omega

/-- The second weights' block is the whole array. -/
theorem iblk_4 (c : Dev nD) (t : Fin cfg0.N) : (iblk V c 4 t : Vec F S128x128 .f32) = W2 V c := by
  obtain ⟨-, -, -, -, -, -, -, -, e0, e1, -⟩ := idx_in t
  funext y
  unfold iblk
  rw [View.read_apply]
  show V c main_arg6 (((cfg0.win 4).blk t).view.emb y) = V c main_arg6 y
  congr 1
  funext a
  apply Fin.ext
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

/-- The second bias row's block is the whole array. -/
theorem iblk_5 (c : Dev nD) (t : Fin cfg0.N) : (iblk V c 5 t : Vec F S1x128 .f32) = B2 V c := by
  obtain ⟨-, -, -, -, -, -, -, -, -, -, e0, e1⟩ := idx_in t
  funext y
  unfold iblk
  rw [View.read_apply]
  show V c main_v1 (((cfg0.win 5).blk t).view.emb y) = V c main_v1 y
  congr 1
  funext a
  apply Fin.ext
  match a with
  | ⟨0, _⟩ => show win0_5.index t (0 : Fin 2) * 1 + 1 * (y 0).val = (y 0).val; rw [e0]; omega
  | ⟨1, _⟩ => show win0_5.index t (1 : Fin 2) * 128 + 1 * (y 1).val = (y 1).val; rw [e1]; omega

end Cert.KernelIdeal.R0

end
-- ==== Proof.R0Runs.lean ====
/-
  The kernel body of region 0 in each of its three cases, on whole staging and scratch memrefs: what it reads it
  leaves, and what it writes is the skeleton's payload of what it read. The three branch conditions are scalar
  chains over the grid coordinates: the first holds at the first point only, the second in phase 0, the third
  in phase 1.
-/
import proofs.«103924_g73796128079920_cont_9to1c4b_223_14_alg».proof.Proof.Gen.KernelIdeal.Launch
import proofs.«103924_g73796128079920_cont_9to1c4b_223_14_alg».proof.Proof.Gen.KernelIdeal.Skeleton
import proofs.«103924_g73796128079920_cont_9to1c4b_223_14_alg».proof.Proof.Gen.KernelIdeal.Points
import proofs.«103924_g73796128079920_cont_9to1c4b_223_14_alg».proof.Proof.R0Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.WritesUnit

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The three branch conditions, decided over the grid -/

/-- The first branch (store the support): taken at the first point only. -/
abbrev cond1 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The second branch (phase 0) and the third (phase 1). -/
abbrev cond2 (i : grid0.Coords) : Prop := k0_cond2 i = 1#1
abbrev cond3 (i : grid0.Coords) : Prop := k0_cond3 i = 1#1

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, cond2 (grid0.coords t) ↔ t.val < 25 :=
  (by decide +kernel : ∀ t : Fin grid0.N, cond2 (grid0.coords t) ↔ t.val < 25)
theorem hcond3 : ∀ t : Fin cfg0.N, cond3 (grid0.coords t) ↔ 25 ≤ t.val :=
  (by decide +kernel : ∀ t : Fin grid0.N, cond3 (grid0.coords t) ↔ 25 ≤ t.val)
/-- The row offset of the slice a phase-0 point stores: 400 times its row block. -/
theorem hoff : ∀ t : Fin cfg0.N, k0_off1 (grid0.coords t) = ![400 * (t.val % 25), 0] :=
  (by decide +kernel : ∀ t : Fin grid0.N, k0_off1 (grid0.coords t) = ![400 * (t.val % 25), 0])
/-- The output window is live at every point. -/
theorem live6 : ∀ t : Fin cfg0.N, cfg0.idle 6 (grid0.coords t) = false := by decide +kernel

theorem hz2 : (![0, 0] : Fin 2 → ℕ) = fun _ => 0 := by funext a; fin_cases a <;> rfl
theorem hz3 : (![0, 0, 0] : Fin 3 → ℕ) = fun _ => 0 := by funext a; fin_cases a <;> rfl

/-- A whole-rectangle store, alone, leaves its payload. -/
theorem read_whole_store {sh : Shape} {off : Fin sh.rank → ℕ} (hz : off = fun _ => 0) (inb : ∀ a, off a + sh.size a ≤ sh.size a)
    (M : Memref sig .tc .vmem sh .f32) (f : M.view.ty.Contents (Elt F)) (P : sh.Idx → Elt F .f32) :
    M.view.read (Elt F) (M.view.writes (Elt F) f [⟨Rect.unit off sh.size inb, P⟩]) = P :=
  (View.read_writes_eq_canon _ _ _ (fun y => ⟨_, List.mem_singleton_self _, View.mem_set_unit_zero hz inb y⟩)).trans
    (View.canon_unit_zero hz inb P)

set_option maxHeartbeats 4000000 in
/-- The first point: the body stores the support `x · w1` whole into the first scratch, reads it back, and then does
    what a phase-0 point does with it. -/
theorem run_A (c : Dev nD) (E : Set ℕ) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x400x128 .f32) (harg8 : arg8.IsWhole) (arg9 : Memref sig .tc .vmem S10000x128 .f32) (harg9 : arg9.IsWhole) (arg10 : Memref sig .tc .vmem S10000x128 .f32) (harg10 : arg10.IsWhole)
    (hc1 : cond1 i) (hc2 : cond2 i) (hc3 : ¬cond3 i)
    (a : Vec F S400x10000 .f32) (x : Vec F S10000x128 .f32) (w1 : Vec F S128x128 .f32) (b1 : Vec F S1x128 .f32) (w2 : Vec F S128x128 .f32) (d9 : Vec F S10000x128 .f32) (h : Vec F S10000x128 .f32)
    (K : PUnit → sProp 𝕄) :
    iprop(owns (c : Thread nD τ) arg2 fullShare a ∗ owns (c : Thread nD τ) arg3 fullShare x ∗ owns (c : Thread nD τ) arg4 fullShare w1 ∗ owns (c : Thread nD τ) arg5 fullShare b1 ∗ owns (c : Thread nD τ) arg6 fullShare w2
        ∗ (∃ d, owns (c : Thread nD τ) arg8 fullShare d) ∗ owns (c : Thread nD τ) arg9 fullShare d9 ∗ owns (c : Thread nD τ) arg10 fullShare h
        ∗ (iprop(owns (c : Thread nD τ) arg2 fullShare a ∗ owns (c : Thread nD τ) arg3 fullShare x ∗ owns (c : Thread nD τ) arg4 fullShare w1 ∗ owns (c : Thread nD τ) arg5 fullShare b1 ∗ owns (c : Thread nD τ) arg6 fullShare w2
            ∗ owns (c : Thread nD τ) arg8 fullShare (k0_pay4 a (k0_pay1 x w1) b1 w2) ∗ owns (c : Thread nD τ) arg9 fullShare (k0_pay1 x w1)
            ∗ owns (c : Thread nD τ) arg10 fullShare (arg10.view.read (Elt F) (arg10.view.writes (Elt F) (harg10.unread h)
                [⟨Rect.unit (s := S10000x128) (k0_off1 i) S400x128.size (k0_off1_inb i hc2), k0_pay3 a (k0_pay1 x w1) b1 w2⟩]))) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f2, %hf2, H2⟩, ⟨%f3, %hf3, H3⟩, ⟨%f4, %hf4, H4⟩, ⟨%f5, %hf5, H5⟩, ⟨%f6, %hf6, H6⟩, ⟨%d8, %f8, -, H8⟩, ⟨%f9, %hf9, H9⟩, ⟨%f10, %hf10, H10⟩, Hk⟩
  obtain rfl := harg2.eq_unread hf2; obtain rfl := harg3.eq_unread hf3; obtain rfl := harg4.eq_unread hf4; obtain rfl := harg5.eq_unread hf5; obtain rfl := harg6.eq_unread hf6
  obtain rfl := harg9.eq_unread hf9; obtain rfl := harg10.eq_unread hf10
  sl_exec (disch := first | exact hc1 | exact hc2 | exact hc3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H8]
  · iexists _; isplitr
    swap; · iexact H8
    ipureintro
    refine (read_whole_store hz3 _ arg8 _ _).trans ?_
    sl_unfold_run_names
    simp only [View.readCov_unit_zero (S := S10000x128) arg9.view hz2, View.readAt_eq_ld, harg2.read_unread, harg3.read_unread, harg4.read_unread, harg5.read_unread, harg6.read_unread, harg7.read_unread, harg9.read_unread, harg10.read_unread,
      View.ld_unit_zero (S := S400x10000) hz2, View.ld_unit_zero (S := S10000x128) hz2, View.ld_unit_zero (S := S1x128) hz2, View.ld_unit_zero (S := S128x128) hz2]
  isplitl [H9]
  · iexists _; isplitr
    swap; · iexact H9
    ipureintro
    sl_unfold_run_names
    refine (read_whole_store hz2 _ arg9 _ _).trans ?_
    simp only [View.readCov_unit_zero (S := S10000x128) arg9.view hz2, View.readAt_eq_ld, harg2.read_unread, harg3.read_unread, harg4.read_unread, harg5.read_unread, harg6.read_unread, harg7.read_unread, harg9.read_unread, harg10.read_unread,
      View.ld_unit_zero (S := S400x10000) hz2, View.ld_unit_zero (S := S10000x128) hz2, View.ld_unit_zero (S := S1x128) hz2, View.ld_unit_zero (S := S128x128) hz2]
  iexists _; isplitr
  swap; · iexact H10
  ipureintro
  sl_unfold_run_names
  simp only [View.readCov_unit_zero (S := S10000x128) arg9.view hz2, View.readAt_eq_ld, harg2.read_unread, harg3.read_unread, harg4.read_unread, harg5.read_unread, harg6.read_unread, harg7.read_unread, harg9.read_unread, harg10.read_unread,
      View.ld_unit_zero (S := S400x10000) hz2, View.ld_unit_zero (S := S10000x128) hz2, View.ld_unit_zero (S := S1x128) hz2, View.ld_unit_zero (S := S128x128) hz2]

set_option maxHeartbeats 4000000 in
/-- A phase-0 point that is not the first: from the adjacency block `a`, the support `s1`, the bias row and the second
    weights, the body writes the hidden block whole into the output buffer and into rows `k0_off1 i` of the second
    scratch, and leaves everything it read as it was. -/
theorem run_B (c : Dev nD) (E : Set ℕ) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x400x128 .f32) (harg8 : arg8.IsWhole) (arg9 : Memref sig .tc .vmem S10000x128 .f32) (harg9 : arg9.IsWhole) (arg10 : Memref sig .tc .vmem S10000x128 .f32) (harg10 : arg10.IsWhole)
    (hc1 : ¬cond1 i) (hc2 : cond2 i) (hc3 : ¬cond3 i)
    (a : Vec F S400x10000 .f32) (b1 : Vec F S1x128 .f32) (w2 : Vec F S128x128 .f32) (s1 : Vec F S10000x128 .f32) (h : Vec F S10000x128 .f32)
    (K : PUnit → sProp 𝕄) :
    iprop(owns (c : Thread nD τ) arg2 fullShare a ∗ owns (c : Thread nD τ) arg5 fullShare b1 ∗ owns (c : Thread nD τ) arg6 fullShare w2
        ∗ (∃ d, owns (c : Thread nD τ) arg8 fullShare d) ∗ owns (c : Thread nD τ) arg9 fullShare s1 ∗ owns (c : Thread nD τ) arg10 fullShare h
        ∗ (iprop(owns (c : Thread nD τ) arg2 fullShare a ∗ owns (c : Thread nD τ) arg5 fullShare b1 ∗ owns (c : Thread nD τ) arg6 fullShare w2
            ∗ owns (c : Thread nD τ) arg8 fullShare (k0_pay4 a s1 b1 w2) ∗ owns (c : Thread nD τ) arg9 fullShare s1
            ∗ owns (c : Thread nD τ) arg10 fullShare (arg10.view.read (Elt F) (arg10.view.writes (Elt F) (harg10.unread h)
                [⟨Rect.unit (s := S10000x128) (k0_off1 i) S400x128.size (k0_off1_inb i hc2), k0_pay3 a s1 b1 w2⟩]))) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f2, %hf2, H2⟩, ⟨%f5, %hf5, H5⟩, ⟨%f6, %hf6, H6⟩, ⟨%d8, %f8, -, H8⟩, ⟨%f9, %hf9, H9⟩, ⟨%f10, %hf10, H10⟩, Hk⟩
  obtain rfl := harg2.eq_unread hf2; obtain rfl := harg5.eq_unread hf5; obtain rfl := harg6.eq_unread hf6
  obtain rfl := harg9.eq_unread hf9; obtain rfl := harg10.eq_unread hf10
  sl_exec (disch := first | exact hc1 | exact hc2 | exact hc3)
  sl_step
  iapply Hk
  isplitl [H2]
  · iexists _; isplitr; · ipureintro; exact harg2.read_unread _
    iexact H2
  isplitl [H5]
  · iexists _; isplitr; · ipureintro; exact harg5.read_unread _
    iexact H5
  isplitl [H6]
  · iexists _; isplitr; · ipureintro; exact harg6.read_unread _
    iexact H6
  isplitl [H8]
  · iexists _; isplitr
    swap; · iexact H8
    ipureintro
    refine (read_whole_store hz3 _ arg8 _ _).trans ?_
    simp only [View.readAt_eq_ld, harg2.read_unread, harg3.read_unread, harg4.read_unread, harg5.read_unread, harg6.read_unread, harg7.read_unread, harg9.read_unread, harg10.read_unread,
      View.ld_unit_zero (S := S400x10000) hz2, View.ld_unit_zero (S := S10000x128) hz2, View.ld_unit_zero (S := S1x128) hz2, View.ld_unit_zero (S := S128x128) hz2]
  isplitl [H9]
  · iexists _; isplitr; · ipureintro; exact harg9.read_unread _
    iexact H9
  iexists _; isplitr
  swap; · iexact H10
  ipureintro
  simp only [View.readAt_eq_ld, harg2.read_unread, harg3.read_unread, harg4.read_unread, harg5.read_unread, harg6.read_unread, harg7.read_unread, harg9.read_unread, harg10.read_unread,
      View.ld_unit_zero (S := S400x10000) hz2, View.ld_unit_zero (S := S10000x128) hz2, View.ld_unit_zero (S := S1x128) hz2, View.ld_unit_zero (S := S128x128) hz2]

set_option maxHeartbeats 4000000 in
/-- A phase-1 point: from the adjacency block, the hidden product held whole in the second scratch and the second bias
    row, the body writes the block of the result into the output buffer and changes nothing else. -/
theorem run_C (c : Dev nD) (E : Set ℕ) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x400x128 .f32) (harg8 : arg8.IsWhole) (arg9 : Memref sig .tc .vmem S10000x128 .f32) (harg9 : arg9.IsWhole) (arg10 : Memref sig .tc .vmem S10000x128 .f32) (harg10 : arg10.IsWhole)
    (hc1 : ¬cond1 i) (hc2 : ¬cond2 i) (hc3 : cond3 i)
    (a : Vec F S400x10000 .f32) (b2 : Vec F S1x128 .f32) (h2 : Vec F S10000x128 .f32)
    (K : PUnit → sProp 𝕄) :
    iprop(owns (c : Thread nD τ) arg2 fullShare a ∗ owns (c : Thread nD τ) arg7 fullShare b2
        ∗ (∃ d, owns (c : Thread nD τ) arg8 fullShare d) ∗ owns (c : Thread nD τ) arg10 fullShare h2
        ∗ (iprop(owns (c : Thread nD τ) arg2 fullShare a ∗ owns (c : Thread nD τ) arg7 fullShare b2
            ∗ owns (c : Thread nD τ) arg8 fullShare (k0_pay5 a h2 b2) ∗ owns (c : Thread nD τ) arg10 fullShare h2) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f2, %hf2, H2⟩, ⟨%f7, %hf7, H7⟩, ⟨%d8, %f8, -, H8⟩, ⟨%f10, %hf10, H10⟩, Hk⟩
  obtain rfl := harg2.eq_unread hf2; obtain rfl := harg7.eq_unread hf7; obtain rfl := harg10.eq_unread hf10
  sl_exec (disch := first | exact hc1 | exact hc2 | exact hc3)
  sl_step
  iapply Hk
  isplitl [H2]
  · iexists _; isplitr; · ipureintro; exact harg2.read_unread _
    iexact H2
  isplitl [H7]
  · iexists _; isplitr; · ipureintro; exact harg7.read_unread _
    iexact H7
  isplitl [H8]
  · iexists _; isplitr
    swap; · iexact H8
    ipureintro
    refine (read_whole_store hz3 _ arg8 _ _).trans ?_
    simp only [View.readAt_eq_ld, harg2.read_unread, harg3.read_unread, harg4.read_unread, harg5.read_unread, harg6.read_unread, harg7.read_unread, harg9.read_unread, harg10.read_unread,
      View.ld_unit_zero (S := S400x10000) hz2, View.ld_unit_zero (S := S10000x128) hz2, View.ld_unit_zero (S := S1x128) hz2, View.ld_unit_zero (S := S128x128) hz2]
  iexists _; isplitr; · ipureintro; exact harg10.read_unread _
  iexact H10

end Cert.KernelIdeal.R0

end
-- ==== Proof.R0Body.lean ====
/-
  The body obligation of region 0. At every point the invariant is opened, the case's run is applied to the
  staging memrefs the pipeline passes, and the invariant is closed one point later: the first scratch holds the
  support from the first point on; the second scratch agrees with the hidden product on one more row block after
  each point of phase 0, and is the hidden product throughout phase 1.
-/
import proofs.«103924_g73796128079920_cont_9to1c4b_223_14_alg».proof.Proof.Gen.KernelIdeal.Launch
import proofs.«103924_g73796128079920_cont_9to1c4b_223_14_alg».proof.Proof.Gen.KernelIdeal.Skeleton
import proofs.«103924_g73796128079920_cont_9to1c4b_223_14_alg».proof.Proof.Gen.KernelIdeal.Points
import proofs.«103924_g73796128079920_cont_9to1c4b_223_14_alg».proof.Proof.R0Defs
import proofs.«103924_g73796128079920_cont_9to1c4b_223_14_alg».proof.Proof.R0Blocks
import proofs.«103924_g73796128079920_cont_9to1c4b_223_14_alg».proof.Proof.R0Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.WritesUnit

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The invariant opened and closed -/

theorem scoped_split (c : Dev nD) :
    (Pipeline.scopedRest (Ix := Unit) (Name := ℕ) (U := UR sig nD τ) (Lvl := ℕ) (Val := Elt F) spec0 c : sProp 𝕄)
      = iprop(((∃ d, owns (c : Thread nD τ) scA fullShare d) ∗ (∃ d, owns (c : Thread nD τ) scB fullShare d)) ∗ restBut c) := by
  rw [Pipeline.scopedRest_split_of_list spec0 c [cc0_scratch0, cc0_scratch1] (by decide) (by decide)]
  simp only [bigSepL_cons_cons, bigSepL_singleton, scA, scB, owns_whole]
  rfl

theorem PhiA_open (c : Dev nD) :
    (Pipeline.ΦA spec0 c : sProp 𝕄)
      ⊢ iprop((∃ d, owns (c : Thread nD τ) scA fullShare d) ∗ (∃ d, owns (c : Thread nD τ) scB fullShare d) ∗ restBut c ∗ ∃ r, prngReg c r) := by
  unfold Pipeline.ΦA
  rw [scoped_split]
  iintro ⟨⟨⟨HA, HB⟩, Hr⟩, Hp⟩
  isplitl [HA]; · iexact HA
  isplitl [HB]; · iexact HB
  isplitl [Hr]; · iexact Hr
  iexact Hp

theorem PhiA_close (c : Dev nD) :
    iprop((∃ d, owns (c : Thread nD τ) scA fullShare d) ∗ (∃ d, owns (c : Thread nD τ) scB fullShare d) ∗ restBut c ∗ ∃ r, prngReg c r)
      ⊢ (Pipeline.ΦA spec0 c : sProp 𝕄) := by
  unfold Pipeline.ΦA
  rw [scoped_split]
  iintro ⟨HA, HB, Hr, Hp⟩
  isplitr [Hp]
  · isplitr [Hr]
    · isplitl [HA]; · iexact HA
      iexact HB
    iexact Hr
  iexact Hp

theorem Phi_zero (c : Dev nD) : Phi V c 0 = Pipeline.ΦA spec0 c := rfl

theorem Phi_succ (c : Dev nD) (n : ℕ) :
    Phi V c (n + 1) = iprop(owns (c : Thread nD τ) scA fullShare (S1 V c)
      ∗ (∃ f, owns (c : Thread nD τ) scB fullShare f ∗ ⌜Agree V c (n + 1) f⌝) ∗ restBut c ∗ ∃ r, prngReg c r) := rfl

theorem Phi_pos (c : Dev nD) (n : ℕ) (hn : n ≠ 0) :
    Phi V c n = iprop(owns (c : Thread nD τ) scA fullShare (S1 V c)
      ∗ (∃ f, owns (c : Thread nD τ) scB fullShare f ∗ ⌜Agree V c n f⌝) ∗ restBut c ∗ ∃ r, prngReg c r) := by
  cases n with
  | zero => exact absurd rfl hn
  | succ n => rfl

/-- After the last point the invariant gives back what the launch handed the region. -/
theorem hout (c : Dev nD) : (dat V c).Φ (Fin.last cfg0.N) ⊢ Pipeline.ΦA spec0 c := by
  have hN : (Fin.last cfg0.N).val = 49 + 1 := by rw [Fin.val_last]; exact N_0
  rw [Phi_at, hN, Phi_succ]
  refine BIBase.Entails.trans ?_ (PhiA_close c)
  iintro ⟨HA, ⟨%f, HB, -⟩, Hr, Hp⟩
  isplitl [HA]; · iexists _; iexact HA
  isplitl [HB]; · iexists _; iexact HB
  isplitl [Hr]; · iexact Hr
  iexact Hp

/-- The invariant's step in phase 0: a buffer that agrees with the hidden product on the rows below `400 n`, once
    block `n` is stored at rows `400 n … 400 n + 399`, agrees with it on the rows below `400 (n + 1)`. -/
theorem agree_step (c : Dev nD) (n : ℕ) (h : Vec F S10000x128 .f32) (hAg : Agree V c n h)
    (M : Memref sig .tc .vmem S10000x128 .f32) (hM : M.IsWhole) (off : Fin 2 → ℕ) (inb : ∀ a, off a + S400x128.size a ≤ S10000x128.size a)
    (hoff : off = ![400 * n, 0]) :
    Agree V c (n + 1) (M.view.read (Elt F) (M.view.writes (Elt F) (hM.unread h)
        [⟨Rect.unit (s := S10000x128) off S400x128.size inb, k0_pay3 (AdjBlk V c n) (S1 V c) (B1 V c) (W2 V c)⟩])) := by
  intro i hi
  by_cases hlt : (i 0).val < 400 * n
  · rw [View.read_writes_cons_rows_of_not_mem (o := 400 * n) (W := 400) M.view (hM.unread h) inb _ [] i hoff rfl (Or.inl hlt)]
    rw [View.writes_nil, hM.read_unread]
    exact hAg i hlt
  · have h1 : 400 * n ≤ (i 0).val := Nat.le_of_not_lt hlt
    have h2 : (i 0).val < 400 * n + 400 := by omega
    have hq : (i 0).val / 400 = n := by omega
    rw [View.read_writes_cons_rows_of_mem (o := 400 * n) M.view (hM.unread h) inb _ [] i
      (fun a => match a with
        | ⟨0, _⟩ => (⟨(i 0).val - 400 * n, by omega⟩ : Fin 400)
        | ⟨1, _⟩ => (i 1 : Fin 128)) hoff
      (by show (i 0).val = 400 * n + ((i 0).val - 400 * n); omega) rfl]
    unfold H2 H2blk
    rw [hq]
    refine congrArg _ (funext fun a => ?_)
    match a with
    | ⟨0, _⟩ => exact Fin.ext (by show (i 0).val - 400 * n = (i 0).val % 400; omega)
    | ⟨1, _⟩ => rfl

/-- From 25 blocks on, agreeing on the written rows is being the hidden product. -/
theorem agree_all (c : Dev nD) (n : ℕ) (hn : 25 ≤ n) (h : Vec F S10000x128 .f32) (hAg : Agree V c n h) : h = H2 V c :=
  funext fun i => hAg i (by have := (i 0).isLt; show (i 0).val < 400 * n; have : (i 0).val < 10000 := (i 0).isLt; omega)

theorem agree_of_eq (c : Dev nD) (n : ℕ) : Agree V c n (H2 V c) := fun _ _ => rfl

/-! ## What each window's buffer is handed with and left with -/

abbrev ms_0 (t : Fin cfg0.N) : Memref sig .tc .vmem S400x10000 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S10000x128 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S128x128 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S1x128 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S128x128 .f32 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S1x128 .f32 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S1x400x128 .f32 := win0_6.stage (cfg0.slots t 6)
abbrev hs_6 (t : Fin cfg0.N) : (ms_6 t).IsWhole := hstage0_6 ((cfg0.slots t 6).cast nbuf0_6)

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
theorem live_4 : ∀ t : Fin cfg0.N, cfg0.idle 4 (grid0.coords t) = false := by decide +kernel
theorem live_5 : ∀ t : Fin cfg0.N, cfg0.idle 5 (grid0.coords t) = false := by decide +kernel
theorem live_6 : ∀ t : Fin cfg0.N, cfg0.idle 6 (grid0.coords t) = false := by decide +kernel

theorem leaves_0 (c : Dev nD) (t : Fin cfg0.N) : (dat V c).leavesExact 0 t = owns (c : Thread nD τ) (ms_0 t) fullShare (iblk V c 0 t) := by
  unfold Dat.leavesExact; rw [live_0 t, after_0]
theorem leaves_1 (c : Dev nD) (t : Fin cfg0.N) : (dat V c).leavesExact 1 t = owns (c : Thread nD τ) (ms_1 t) fullShare (iblk V c 1 t) := by
  unfold Dat.leavesExact; rw [live_1 t, after_1]
theorem leaves_2 (c : Dev nD) (t : Fin cfg0.N) : (dat V c).leavesExact 2 t = owns (c : Thread nD τ) (ms_2 t) fullShare (iblk V c 2 t) := by
  unfold Dat.leavesExact; rw [live_2 t, after_2]
theorem leaves_3 (c : Dev nD) (t : Fin cfg0.N) : (dat V c).leavesExact 3 t = owns (c : Thread nD τ) (ms_3 t) fullShare (iblk V c 3 t) := by
  unfold Dat.leavesExact; rw [live_3 t, after_3]
theorem leaves_4 (c : Dev nD) (t : Fin cfg0.N) : (dat V c).leavesExact 4 t = owns (c : Thread nD τ) (ms_4 t) fullShare (iblk V c 4 t) := by
  unfold Dat.leavesExact; rw [live_4 t, after_4]
theorem leaves_5 (c : Dev nD) (t : Fin cfg0.N) : (dat V c).leavesExact 5 t = owns (c : Thread nD τ) (ms_5 t) fullShare (iblk V c 5 t) := by
  unfold Dat.leavesExact; rw [live_5 t, after_5]
theorem leaves_6 (c : Dev nD) (t : Fin cfg0.N) : (dat V c).leavesExact 6 t = owns (c : Thread nD τ) (ms_6 t) fullShare (outAt V c t) := by
  unfold Dat.leavesExact; rw [live_6 t, after_6]

theorem outAt_lt (c : Dev nD) (t : Fin cfg0.N) (h : t.val < 25) :
    outAt V c t = k0_pay4 (AdjBlk V c t.val) (S1 V c) (B1 V c) (W2 V c) := by unfold outAt; rw [if_pos h]
theorem outAt_ge (c : Dev nD) (t : Fin cfg0.N) (h : ¬t.val < 25) :
    outAt V c t = k0_pay5 (AdjBlk V c t.val) (H2 V c) (B2 V c) := by unfold outAt; rw [if_neg h]

/-- The offset of a phase-0 point's slice is 400 times the point. -/
theorem off_at (t : Fin cfg0.N) (h : t.val < 25) : k0_off1 (grid0.coords t) = ![400 * t.val, 0] := by
  rw [hoff t, Nat.mod_eq_of_lt h]

/-! ## The body at a point -/

def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d))
    ∗ (∃ d, owns (c : Thread nD τ) (ms_5 t) fullShare ((dat V c).before 5 t d))
    ∗ (∃ d, owns (c : Thread nD τ) (ms_6 t) fullShare ((dat V c).before 6 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t)

set_option maxHeartbeats 4000000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5]
  rw [show (dat V c).owesAt () t.succ = (dat V c).owesAt () t.castSucc from rfl]
  rw [leaves_0, leaves_1, leaves_2, leaves_3, leaves_4, leaves_5, leaves_6]
  rw [iblk_0 V c t, iblk_1 V c t, iblk_2 V c t, iblk_3 V c t, iblk_4 V c t, iblk_5 V c t]
  rw [Phi_at, Phi_at]
  simp only [Fin.coe_castSucc, Fin.val_succ]
  rw [Phi_succ]
  have hN : t.val < 50 := lt_of_lt_of_eq t.isLt (show cfg0.N = 50 from N_0)
  by_cases h0 : t.val = 0
  · -- the first point
    have h25 : t.val < 25 := by omega
    have hc1 : cond1 (grid0.coords t) := (hcond1 t).mpr h0
    have hc2 : cond2 (grid0.coords t) := (hcond2 t).mpr h25
    have hc3 : ¬cond3 (grid0.coords t) := fun h => by have := (hcond3 t).mp h; omega
    rw [show Phi V c t.val = Pipeline.ΦA spec0 c from by rw [h0]; rfl, outAt_lt V c t h25]
    iintro ⟨HΦ, Ho, ⟨%d0, H0⟩, ⟨%d1, H1⟩, ⟨%d2, H2⟩, ⟨%d3, H3⟩, ⟨%d4, H4⟩, ⟨%d5, H5⟩, ⟨%d6, H6⟩⟩
    ihave HΦ' := (PhiA_open c) $$ HΦ
    icases HΦ' with ⟨⟨%dA, HA⟩, ⟨%dB, HB⟩, Hrest, Hp⟩
    iapply (run_A c Set.univ (grid0.coords t) _ _ _ _ _ _ _ _ _ _ _ _ _ _ _ _ _ _ hc1 hc2 hc3
      (AdjBlk V c t.val) (Xf V c) (W1 V c) (B1 V c) (W2 V c) dA dB _)
    isplitl [H0]; · iexact H0
    isplitl [H1]; · iexact H1
    isplitl [H2]; · iexact H2
    isplitl [H3]; · iexact H3
    isplitl [H4]; · iexact H4
    isplitl [H6]; · iexists _; iexact H6
    isplitl [HA]; · iexact HA
    isplitl [HB]; · iexact HB
    iintro ⟨H0, H1, H2, H3, H4, H6, HA, HB⟩
    isplitl [HA HB Hrest Hp]
    · isplitl [HA]; · iexact HA
      isplitl [HB]
      · iexists _; isplitl [HB]; · iexact HB
        ipureintro
        exact agree_step V c t.val dB (fun i hi => absurd hi (by rw [h0]; omega)) scB (Memref.isWhole_whole _) _ _ (off_at t h25)
      isplitl [Hrest]; · iexact Hrest
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [Phi_pos V c t.val h0]
    by_cases h25 : t.val < 25
    · -- a later point of phase 0
      have hc1 : ¬cond1 (grid0.coords t) := fun h => h0 ((hcond1 t).mp h)
      have hc2 : cond2 (grid0.coords t) := (hcond2 t).mpr h25
      have hc3 : ¬cond3 (grid0.coords t) := fun h => by have := (hcond3 t).mp h; omega
      rw [outAt_lt V c t h25]
      iintro ⟨⟨HA, ⟨%f, HB, %hAg⟩, Hrest, Hp⟩, Ho, ⟨%d0, H0⟩, ⟨%d1, H1⟩, ⟨%d2, H2⟩, ⟨%d3, H3⟩, ⟨%d4, H4⟩, ⟨%d5, H5⟩, ⟨%d6, H6⟩⟩
      iapply (run_B c Set.univ (grid0.coords t) _ _ _ _ _ _ _ _ _ _ _ _ _ _ _ _ _ _ hc1 hc2 hc3
        (AdjBlk V c t.val) (B1 V c) (W2 V c) (S1 V c) f _)
      isplitl [H0]; · iexact H0
      isplitl [H3]; · iexact H3
      isplitl [H4]; · iexact H4
      isplitl [H6]; · iexists _; iexact H6
      isplitl [HA]; · iexact HA
      isplitl [HB]; · iexact HB
      iintro ⟨H0, H3, H4, H6, HA, HB⟩
      isplitl [HA HB Hrest Hp]
      · isplitl [HA]; · iexact HA
        isplitl [HB]
        · iexists _; isplitl [HB]; · iexact HB
          ipureintro
          exact agree_step V c t.val f hAg scB (Memref.isWhole_whole _) _ _ (off_at t h25)
        isplitl [Hrest]; · iexact Hrest
        iexact Hp
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · -- a point of phase 1
      have hc1 : ¬cond1 (grid0.coords t) := fun h => h0 ((hcond1 t).mp h)
      have hc2 : ¬cond2 (grid0.coords t) := fun h => h25 ((hcond2 t).mp h)
      have hc3 : cond3 (grid0.coords t) := (hcond3 t).mpr (by omega)
      rw [outAt_ge V c t h25]
      iintro ⟨⟨HA, ⟨%f, HB, %hAg⟩, Hrest, Hp⟩, Ho, ⟨%d0, H0⟩, ⟨%d1, H1⟩, ⟨%d2, H2⟩, ⟨%d3, H3⟩, ⟨%d4, H4⟩, ⟨%d5, H5⟩, ⟨%d6, H6⟩⟩
      obtain rfl : f = H2 V c := agree_all V c t.val (by omega) f hAg
      iapply (run_C c Set.univ (grid0.coords t) _ _ _ _ _ _ _ _ _ _ _ _ _ _ _ _ _ _ hc1 hc2 hc3
        (AdjBlk V c t.val) (B2 V c) (H2 V c) _)
      isplitl [H0]; · iexact H0
      isplitl [H5]; · iexact H5
      isplitl [H6]; · iexists _; iexact H6
      isplitl [HB]; · iexact HB
      iintro ⟨H0, H5, H6, HB⟩
      isplitl [HA HB Hrest Hp]
      · isplitl [HA]; · iexact HA
        isplitl [HB]
        · iexists _; isplitl [HB]; · iexact HB
          ipureintro
          exact agree_of_eq V c _
        isplitl [Hrest]; · iexact Hrest
        iexact Hp
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.R0

end
-- ==== Proof.R1Defs.lean ====
/-
  The second graph's two-layer convolution as one region, at a parameter `V`: the core's buffer contents when
  the region is entered. The grid has 50 points: point t < 25 is phase 0 at row block t, point t ≥ 25 is phase 1
  at row block t - 25. Stated here: the arrays the region reads as whole-array functions; the support
  S1 = X · W1; the hidden product H2 = relu (Adj · S1 + b1) · W2, row block by row block; what each point leaves
  in the output window's staging buffer; the invariant carried between points (the first scratch holds S1, the
  second agrees with H2 on the rows already written); and the proof data over them.
-/
import proofs.«103924_g73796128079920_cont_9to1c4b_223_14_alg».proof.Proof.Gen.KernelIdeal.Launch
import proofs.«103924_g73796128079920_cont_9to1c4b_223_14_alg».proof.Proof.Gen.KernelIdeal.Skeleton
import proofs.«103924_g73796128079920_cont_9to1c4b_223_14_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The arrays the region reads -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency matrix, the features, the two weight matrices and the two bias rows, whole. -/
abbrev Adj (c : Dev nD) : Vec F S10000x10000 .f32 := V c main_arg2
abbrev Xf (c : Dev nD) : Vec F S10000x128 .f32 := V c main_arg3
abbrev W1 (c : Dev nD) : Vec F S128x128 .f32 := V c main_arg8
abbrev B1 (c : Dev nD) : Vec F S1x128 .f32 := V c main_v5
abbrev W2 (c : Dev nD) : Vec F S128x128 .f32 := V c main_arg10
abbrev B2 (c : Dev nD) : Vec F S1x128 .f32 := V c main_v6

/-- Row `400 · (m mod 25) + a` of a 10000-row array is a row. -/
theorem row_lt (m : ℕ) (a : Fin 400) : 400 * (m % 25) + a.val < 10000 := by
  have := Nat.mod_lt m (by decide : 0 < 25); omega

/-- Rows `400 m … 400 m + 399` of the adjacency matrix (row blocks are taken mod 25). -/
def AdjBlk (c : Dev nD) (m : ℕ) : Vec F S400x10000 .f32 :=
  fun y => Adj V c (fun a => match a with
    | ⟨0, _⟩ => (⟨400 * (m % 25) + (y 0).val, row_lt m (y 0)⟩ : Fin 10000)
    | ⟨1, _⟩ => (y 1 : Fin 10000))

/-- The support of the first layer: features times first weights. -/
def S1 (c : Dev nD) : Vec F S10000x128 .f32 := k1_pay1 (Xf V c) (W1 V c)

/-- Row block `m` of the hidden product: relu (block · S1 + b1) · W2. -/
def H2blk (c : Dev nD) (m : ℕ) : Vec F S400x128 .f32 := k1_pay3 (AdjBlk V c m) (S1 V c) (B1 V c) (W2 V c)

/-- The hidden product, whole: row r is row r mod 400 of block r / 400. -/
def H2 (c : Dev nD) : Vec F S10000x128 .f32 :=
  fun i => H2blk V c ((i 0).val / 400) (fun a => match a with
    | ⟨0, _⟩ => (⟨(i 0).val % 400, Nat.mod_lt _ (by decide)⟩ : Fin 400)
    | ⟨1, _⟩ => (i 1 : Fin 128))

/-- What point `t` leaves in the output window's staging buffer: in phase 0 the hidden block, in phase 1 the
    block of the result. -/
def outAt (c : Dev nD) (t : Fin cfg1.N) : Vec F S1x400x128 .f32 :=
  if t.val < 25 then k1_pay4 (AdjBlk V c t.val) (S1 V c) (B1 V c) (W2 V c)
  else k1_pay5 (AdjBlk V c t.val) (H2 V c) (B2 V c)

/-! ## An input window's staging buffer holds its block at every point, fetched there or not

The index of an input window does not move between two fetches, so the block the previous fetch brought is the
block of this point. -/

theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The two scratch buffers and the region's invariant -/

/-- The scratch that holds the support, and the scratch that is filled with the hidden product one row block
    per point of phase 0. -/
abbrev scA : Memref sig .tc .vmem S10000x128 .f32 := Memref.whole cc1_scratch0
abbrev scB : Memref sig .tc .vmem S10000x128 .f32 := Memref.whole cc1_scratch1

/-- The rows below `400 · n` of `f` are the hidden product's. From `n = 25` on that is every row. -/
def Agree (c : Dev nD) (n : ℕ) (f : Vec F S10000x128 .f32) : Prop :=
  ∀ i : S10000x128.Idx, (i 0).val < 400 * n → f i = H2 V c i

/-- The other scoped buffers of the core, unopened. -/
abbrev restBut (c : Dev nD) : sProp 𝕄 :=
  Pipeline.scopedRestBut (Ix := Unit) (Name := ℕ) (U := UR sig nD τ) (Lvl := ℕ) (Val := Elt F) spec1 c [cc1_scratch0, cc1_scratch1]

/-- Before the first point every scoped buffer holds anything. After `n ≥ 1` points the first scratch holds the
    support and the second agrees with the hidden product on its first `400 · n` rows. -/
def Phi (c : Dev nD) : ℕ → sProp 𝕄
  | 0 => Pipeline.ΦA spec1 c
  | n + 1 => iprop(owns (c : Thread nD τ) scA fullShare (S1 V c)
      ∗ (∃ f, owns (c : Thread nD τ) scB fullShare f ∗ ⌜Agree V c (n + 1) f⌝)
      ∗ restBut c ∗ ∃ r, prngReg c r)

/-! ## The proof data -/

/-- The arrays as the region finds them; each input's buffer left at its block; the output's at `outAt`; the
    invariant `Phi`; nothing owed, full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => outAt V c t
  Φ t := Phi V c t.val
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = outAt V c t := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d
theorem before_4 (c : Dev nD) (t : Fin cfg1.N) (d) : (dat V c).before 4 t d = iblk V c 4 t :=
  before_4_of V (dat V c) (A_eq V c 4) (after_4 V c) t d
theorem before_5 (c : Dev nD) (t : Fin cfg1.N) (d) : (dat V c).before 5 t d = iblk V c 5 t :=
  before_5_of V (dat V c) (A_eq V c 5) (after_5 V c) t d

theorem Phi_at (c : Dev nD) (t : Fin (cfg1.N + 1)) : (dat V c).Φ t = Phi V c t.val := by dsimp only [dat]

/-- What the launch hands the region is the invariant before the first point. -/
theorem hin (c : Dev nD) : Pipeline.ΦA spec1 c ⊢ (dat V c).Φ 0 := by
  rw [Phi_at]; exact Idealize.SL.BI.Entails.refl _

end Cert.KernelIdeal.R1

end
-- ==== Proof.R1Blocks.lean ====
/-
  Each input window's block, read off the array the region finds, as a function of that array: the adjacency
  window's block at point t is rows 400 · (t mod 25) … 400 · (t mod 25) + 399 of the adjacency matrix; the other
  five windows' blocks are their whole arrays.
-/
import proofs.«103924_g73796128079920_cont_9to1c4b_223_14_alg».proof.Proof.R1Defs

set_option maxRecDepth 16384

noncomputable section

namespace Cert.KernelIdeal.R1

open Idealize.ShloMosaic Idealize.ShloMosaic.TcCoe Idealize.ShloMosaic.Tactic
open Idealize.ShloMosaic.Pipeline (Dat Cfg Window BodyObligation cellOf)
open Cert.KernelIdeal Cert.KernelIdeal.Gen

variable {F : FTy → Type} [FloatOps F]

variable (V : (c : Dev nD) → (b : Ref sig .tc) → Buf (Elt F) ((c : Thread nD τ).loc b))

/-- The index maps of the six input windows, decided over the grid: the adjacency window's row block is the
    point's second coordinate, every other index is zero. -/
theorem idx_in : ∀ t : Fin cfg1.N, win1_0.index t (0 : Fin 2) = t.val % 25 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- The adjacency window's block at point t: rows 400 · (t mod 25) onward. -/
theorem iblk_0 (c : Dev nD) (t : Fin cfg1.N) : (iblk V c 0 t : Vec F S400x10000 .f32) = AdjBlk V c t.val := by
  obtain ⟨e0, e1, -⟩ := idx_in t
  funext y
  unfold iblk AdjBlk
  rw [View.read_apply]
  show V c main_arg2 (((cfg1.win 0).blk t).view.emb y) = V c main_arg2 _
  congr 1
  funext a
  apply Fin.ext
  match a with
  | ⟨0, _⟩ => show win1_0.index t (0 : Fin 2) * 400 + 1 * (y 0).val = 400 * (t.val % 25) + (y 0).val; rw [e0]; omega
  | ⟨1, _⟩ => show win1_0.index t (1 : Fin 2) * 10000 + 1 * (y 1).val = (y 1).val; rw [e1]; omega

/-- The features window's block is the whole array. -/
theorem iblk_1 (c : Dev nD) (t : Fin cfg1.N) : (iblk V c 1 t : Vec F S10000x128 .f32) = Xf V c := by
  obtain ⟨-, -, e0, e1, -⟩ := idx_in t
  funext y
  unfold iblk
  rw [View.read_apply]
  show V c main_arg3 (((cfg1.win 1).blk t).view.emb y) = V c main_arg3 y
  congr 1
  funext a
  apply Fin.ext
  match a with
  | ⟨0, _⟩ => show win1_1.index t (0 : Fin 2) * 10000 + 1 * (y 0).val = (y 0).val; rw [e0]; omega
  | ⟨1, _⟩ => show win1_1.index t (1 : Fin 2) * 128 + 1 * (y 1).val = (y 1).val; rw [e1]; omega

/-- The first weights' block is the whole array. -/
theorem iblk_2 (c : Dev nD) (t : Fin cfg1.N) : (iblk V c 2 t : Vec F S128x128 .f32) = W1 V c := by
  obtain ⟨-, -, -, -, e0, e1, -⟩ := idx_in t
  funext y
  unfold iblk
  rw [View.read_apply]
  show V c main_arg8 (((cfg1.win 2).blk t).view.emb y) = V c main_arg8 y
  congr 1
  funext a
  apply Fin.ext
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

/-- The first bias row's block is the whole array. -/
theorem iblk_3 (c : Dev nD) (t : Fin cfg1.N) : (iblk V c 3 t : Vec F S1x128 .f32) = B1 V c := by
  obtain ⟨-, -, -, -, -, -, e0, e1, -⟩ := idx_in t
  funext y
  unfold iblk
  rw [View.read_apply]
  show V c main_v5 (((cfg1.win 3).blk t).view.emb y) = V c main_v5 y
  congr 1
  funext a
  apply Fin.ext
  match a with
  | ⟨0, _⟩ => show win1_3.index t (0 : Fin 2) * 1 + 1 * (y 0).val = (y 0).val; rw [e0]; omega
  | ⟨1, _⟩ => show win1_3.index t (1 : Fin 2) * 128 + 1 * (y 1).val = (y 1).val; rw [e1]; omega

/-- The second weights' block is the whole array. -/
theorem iblk_4 (c : Dev nD) (t : Fin cfg1.N) : (iblk V c 4 t : Vec F S128x128 .f32) = W2 V c := by
  obtain ⟨-, -, -, -, -, -, -, -, e0, e1, -⟩ := idx_in t
  funext y
  unfold iblk
  rw [View.read_apply]
  show V c main_arg10 (((cfg1.win 4).blk t).view.emb y) = V c main_arg10 y
  congr 1
  funext a
  apply Fin.ext
  match a with
  | ⟨0, _⟩ => show win1_4.index t (0 : Fin 2) * 128 + 1 * (y 0).val = (y 0).val; rw [e0]; omega
  | ⟨1, _⟩ => show win1_4.index t (1 : Fin 2) * 128 + 1 * (y 1).val = (y 1).val; rw [e1]; omega

/-- The second bias row's block is the whole array. -/
theorem iblk_5 (c : Dev nD) (t : Fin cfg1.N) : (iblk V c 5 t : Vec F S1x128 .f32) = B2 V c := by
  obtain ⟨-, -, -, -, -, -, -, -, -, -, e0, e1⟩ := idx_in t
  funext y
  unfold iblk
  rw [View.read_apply]
  show V c main_v6 (((cfg1.win 5).blk t).view.emb y) = V c main_v6 y
  congr 1
  funext a
  apply Fin.ext
  match a with
  | ⟨0, _⟩ => show win1_5.index t (0 : Fin 2) * 1 + 1 * (y 0).val = (y 0).val; rw [e0]; omega
  | ⟨1, _⟩ => show win1_5.index t (1 : Fin 2) * 128 + 1 * (y 1).val = (y 1).val; rw [e1]; omega

end Cert.KernelIdeal.R1

end
-- ==== Proof.R1Runs.lean ====
/-
  The kernel body of region 1 in each of its three cases, on whole staging and scratch memrefs: what it reads it
  leaves, and what it writes is the skeleton's payload of what it read. The three branch conditions are scalar
  chains over the grid coordinates: the first holds at the first point only, the second in phase 0, the third
  in phase 1.
-/
import proofs.«103924_g73796128079920_cont_9to1c4b_223_14_alg».proof.Proof.Gen.KernelIdeal.Launch
import proofs.«103924_g73796128079920_cont_9to1c4b_223_14_alg».proof.Proof.Gen.KernelIdeal.Skeleton
import proofs.«103924_g73796128079920_cont_9to1c4b_223_14_alg».proof.Proof.Gen.KernelIdeal.Points
import proofs.«103924_g73796128079920_cont_9to1c4b_223_14_alg».proof.Proof.R1Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.WritesUnit

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The three branch conditions, decided over the grid -/

/-- The first branch (store the support): taken at the first point only. -/
abbrev cond1 (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The second branch (phase 0) and the third (phase 1). -/
abbrev cond2 (i : grid1.Coords) : Prop := k1_cond2 i = 1#1
abbrev cond3 (i : grid1.Coords) : Prop := k1_cond3 i = 1#1

theorem hcond1 : ∀ t : Fin cfg1.N, cond1 (grid1.coords t) ↔ t.val = 0 :=
  (by decide +kernel : ∀ t : Fin grid1.N, cond1 (grid1.coords t) ↔ t.val = 0)
theorem hcond2 : ∀ t : Fin cfg1.N, cond2 (grid1.coords t) ↔ t.val < 25 :=
  (by decide +kernel : ∀ t : Fin grid1.N, cond2 (grid1.coords t) ↔ t.val < 25)
theorem hcond3 : ∀ t : Fin cfg1.N, cond3 (grid1.coords t) ↔ 25 ≤ t.val :=
  (by decide +kernel : ∀ t : Fin grid1.N, cond3 (grid1.coords t) ↔ 25 ≤ t.val)
/-- The row offset of the slice a phase-0 point stores: 400 times its row block. -/
theorem hoff : ∀ t : Fin cfg1.N, k1_off1 (grid1.coords t) = ![400 * (t.val % 25), 0] :=
  (by decide +kernel : ∀ t : Fin grid1.N, k1_off1 (grid1.coords t) = ![400 * (t.val % 25), 0])
/-- The output window is live at every point. -/
theorem live6 : ∀ t : Fin cfg1.N, cfg1.idle 6 (grid1.coords t) = false := by decide +kernel

theorem hz2 : (![0, 0] : Fin 2 → ℕ) = fun _ => 0 := by funext a; fin_cases a <;> rfl
theorem hz3 : (![0, 0, 0] : Fin 3 → ℕ) = fun _ => 0 := by funext a; fin_cases a <;> rfl

/-- A whole-rectangle store, alone, leaves its payload. -/
theorem read_whole_store {sh : Shape} {off : Fin sh.rank → ℕ} (hz : off = fun _ => 0) (inb : ∀ a, off a + sh.size a ≤ sh.size a)
    (M : Memref sig .tc .vmem sh .f32) (f : M.view.ty.Contents (Elt F)) (P : sh.Idx → Elt F .f32) :
    M.view.read (Elt F) (M.view.writes (Elt F) f [⟨Rect.unit off sh.size inb, P⟩]) = P :=
  (View.read_writes_eq_canon _ _ _ (fun y => ⟨_, List.mem_singleton_self _, View.mem_set_unit_zero hz inb y⟩)).trans
    (View.canon_unit_zero hz inb P)

set_option maxHeartbeats 4000000 in
/-- The first point: the body stores the support `x · w1` whole into the first scratch, reads it back, and then does
    what a phase-0 point does with it. -/
theorem run_A (c : Dev nD) (E : Set ℕ) (i : grid1.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x400x128 .f32) (harg8 : arg8.IsWhole) (arg9 : Memref sig .tc .vmem S10000x128 .f32) (harg9 : arg9.IsWhole) (arg10 : Memref sig .tc .vmem S10000x128 .f32) (harg10 : arg10.IsWhole)
    (hc1 : cond1 i) (hc2 : cond2 i) (hc3 : ¬cond3 i)
    (a : Vec F S400x10000 .f32) (x : Vec F S10000x128 .f32) (w1 : Vec F S128x128 .f32) (b1 : Vec F S1x128 .f32) (w2 : Vec F S128x128 .f32) (d9 : Vec F S10000x128 .f32) (h : Vec F S10000x128 .f32)
    (K : PUnit → sProp 𝕄) :
    iprop(owns (c : Thread nD τ) arg2 fullShare a ∗ owns (c : Thread nD τ) arg3 fullShare x ∗ owns (c : Thread nD τ) arg4 fullShare w1 ∗ owns (c : Thread nD τ) arg5 fullShare b1 ∗ owns (c : Thread nD τ) arg6 fullShare w2
        ∗ (∃ d, owns (c : Thread nD τ) arg8 fullShare d) ∗ owns (c : Thread nD τ) arg9 fullShare d9 ∗ owns (c : Thread nD τ) arg10 fullShare h
        ∗ (iprop(owns (c : Thread nD τ) arg2 fullShare a ∗ owns (c : Thread nD τ) arg3 fullShare x ∗ owns (c : Thread nD τ) arg4 fullShare w1 ∗ owns (c : Thread nD τ) arg5 fullShare b1 ∗ owns (c : Thread nD τ) arg6 fullShare w2
            ∗ owns (c : Thread nD τ) arg8 fullShare (k1_pay4 a (k1_pay1 x w1) b1 w2) ∗ owns (c : Thread nD τ) arg9 fullShare (k1_pay1 x w1)
            ∗ owns (c : Thread nD τ) arg10 fullShare (arg10.view.read (Elt F) (arg10.view.writes (Elt F) (harg10.unread h)
                [⟨Rect.unit (s := S10000x128) (k1_off1 i) S400x128.size (k1_off1_inb i hc2), k1_pay3 a (k1_pay1 x w1) b1 w2⟩]))) -∗ K ⟨⟩))
      ⊢ wp frame (wpE (defs₀ (F := F)) Variants.none c none) E (cc1__gcn_kernel i arg2 harg2 arg3 harg3 arg4 harg4 arg5 harg5 arg6 harg6 arg7 harg7 arg8 harg8 arg9 harg9 arg10 harg10) K := by
  simp only [cc1__gcn_kernel_eq_skeleton]; unfold cc1__gcn_kernel_skel
  unfold owns
  iintro ⟨⟨%f2, %hf2, H2⟩, ⟨%f3, %hf3, H3⟩, ⟨%f4, %hf4, H4⟩, ⟨%f5, %hf5, H5⟩, ⟨%f6, %hf6, H6⟩, ⟨%d8, %f8, -, H8⟩, ⟨%f9, %hf9, H9⟩, ⟨%f10, %hf10, H10⟩, Hk⟩
  obtain rfl := harg2.eq_unread hf2; obtain rfl := harg3.eq_unread hf3; obtain rfl := harg4.eq_unread hf4; obtain rfl := harg5.eq_unread hf5; obtain rfl := harg6.eq_unread hf6
  obtain rfl := harg9.eq_unread hf9; obtain rfl := harg10.eq_unread hf10
  sl_exec (disch := first | exact hc1 | exact hc2 | exact hc3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H8]
  · iexists _; isplitr
    swap; · iexact H8
    ipureintro
    refine (read_whole_store hz3 _ arg8 _ _).trans ?_
    sl_unfold_run_names
    simp only [View.readCov_unit_zero (S := S10000x128) arg9.view hz2, View.readAt_eq_ld, harg2.read_unread, harg3.read_unread, harg4.read_unread, harg5.read_unread, harg6.read_unread, harg7.read_unread, harg9.read_unread, harg10.read_unread,
      View.ld_unit_zero (S := S400x10000) hz2, View.ld_unit_zero (S := S10000x128) hz2, View.ld_unit_zero (S := S1x128) hz2, View.ld_unit_zero (S := S128x128) hz2]
  isplitl [H9]
  · iexists _; isplitr
    swap; · iexact H9
    ipureintro
    sl_unfold_run_names
    refine (read_whole_store hz2 _ arg9 _ _).trans ?_
    simp only [View.readCov_unit_zero (S := S10000x128) arg9.view hz2, View.readAt_eq_ld, harg2.read_unread, harg3.read_unread, harg4.read_unread, harg5.read_unread, harg6.read_unread, harg7.read_unread, harg9.read_unread, harg10.read_unread,
      View.ld_unit_zero (S := S400x10000) hz2, View.ld_unit_zero (S := S10000x128) hz2, View.ld_unit_zero (S := S1x128) hz2, View.ld_unit_zero (S := S128x128) hz2]
  iexists _; isplitr
  swap; · iexact H10
  ipureintro
  sl_unfold_run_names
  simp only [View.readCov_unit_zero (S := S10000x128) arg9.view hz2, View.readAt_eq_ld, harg2.read_unread, harg3.read_unread, harg4.read_unread, harg5.read_unread, harg6.read_unread, harg7.read_unread, harg9.read_unread, harg10.read_unread,
      View.ld_unit_zero (S := S400x10000) hz2, View.ld_unit_zero (S := S10000x128) hz2, View.ld_unit_zero (S := S1x128) hz2, View.ld_unit_zero (S := S128x128) hz2]

set_option maxHeartbeats 4000000 in
/-- A phase-0 point that is not the first: from the adjacency block `a`, the support `s1`, the bias row and the second
    weights, the body writes the hidden block whole into the output buffer and into rows `k1_off1 i` of the second
    scratch, and leaves everything it read as it was. -/
theorem run_B (c : Dev nD) (E : Set ℕ) (i : grid1.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x400x128 .f32) (harg8 : arg8.IsWhole) (arg9 : Memref sig .tc .vmem S10000x128 .f32) (harg9 : arg9.IsWhole) (arg10 : Memref sig .tc .vmem S10000x128 .f32) (harg10 : arg10.IsWhole)
    (hc1 : ¬cond1 i) (hc2 : cond2 i) (hc3 : ¬cond3 i)
    (a : Vec F S400x10000 .f32) (b1 : Vec F S1x128 .f32) (w2 : Vec F S128x128 .f32) (s1 : Vec F S10000x128 .f32) (h : Vec F S10000x128 .f32)
    (K : PUnit → sProp 𝕄) :
    iprop(owns (c : Thread nD τ) arg2 fullShare a ∗ owns (c : Thread nD τ) arg5 fullShare b1 ∗ owns (c : Thread nD τ) arg6 fullShare w2
        ∗ (∃ d, owns (c : Thread nD τ) arg8 fullShare d) ∗ owns (c : Thread nD τ) arg9 fullShare s1 ∗ owns (c : Thread nD τ) arg10 fullShare h
        ∗ (iprop(owns (c : Thread nD τ) arg2 fullShare a ∗ owns (c : Thread nD τ) arg5 fullShare b1 ∗ owns (c : Thread nD τ) arg6 fullShare w2
            ∗ owns (c : Thread nD τ) arg8 fullShare (k1_pay4 a s1 b1 w2) ∗ owns (c : Thread nD τ) arg9 fullShare s1
            ∗ owns (c : Thread nD τ) arg10 fullShare (arg10.view.read (Elt F) (arg10.view.writes (Elt F) (harg10.unread h)
                [⟨Rect.unit (s := S10000x128) (k1_off1 i) S400x128.size (k1_off1_inb i hc2), k1_pay3 a s1 b1 w2⟩]))) -∗ K ⟨⟩))
      ⊢ wp frame (wpE (defs₀ (F := F)) Variants.none c none) E (cc1__gcn_kernel i arg2 harg2 arg3 harg3 arg4 harg4 arg5 harg5 arg6 harg6 arg7 harg7 arg8 harg8 arg9 harg9 arg10 harg10) K := by
  simp only [cc1__gcn_kernel_eq_skeleton]; unfold cc1__gcn_kernel_skel
  unfold owns
  iintro ⟨⟨%f2, %hf2, H2⟩, ⟨%f5, %hf5, H5⟩, ⟨%f6, %hf6, H6⟩, ⟨%d8, %f8, -, H8⟩, ⟨%f9, %hf9, H9⟩, ⟨%f10, %hf10, H10⟩, Hk⟩
  obtain rfl := harg2.eq_unread hf2; obtain rfl := harg5.eq_unread hf5; obtain rfl := harg6.eq_unread hf6
  obtain rfl := harg9.eq_unread hf9; obtain rfl := harg10.eq_unread hf10
  sl_exec (disch := first | exact hc1 | exact hc2 | exact hc3)
  sl_step
  iapply Hk
  isplitl [H2]
  · iexists _; isplitr; · ipureintro; exact harg2.read_unread _
    iexact H2
  isplitl [H5]
  · iexists _; isplitr; · ipureintro; exact harg5.read_unread _
    iexact H5
  isplitl [H6]
  · iexists _; isplitr; · ipureintro; exact harg6.read_unread _
    iexact H6
  isplitl [H8]
  · iexists _; isplitr
    swap; · iexact H8
    ipureintro
    refine (read_whole_store hz3 _ arg8 _ _).trans ?_
    simp only [View.readAt_eq_ld, harg2.read_unread, harg3.read_unread, harg4.read_unread, harg5.read_unread, harg6.read_unread, harg7.read_unread, harg9.read_unread, harg10.read_unread,
      View.ld_unit_zero (S := S400x10000) hz2, View.ld_unit_zero (S := S10000x128) hz2, View.ld_unit_zero (S := S1x128) hz2, View.ld_unit_zero (S := S128x128) hz2]
  isplitl [H9]
  · iexists _; isplitr; · ipureintro; exact harg9.read_unread _
    iexact H9
  iexists _; isplitr
  swap; · iexact H10
  ipureintro
  simp only [View.readAt_eq_ld, harg2.read_unread, harg3.read_unread, harg4.read_unread, harg5.read_unread, harg6.read_unread, harg7.read_unread, harg9.read_unread, harg10.read_unread,
      View.ld_unit_zero (S := S400x10000) hz2, View.ld_unit_zero (S := S10000x128) hz2, View.ld_unit_zero (S := S1x128) hz2, View.ld_unit_zero (S := S128x128) hz2]

set_option maxHeartbeats 4000000 in
/-- A phase-1 point: from the adjacency block, the hidden product held whole in the second scratch and the second bias
    row, the body writes the block of the result into the output buffer and changes nothing else. -/
theorem run_C (c : Dev nD) (E : Set ℕ) (i : grid1.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x400x128 .f32) (harg8 : arg8.IsWhole) (arg9 : Memref sig .tc .vmem S10000x128 .f32) (harg9 : arg9.IsWhole) (arg10 : Memref sig .tc .vmem S10000x128 .f32) (harg10 : arg10.IsWhole)
    (hc1 : ¬cond1 i) (hc2 : ¬cond2 i) (hc3 : cond3 i)
    (a : Vec F S400x10000 .f32) (b2 : Vec F S1x128 .f32) (h2 : Vec F S10000x128 .f32)
    (K : PUnit → sProp 𝕄) :
    iprop(owns (c : Thread nD τ) arg2 fullShare a ∗ owns (c : Thread nD τ) arg7 fullShare b2
        ∗ (∃ d, owns (c : Thread nD τ) arg8 fullShare d) ∗ owns (c : Thread nD τ) arg10 fullShare h2
        ∗ (iprop(owns (c : Thread nD τ) arg2 fullShare a ∗ owns (c : Thread nD τ) arg7 fullShare b2
            ∗ owns (c : Thread nD τ) arg8 fullShare (k1_pay5 a h2 b2) ∗ owns (c : Thread nD τ) arg10 fullShare h2) -∗ K ⟨⟩))
      ⊢ wp frame (wpE (defs₀ (F := F)) Variants.none c none) E (cc1__gcn_kernel i arg2 harg2 arg3 harg3 arg4 harg4 arg5 harg5 arg6 harg6 arg7 harg7 arg8 harg8 arg9 harg9 arg10 harg10) K := by
  simp only [cc1__gcn_kernel_eq_skeleton]; unfold cc1__gcn_kernel_skel
  unfold owns
  iintro ⟨⟨%f2, %hf2, H2⟩, ⟨%f7, %hf7, H7⟩, ⟨%d8, %f8, -, H8⟩, ⟨%f10, %hf10, H10⟩, Hk⟩
  obtain rfl := harg2.eq_unread hf2; obtain rfl := harg7.eq_unread hf7; obtain rfl := harg10.eq_unread hf10
  sl_exec (disch := first | exact hc1 | exact hc2 | exact hc3)
  sl_step
  iapply Hk
  isplitl [H2]
  · iexists _; isplitr; · ipureintro; exact harg2.read_unread _
    iexact H2
  isplitl [H7]
  · iexists _; isplitr; · ipureintro; exact harg7.read_unread _
    iexact H7
  isplitl [H8]
  · iexists _; isplitr
    swap; · iexact H8
    ipureintro
    refine (read_whole_store hz3 _ arg8 _ _).trans ?_
    simp only [View.readAt_eq_ld, harg2.read_unread, harg3.read_unread, harg4.read_unread, harg5.read_unread, harg6.read_unread, harg7.read_unread, harg9.read_unread, harg10.read_unread,
      View.ld_unit_zero (S := S400x10000) hz2, View.ld_unit_zero (S := S10000x128) hz2, View.ld_unit_zero (S := S1x128) hz2, View.ld_unit_zero (S := S128x128) hz2]
  iexists _; isplitr; · ipureintro; exact harg10.read_unread _
  iexact H10

end Cert.KernelIdeal.R1

end
-- ==== Proof.R1Body.lean ====
/-
  The body obligation of region 1. At every point the invariant is opened, the case's run is applied to the
  staging memrefs the pipeline passes, and the invariant is closed one point later: the first scratch holds the
  support from the first point on; the second scratch agrees with the hidden product on one more row block after
  each point of phase 0, and is the hidden product throughout phase 1.
-/
import proofs.«103924_g73796128079920_cont_9to1c4b_223_14_alg».proof.Proof.Gen.KernelIdeal.Launch
import proofs.«103924_g73796128079920_cont_9to1c4b_223_14_alg».proof.Proof.Gen.KernelIdeal.Skeleton
import proofs.«103924_g73796128079920_cont_9to1c4b_223_14_alg».proof.Proof.Gen.KernelIdeal.Points
import proofs.«103924_g73796128079920_cont_9to1c4b_223_14_alg».proof.Proof.R1Defs
import proofs.«103924_g73796128079920_cont_9to1c4b_223_14_alg».proof.Proof.R1Blocks
import proofs.«103924_g73796128079920_cont_9to1c4b_223_14_alg».proof.Proof.R1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.WritesUnit

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The invariant opened and closed -/

theorem scoped_split (c : Dev nD) :
    (Pipeline.scopedRest (Ix := Unit) (Name := ℕ) (U := UR sig nD τ) (Lvl := ℕ) (Val := Elt F) spec1 c : sProp 𝕄)
      = iprop(((∃ d, owns (c : Thread nD τ) scA fullShare d) ∗ (∃ d, owns (c : Thread nD τ) scB fullShare d)) ∗ restBut c) := by
  rw [Pipeline.scopedRest_split_of_list spec1 c [cc1_scratch0, cc1_scratch1] (by decide) (by decide)]
  simp only [bigSepL_cons_cons, bigSepL_singleton, scA, scB, owns_whole]
  rfl

theorem PhiA_open (c : Dev nD) :
    (Pipeline.ΦA spec1 c : sProp 𝕄)
      ⊢ iprop((∃ d, owns (c : Thread nD τ) scA fullShare d) ∗ (∃ d, owns (c : Thread nD τ) scB fullShare d) ∗ restBut c ∗ ∃ r, prngReg c r) := by
  unfold Pipeline.ΦA
  rw [scoped_split]
  iintro ⟨⟨⟨HA, HB⟩, Hr⟩, Hp⟩
  isplitl [HA]; · iexact HA
  isplitl [HB]; · iexact HB
  isplitl [Hr]; · iexact Hr
  iexact Hp

theorem PhiA_close (c : Dev nD) :
    iprop((∃ d, owns (c : Thread nD τ) scA fullShare d) ∗ (∃ d, owns (c : Thread nD τ) scB fullShare d) ∗ restBut c ∗ ∃ r, prngReg c r)
      ⊢ (Pipeline.ΦA spec1 c : sProp 𝕄) := by
  unfold Pipeline.ΦA
  rw [scoped_split]
  iintro ⟨HA, HB, Hr, Hp⟩
  isplitr [Hp]
  · isplitr [Hr]
    · isplitl [HA]; · iexact HA
      iexact HB
    iexact Hr
  iexact Hp

theorem Phi_zero (c : Dev nD) : Phi V c 0 = Pipeline.ΦA spec1 c := rfl

theorem Phi_succ (c : Dev nD) (n : ℕ) :
    Phi V c (n + 1) = iprop(owns (c : Thread nD τ) scA fullShare (S1 V c)
      ∗ (∃ f, owns (c : Thread nD τ) scB fullShare f ∗ ⌜Agree V c (n + 1) f⌝) ∗ restBut c ∗ ∃ r, prngReg c r) := rfl

theorem Phi_pos (c : Dev nD) (n : ℕ) (hn : n ≠ 0) :
    Phi V c n = iprop(owns (c : Thread nD τ) scA fullShare (S1 V c)
      ∗ (∃ f, owns (c : Thread nD τ) scB fullShare f ∗ ⌜Agree V c n f⌝) ∗ restBut c ∗ ∃ r, prngReg c r) := by
  cases n with
  | zero => exact absurd rfl hn
  | succ n => rfl

/-- After the last point the invariant gives back what the launch handed the region. -/
theorem hout (c : Dev nD) : (dat V c).Φ (Fin.last cfg1.N) ⊢ Pipeline.ΦA spec1 c := by
  have hN : (Fin.last cfg1.N).val = 49 + 1 := by rw [Fin.val_last]; exact N_1
  rw [Phi_at, hN, Phi_succ]
  refine BIBase.Entails.trans ?_ (PhiA_close c)
  iintro ⟨HA, ⟨%f, HB, -⟩, Hr, Hp⟩
  isplitl [HA]; · iexists _; iexact HA
  isplitl [HB]; · iexists _; iexact HB
  isplitl [Hr]; · iexact Hr
  iexact Hp

/-- The invariant's step in phase 0: a buffer that agrees with the hidden product on the rows below `400 n`, once
    block `n` is stored at rows `400 n … 400 n + 399`, agrees with it on the rows below `400 (n + 1)`. -/
theorem agree_step (c : Dev nD) (n : ℕ) (h : Vec F S10000x128 .f32) (hAg : Agree V c n h)
    (M : Memref sig .tc .vmem S10000x128 .f32) (hM : M.IsWhole) (off : Fin 2 → ℕ) (inb : ∀ a, off a + S400x128.size a ≤ S10000x128.size a)
    (hoff : off = ![400 * n, 0]) :
    Agree V c (n + 1) (M.view.read (Elt F) (M.view.writes (Elt F) (hM.unread h)
        [⟨Rect.unit (s := S10000x128) off S400x128.size inb, k1_pay3 (AdjBlk V c n) (S1 V c) (B1 V c) (W2 V c)⟩])) := by
  intro i hi
  by_cases hlt : (i 0).val < 400 * n
  · rw [View.read_writes_cons_rows_of_not_mem (o := 400 * n) (W := 400) M.view (hM.unread h) inb _ [] i hoff rfl (Or.inl hlt)]
    rw [View.writes_nil, hM.read_unread]
    exact hAg i hlt
  · have h1 : 400 * n ≤ (i 0).val := Nat.le_of_not_lt hlt
    have h2 : (i 0).val < 400 * n + 400 := by omega
    have hq : (i 0).val / 400 = n := by omega
    rw [View.read_writes_cons_rows_of_mem (o := 400 * n) M.view (hM.unread h) inb _ [] i
      (fun a => match a with
        | ⟨0, _⟩ => (⟨(i 0).val - 400 * n, by omega⟩ : Fin 400)
        | ⟨1, _⟩ => (i 1 : Fin 128)) hoff
      (by show (i 0).val = 400 * n + ((i 0).val - 400 * n); omega) rfl]
    unfold H2 H2blk
    rw [hq]
    refine congrArg _ (funext fun a => ?_)
    match a with
    | ⟨0, _⟩ => exact Fin.ext (by show (i 0).val - 400 * n = (i 0).val % 400; omega)
    | ⟨1, _⟩ => rfl

/-- From 25 blocks on, agreeing on the written rows is being the hidden product. -/
theorem agree_all (c : Dev nD) (n : ℕ) (hn : 25 ≤ n) (h : Vec F S10000x128 .f32) (hAg : Agree V c n h) : h = H2 V c :=
  funext fun i => hAg i (by have := (i 0).isLt; show (i 0).val < 400 * n; have : (i 0).val < 10000 := (i 0).isLt; omega)

theorem agree_of_eq (c : Dev nD) (n : ℕ) : Agree V c n (H2 V c) := fun _ _ => rfl

/-! ## What each window's buffer is handed with and left with -/

abbrev ms_0 (t : Fin cfg1.N) : Memref sig .tc .vmem S400x10000 .f32 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S10000x128 .f32 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S128x128 .f32 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S1x128 .f32 := win1_3.stage (cfg1.slots t 3)
abbrev hs_3 (t : Fin cfg1.N) : (ms_3 t).IsWhole := hstage1_3 ((cfg1.slots t 3).cast nbuf1_3)
abbrev ms_4 (t : Fin cfg1.N) : Memref sig .tc .vmem S128x128 .f32 := win1_4.stage (cfg1.slots t 4)
abbrev hs_4 (t : Fin cfg1.N) : (ms_4 t).IsWhole := hstage1_4 ((cfg1.slots t 4).cast nbuf1_4)
abbrev ms_5 (t : Fin cfg1.N) : Memref sig .tc .vmem S1x128 .f32 := win1_5.stage (cfg1.slots t 5)
abbrev hs_5 (t : Fin cfg1.N) : (ms_5 t).IsWhole := hstage1_5 ((cfg1.slots t 5).cast nbuf1_5)
abbrev ms_6 (t : Fin cfg1.N) : Memref sig .tc .vmem S1x400x128 .f32 := win1_6.stage (cfg1.slots t 6)
abbrev hs_6 (t : Fin cfg1.N) : (ms_6 t).IsWhole := hstage1_6 ((cfg1.slots t 6).cast nbuf1_6)

theorem live_0 : ∀ t : Fin cfg1.N, cfg1.idle 0 (grid1.coords t) = false := by decide +kernel
theorem live_1 : ∀ t : Fin cfg1.N, cfg1.idle 1 (grid1.coords t) = false := by decide +kernel
theorem live_2 : ∀ t : Fin cfg1.N, cfg1.idle 2 (grid1.coords t) = false := by decide +kernel
theorem live_3 : ∀ t : Fin cfg1.N, cfg1.idle 3 (grid1.coords t) = false := by decide +kernel
theorem live_4 : ∀ t : Fin cfg1.N, cfg1.idle 4 (grid1.coords t) = false := by decide +kernel
theorem live_5 : ∀ t : Fin cfg1.N, cfg1.idle 5 (grid1.coords t) = false := by decide +kernel
theorem live_6 : ∀ t : Fin cfg1.N, cfg1.idle 6 (grid1.coords t) = false := by decide +kernel

theorem leaves_0 (c : Dev nD) (t : Fin cfg1.N) : (dat V c).leavesExact 0 t = owns (c : Thread nD τ) (ms_0 t) fullShare (iblk V c 0 t) := by
  unfold Dat.leavesExact; rw [live_0 t, after_0]
theorem leaves_1 (c : Dev nD) (t : Fin cfg1.N) : (dat V c).leavesExact 1 t = owns (c : Thread nD τ) (ms_1 t) fullShare (iblk V c 1 t) := by
  unfold Dat.leavesExact; rw [live_1 t, after_1]
theorem leaves_2 (c : Dev nD) (t : Fin cfg1.N) : (dat V c).leavesExact 2 t = owns (c : Thread nD τ) (ms_2 t) fullShare (iblk V c 2 t) := by
  unfold Dat.leavesExact; rw [live_2 t, after_2]
theorem leaves_3 (c : Dev nD) (t : Fin cfg1.N) : (dat V c).leavesExact 3 t = owns (c : Thread nD τ) (ms_3 t) fullShare (iblk V c 3 t) := by
  unfold Dat.leavesExact; rw [live_3 t, after_3]
theorem leaves_4 (c : Dev nD) (t : Fin cfg1.N) : (dat V c).leavesExact 4 t = owns (c : Thread nD τ) (ms_4 t) fullShare (iblk V c 4 t) := by
  unfold Dat.leavesExact; rw [live_4 t, after_4]
theorem leaves_5 (c : Dev nD) (t : Fin cfg1.N) : (dat V c).leavesExact 5 t = owns (c : Thread nD τ) (ms_5 t) fullShare (iblk V c 5 t) := by
  unfold Dat.leavesExact; rw [live_5 t, after_5]
theorem leaves_6 (c : Dev nD) (t : Fin cfg1.N) : (dat V c).leavesExact 6 t = owns (c : Thread nD τ) (ms_6 t) fullShare (outAt V c t) := by
  unfold Dat.leavesExact; rw [live_6 t, after_6]

theorem outAt_lt (c : Dev nD) (t : Fin cfg1.N) (h : t.val < 25) :
    outAt V c t = k1_pay4 (AdjBlk V c t.val) (S1 V c) (B1 V c) (W2 V c) := by unfold outAt; rw [if_pos h]
theorem outAt_ge (c : Dev nD) (t : Fin cfg1.N) (h : ¬t.val < 25) :
    outAt V c t = k1_pay5 (AdjBlk V c t.val) (H2 V c) (B2 V c) := by unfold outAt; rw [if_neg h]

/-- The offset of a phase-0 point's slice is 400 times the point. -/
theorem off_at (t : Fin cfg1.N) (h : t.val < 25) : k1_off1 (grid1.coords t) = ![400 * t.val, 0] := by
  rw [hoff t, Nat.mod_eq_of_lt h]

/-! ## The body at a point -/

def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d))
    ∗ (∃ d, owns (c : Thread nD τ) (ms_5 t) fullShare ((dat V c).before 5 t d))
    ∗ (∃ d, owns (c : Thread nD τ) (ms_6 t) fullShare ((dat V c).before 6 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t)

set_option maxHeartbeats 4000000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5]
  rw [show (dat V c).owesAt () t.succ = (dat V c).owesAt () t.castSucc from rfl]
  rw [leaves_0, leaves_1, leaves_2, leaves_3, leaves_4, leaves_5, leaves_6]
  rw [iblk_0 V c t, iblk_1 V c t, iblk_2 V c t, iblk_3 V c t, iblk_4 V c t, iblk_5 V c t]
  rw [Phi_at, Phi_at]
  simp only [Fin.coe_castSucc, Fin.val_succ]
  rw [Phi_succ]
  have hN : t.val < 50 := lt_of_lt_of_eq t.isLt (show cfg1.N = 50 from N_1)
  by_cases h0 : t.val = 0
  · -- the first point
    have h25 : t.val < 25 := by omega
    have hc1 : cond1 (grid1.coords t) := (hcond1 t).mpr h0
    have hc2 : cond2 (grid1.coords t) := (hcond2 t).mpr h25
    have hc3 : ¬cond3 (grid1.coords t) := fun h => by have := (hcond3 t).mp h; omega
    rw [show Phi V c t.val = Pipeline.ΦA spec1 c from by rw [h0]; rfl, outAt_lt V c t h25]
    iintro ⟨HΦ, Ho, ⟨%d0, H0⟩, ⟨%d1, H1⟩, ⟨%d2, H2⟩, ⟨%d3, H3⟩, ⟨%d4, H4⟩, ⟨%d5, H5⟩, ⟨%d6, H6⟩⟩
    ihave HΦ' := (PhiA_open c) $$ HΦ
    icases HΦ' with ⟨⟨%dA, HA⟩, ⟨%dB, HB⟩, Hrest, Hp⟩
    iapply (run_A c Set.univ (grid1.coords t) _ _ _ _ _ _ _ _ _ _ _ _ _ _ _ _ _ _ hc1 hc2 hc3
      (AdjBlk V c t.val) (Xf V c) (W1 V c) (B1 V c) (W2 V c) dA dB _)
    isplitl [H0]; · iexact H0
    isplitl [H1]; · iexact H1
    isplitl [H2]; · iexact H2
    isplitl [H3]; · iexact H3
    isplitl [H4]; · iexact H4
    isplitl [H6]; · iexists _; iexact H6
    isplitl [HA]; · iexact HA
    isplitl [HB]; · iexact HB
    iintro ⟨H0, H1, H2, H3, H4, H6, HA, HB⟩
    isplitl [HA HB Hrest Hp]
    · isplitl [HA]; · iexact HA
      isplitl [HB]
      · iexists _; isplitl [HB]; · iexact HB
        ipureintro
        exact agree_step V c t.val dB (fun i hi => absurd hi (by rw [h0]; omega)) scB (Memref.isWhole_whole _) _ _ (off_at t h25)
      isplitl [Hrest]; · iexact Hrest
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [Phi_pos V c t.val h0]
    by_cases h25 : t.val < 25
    · -- a later point of phase 0
      have hc1 : ¬cond1 (grid1.coords t) := fun h => h0 ((hcond1 t).mp h)
      have hc2 : cond2 (grid1.coords t) := (hcond2 t).mpr h25
      have hc3 : ¬cond3 (grid1.coords t) := fun h => by have := (hcond3 t).mp h; omega
      rw [outAt_lt V c t h25]
      iintro ⟨⟨HA, ⟨%f, HB, %hAg⟩, Hrest, Hp⟩, Ho, ⟨%d0, H0⟩, ⟨%d1, H1⟩, ⟨%d2, H2⟩, ⟨%d3, H3⟩, ⟨%d4, H4⟩, ⟨%d5, H5⟩, ⟨%d6, H6⟩⟩
      iapply (run_B c Set.univ (grid1.coords t) _ _ _ _ _ _ _ _ _ _ _ _ _ _ _ _ _ _ hc1 hc2 hc3
        (AdjBlk V c t.val) (B1 V c) (W2 V c) (S1 V c) f _)
      isplitl [H0]; · iexact H0
      isplitl [H3]; · iexact H3
      isplitl [H4]; · iexact H4
      isplitl [H6]; · iexists _; iexact H6
      isplitl [HA]; · iexact HA
      isplitl [HB]; · iexact HB
      iintro ⟨H0, H3, H4, H6, HA, HB⟩
      isplitl [HA HB Hrest Hp]
      · isplitl [HA]; · iexact HA
        isplitl [HB]
        · iexists _; isplitl [HB]; · iexact HB
          ipureintro
          exact agree_step V c t.val f hAg scB (Memref.isWhole_whole _) _ _ (off_at t h25)
        isplitl [Hrest]; · iexact Hrest
        iexact Hp
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · -- a point of phase 1
      have hc1 : ¬cond1 (grid1.coords t) := fun h => h0 ((hcond1 t).mp h)
      have hc2 : ¬cond2 (grid1.coords t) := fun h => h25 ((hcond2 t).mp h)
      have hc3 : cond3 (grid1.coords t) := (hcond3 t).mpr (by omega)
      rw [outAt_ge V c t h25]
      iintro ⟨⟨HA, ⟨%f, HB, %hAg⟩, Hrest, Hp⟩, Ho, ⟨%d0, H0⟩, ⟨%d1, H1⟩, ⟨%d2, H2⟩, ⟨%d3, H3⟩, ⟨%d4, H4⟩, ⟨%d5, H5⟩, ⟨%d6, H6⟩⟩
      obtain rfl : f = H2 V c := agree_all V c t.val (by omega) f hAg
      iapply (run_C c Set.univ (grid1.coords t) _ _ _ _ _ _ _ _ _ _ _ _ _ _ _ _ _ _ hc1 hc2 hc3
        (AdjBlk V c t.val) (B2 V c) (H2 V c) _)
      isplitl [H0]; · iexact H0
      isplitl [H5]; · iexact H5
      isplitl [H6]; · iexists _; iexact H6
      isplitl [HB]; · iexact HB
      iintro ⟨H0, H5, H6, HB⟩
      isplitl [HA HB Hrest Hp]
      · isplitl [HA]; · iexact HA
        isplitl [HB]
        · iexists _; isplitl [HB]; · iexact HB
          ipureintro
          exact agree_of_eq V c _
        isplitl [Hrest]; · iexact Hrest
        iexact Hp
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The library's body obligation, at every point. -/
theorem body_obligation (c : Dev nD) : BodyObligation (dat (F := F) V c) (defs₀ (F := F)) Variants.none () Set.univ := fun t => by
  rw [bigSep_W1, bigSep_W1]
  exact sound_body V c t

end Cert.KernelIdeal.R1

end
-- ==== Proof.Run.lean ====
/-
  The run of the program's entry function, at any float model: two reshapes of the first graph's biases, the first
  graph's region, a slice and three reshapes, the second graph's region, a slice and a reshape. The contents of
  every unscoped buffer at each of the six boundaries are a fold from the launch memory; every weakly fair execution
  terminates with every unscoped buffer at the last boundary's contents. Read off that: the arguments end as
  launched, and the two results are the slice and reshape of what the regions' write-backs leave.
-/
import proofs.«103924_g73796128079920_cont_9to1c4b_223_14_alg».proof.Proof.Gen.KernelIdeal.Launch
import proofs.«103924_g73796128079920_cont_9to1c4b_223_14_alg».proof.Proof.Gen.KernelIdeal.Skeleton
import proofs.«103924_g73796128079920_cont_9to1c4b_223_14_alg».proof.Proof.Gen.KernelIdeal.Points
import proofs.«103924_g73796128079920_cont_9to1c4b_223_14_alg».proof.Proof.Gen.KernelIdeal.Regions
import proofs.«103924_g73796128079920_cont_9to1c4b_223_14_alg».proof.Proof.R0Body
import proofs.«103924_g73796128079920_cont_9to1c4b_223_14_alg».proof.Proof.R1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through the entry function -/

/-- Core `c`'s buffers at launch. -/
abbrev W0 : Dev nD → Valuation τ sig (Elt F) := fun c b => m ((c : Dev nD), b)
/-- After the first host stretch (the first region's entry). -/
abbrev W1 : Dev nD → Valuation τ sig (Elt F) := fun c => StableHlo.after hostOps0 (W0 m c)
/-- The same read at the core's references: what the first region's proof data take. -/
abbrev V1 : (c : Dev nD) → (b : Ref sig .tc) → Buf (Elt F) ((c : Thread nD τ).loc b) := fun c b => W1 m c b
/-- At the first region's exit: its arrays at what the pipeline leaves (the inputs as entered, the output's
    write-backs folded), every other buffer as entered. -/
def W2 (c : Dev nD) : Valuation τ sig (Elt F) :=
  Pipeline.withArrays spec0 c (W1 m c) fun w => (R0.dat (V1 m) c).arrAt w cfg0.N
theorem W2_arr (c : Dev nD) (w : Fin cfg0.W) :
    W2 m c (Proc.devRef .tc (Pipeline.arrRef spec0 w)) = (R0.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the core's references. -/
abbrev V2 : (c : Dev nD) → (b : Ref sig .tc) → Buf (Elt F) ((c : Thread nD τ).loc b) := fun c b => W2 m c b
theorem hF0 (c : Dev nD) (w : Fin cfg0.W) : (R0.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (the second region's entry). -/
abbrev W3 : Dev nD → Valuation τ sig (Elt F) := fun c => StableHlo.after hostOps1 (W2 m c)
/-- The same read at the core's references: what the second region's proof data take. -/
abbrev V3 : (c : Dev nD) → (b : Ref sig .tc) → Buf (Elt F) ((c : Thread nD τ).loc b) := fun c b => W3 m c b
/-- At the second region's exit. -/
def W4 (c : Dev nD) : Valuation τ sig (Elt F) :=
  Pipeline.withArrays spec1 c (W3 m c) fun w => (R1.dat (V3 m) c).arrAt w cfg1.N
theorem W4_arr (c : Dev nD) (w : Fin cfg1.W) :
    W4 m c (Proc.devRef .tc (Pipeline.arrRef spec1 w)) = (R1.dat (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the core's references. -/
abbrev V4 : (c : Dev nD) → (b : Ref sig .tc) → Buf (Elt F) ((c : Thread nD τ).loc b) := fun c b => W4 m c b
theorem hF1 (c : Dev nD) (w : Fin cfg1.W) : (R1.dat (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the last host stretch: the contents at the return. -/
abbrev W5 : Dev nD → Valuation τ sig (Elt F) := fun c => StableHlo.after hostOps2 (W4 m c)

/-! ## The proof data family and the thread state -/

/-- Each pipeline's proof data at its region's entry contents: a literal match, so that the pinned configuration
    at a numeral reduces to the printed one. -/
def pdats : (p : Fin 2) → (c : Dev nD) → Dat τ (Elt F) Unit ℕ (UR sig nD τ) ℕ (Pipeline.pin (pcfgs (F := F)) adm p) c
  | ⟨0, _⟩ => fun c => R0.dat (V1 m) c
  | ⟨1, _⟩ => fun c => R1.dat (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state, and the
    core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it runs to
    those references at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents, the
    generator register at some state. -/
abbrev Tₙ (c : Dev nD) : sProp 𝕄 := iprop(StableHlo.held (c : Thread nD τ) (Pipeline.ucRefs τ sig) (W5 m c) ∗ ∃ r, prngReg c r)

/-! ## The regions as segments -/

-- a library lemma stated over the pinned configuration unifies with the printed one only when unification may
-- unfold plain definitions in a metavariable's type
set_option backward.isDefEq.respectTransparency.types false in
/-- Region 0 over the thread state: entered from every unscoped buffer at `W1`, left at `W2`. Its
    arrays are split out of the unscoped buffers and put back at the exit contents; the generator register and the
    scoped buffers go into the region's invariant and come back; nothing is owed; the kernel has no semaphore of
    its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (R0.dat (V1 m) c).Φ 0 from rfl]
    refine BIBase.Entails.trans ?_ (R0.hin (V1 m) c)
    unfold Pipeline.ΦA
    iintro ⟨Hp, -, Hr⟩
    isplitl [Hr]; · iexact Hr
    iexact Hp
  hout c := by
    rw [Pipeline.ownSems0_none, show (pdats m 0 c).Φ (Fin.last _) = (R0.dat (V1 m) c).Φ (Fin.last cfg0.N) from rfl]
    refine (R0.hout (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 1 over the thread state: entered from every unscoped buffer at `W3`, left at `W4`. Its
    arrays are split out of the unscoped buffers and put back at the exit contents; the generator register and the
    scoped buffers go into the region's invariant and come back; nothing is owed; the kernel has no semaphore of
    its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (R1.dat (V3 m) c).Φ 0 from rfl]
    refine BIBase.Entails.trans ?_ (R1.hin (V3 m) c)
    unfold Pipeline.ΦA
    iintro ⟨Hp, -, Hr⟩
    isplitl [Hr]; · iexact Hr
    iexact Hp
  hout c := by
    rw [Pipeline.ownSems0_none, show (pdats m 1 c).Φ (Fin.last _) = (R1.dat (V3 m) c).Φ (Fin.last cfg1.N) from rfl]
    refine (R1.hout (V3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The entry function as segments, and the launch -/

/-- The five segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
/-- The entry function is the run of the segments. -/
theorem main_run (c : Dev nD) : main (F := F) c = Pipeline.Seg.run (segs m) := (main_chain c).trans (by chain_rfl)

set_option backward.isDefEq.respectTransparency.types false in
/-- At the compiled mesh, from any memory with zero counters, every weakly fair execution of the entry function on
    the cores terminates, nothing faulting, and every final state has every unscoped buffer at the last boundary's
    contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-! ## The arguments end as launched

No host stretch writes an argument, and a region reads it through an input window or bypasses it: the fold at an
argument's buffer walks back to the launch memory. -/

theorem W1_keep (c : Dev nD) (r : Ref sig .tc) (h : r ∉ hostOps0_W) : W1 m c (Proc.devRef .tc r) = W0 m c (Proc.devRef .tc r) :=
  StableHlo.after_of_writes_sub hostOps0 _ hostOps0_writes h
theorem W3_keep (c : Dev nD) (r : Ref sig .tc) (h : r ∉ hostOps1_W) : W3 m c (Proc.devRef .tc r) = W2 m c (Proc.devRef .tc r) :=
  StableHlo.after_of_writes_sub hostOps1 _ hostOps1_writes h
theorem W5_keep (c : Dev nD) (r : Ref sig .tc) (h : r ∉ hostOps2_W) : W5 m c (Proc.devRef .tc r) = W4 m c (Proc.devRef .tc r) :=
  StableHlo.after_of_writes_sub hostOps2 _ hostOps2_writes h
/-- An input window's array leaves the first region as it entered. -/
theorem W2_in (c : Dev nD) (w : Fin cfg0.W) (hin : (cfg0.win w).isOut = false) :
    W2 m c (Proc.devRef .tc (Pipeline.arrRef spec0 w)) = W1 m c (Proc.devRef .tc (Pipeline.arrRef spec0 w)) :=
  (W2_arr m c w).trans (((R0.dat (V1 m) c).arrAt_in w hin _).trans (R0.A_eq (V1 m) c w))
/-- An input window's array leaves the second region as it entered. -/
theorem W4_in (c : Dev nD) (w : Fin cfg1.W) (hin : (cfg1.win w).isOut = false) :
    W4 m c (Proc.devRef .tc (Pipeline.arrRef spec1 w)) = W3 m c (Proc.devRef .tc (Pipeline.arrRef spec1 w)) :=
  (W4_arr m c w).trans (((R1.dat (V3 m) c).arrAt_in w hin _).trans (R1.A_eq (V3 m) c w))

theorem W5_main_arg0 (c : Dev nD) : W5 m c (Proc.devRef .tc main_arg0) = m ((c : Thread nD τ).loc main_arg0) :=
  calc W5 m c (Proc.devRef .tc main_arg0)
    _ = W4 m c (Proc.devRef .tc main_arg0) := W5_keep m c main_arg0 (by decide)
    _ = W3 m c (Proc.devRef .tc main_arg0) := W4_of_ne m c main_arg0 (by decide)
    _ = W2 m c (Proc.devRef .tc main_arg0) := W3_keep m c main_arg0 (by decide)
    _ = W1 m c (Proc.devRef .tc main_arg0) := W2_in m c 0 rfl
    _ = W0 m c (Proc.devRef .tc main_arg0) := W1_keep m c main_arg0 (by decide)
    _ = m ((c : Thread nD τ).loc main_arg0) := rfl
theorem W5_main_arg1 (c : Dev nD) : W5 m c (Proc.devRef .tc main_arg1) = m ((c : Thread nD τ).loc main_arg1) :=
  calc W5 m c (Proc.devRef .tc main_arg1)
    _ = W4 m c (Proc.devRef .tc main_arg1) := W5_keep m c main_arg1 (by decide)
    _ = W3 m c (Proc.devRef .tc main_arg1) := W4_of_ne m c main_arg1 (by decide)
    _ = W2 m c (Proc.devRef .tc main_arg1) := W3_keep m c main_arg1 (by decide)
    _ = W1 m c (Proc.devRef .tc main_arg1) := W2_in m c 1 rfl
    _ = W0 m c (Proc.devRef .tc main_arg1) := W1_keep m c main_arg1 (by decide)
    _ = m ((c : Thread nD τ).loc main_arg1) := rfl
theorem W5_main_arg2 (c : Dev nD) : W5 m c (Proc.devRef .tc main_arg2) = m ((c : Thread nD τ).loc main_arg2) :=
  calc W5 m c (Proc.devRef .tc main_arg2)
    _ = W4 m c (Proc.devRef .tc main_arg2) := W5_keep m c main_arg2 (by decide)
    _ = W3 m c (Proc.devRef .tc main_arg2) := W4_in m c 0 rfl
    _ = W2 m c (Proc.devRef .tc main_arg2) := W3_keep m c main_arg2 (by decide)
    _ = W1 m c (Proc.devRef .tc main_arg2) := W2_of_ne m c main_arg2 (by decide)
    _ = W0 m c (Proc.devRef .tc main_arg2) := W1_keep m c main_arg2 (by decide)
    _ = m ((c : Thread nD τ).loc main_arg2) := rfl
theorem W5_main_arg3 (c : Dev nD) : W5 m c (Proc.devRef .tc main_arg3) = m ((c : Thread nD τ).loc main_arg3) :=
  calc W5 m c (Proc.devRef .tc main_arg3)
    _ = W4 m c (Proc.devRef .tc main_arg3) := W5_keep m c main_arg3 (by decide)
    _ = W3 m c (Proc.devRef .tc main_arg3) := W4_in m c 1 rfl
    _ = W2 m c (Proc.devRef .tc main_arg3) := W3_keep m c main_arg3 (by decide)
    _ = W1 m c (Proc.devRef .tc main_arg3) := W2_of_ne m c main_arg3 (by decide)
    _ = W0 m c (Proc.devRef .tc main_arg3) := W1_keep m c main_arg3 (by decide)
    _ = m ((c : Thread nD τ).loc main_arg3) := rfl
theorem W5_main_arg4 (c : Dev nD) : W5 m c (Proc.devRef .tc main_arg4) = m ((c : Thread nD τ).loc main_arg4) :=
  calc W5 m c (Proc.devRef .tc main_arg4)
    _ = W4 m c (Proc.devRef .tc main_arg4) := W5_keep m c main_arg4 (by decide)
    _ = W3 m c (Proc.devRef .tc main_arg4) := W4_of_ne m c main_arg4 (by decide)
    _ = W2 m c (Proc.devRef .tc main_arg4) := W3_keep m c main_arg4 (by decide)
    _ = W1 m c (Proc.devRef .tc main_arg4) := W2_in m c 2 rfl
    _ = W0 m c (Proc.devRef .tc main_arg4) := W1_keep m c main_arg4 (by decide)
    _ = m ((c : Thread nD τ).loc main_arg4) := rfl
theorem W5_main_arg5 (c : Dev nD) : W5 m c (Proc.devRef .tc main_arg5) = m ((c : Thread nD τ).loc main_arg5) :=
  calc W5 m c (Proc.devRef .tc main_arg5)
    _ = W4 m c (Proc.devRef .tc main_arg5) := W5_keep m c main_arg5 (by decide)
    _ = W3 m c (Proc.devRef .tc main_arg5) := W4_of_ne m c main_arg5 (by decide)
    _ = W2 m c (Proc.devRef .tc main_arg5) := W3_keep m c main_arg5 (by decide)
    _ = W1 m c (Proc.devRef .tc main_arg5) := W2_of_ne m c main_arg5 (by decide)
    _ = W0 m c (Proc.devRef .tc main_arg5) := W1_keep m c main_arg5 (by decide)
    _ = m ((c : Thread nD τ).loc main_arg5) := rfl
theorem W5_main_arg6 (c : Dev nD) : W5 m c (Proc.devRef .tc main_arg6) = m ((c : Thread nD τ).loc main_arg6) :=
  calc W5 m c (Proc.devRef .tc main_arg6)
    _ = W4 m c (Proc.devRef .tc main_arg6) := W5_keep m c main_arg6 (by decide)
    _ = W3 m c (Proc.devRef .tc main_arg6) := W4_of_ne m c main_arg6 (by decide)
    _ = W2 m c (Proc.devRef .tc main_arg6) := W3_keep m c main_arg6 (by decide)
    _ = W1 m c (Proc.devRef .tc main_arg6) := W2_in m c 4 rfl
    _ = W0 m c (Proc.devRef .tc main_arg6) := W1_keep m c main_arg6 (by decide)
    _ = m ((c : Thread nD τ).loc main_arg6) := rfl
theorem W5_main_arg7 (c : Dev nD) : W5 m c (Proc.devRef .tc main_arg7) = m ((c : Thread nD τ).loc main_arg7) :=
  calc W5 m c (Proc.devRef .tc main_arg7)
    _ = W4 m c (Proc.devRef .tc main_arg7) := W5_keep m c main_arg7 (by decide)
    _ = W3 m c (Proc.devRef .tc main_arg7) := W4_of_ne m c main_arg7 (by decide)
    _ = W2 m c (Proc.devRef .tc main_arg7) := W3_keep m c main_arg7 (by decide)
    _ = W1 m c (Proc.devRef .tc main_arg7) := W2_of_ne m c main_arg7 (by decide)
    _ = W0 m c (Proc.devRef .tc main_arg7) := W1_keep m c main_arg7 (by decide)
    _ = m ((c : Thread nD τ).loc main_arg7) := rfl
theorem W5_main_arg8 (c : Dev nD) : W5 m c (Proc.devRef .tc main_arg8) = m ((c : Thread nD τ).loc main_arg8) :=
  calc W5 m c (Proc.devRef .tc main_arg8)
    _ = W4 m c (Proc.devRef .tc main_arg8) := W5_keep m c main_arg8 (by decide)
    _ = W3 m c (Proc.devRef .tc main_arg8) := W4_in m c 2 rfl
    _ = W2 m c (Proc.devRef .tc main_arg8) := W3_keep m c main_arg8 (by decide)
    _ = W1 m c (Proc.devRef .tc main_arg8) := W2_of_ne m c main_arg8 (by decide)
    _ = W0 m c (Proc.devRef .tc main_arg8) := W1_keep m c main_arg8 (by decide)
    _ = m ((c : Thread nD τ).loc main_arg8) := rfl
theorem W5_main_arg9 (c : Dev nD) : W5 m c (Proc.devRef .tc main_arg9) = m ((c : Thread nD τ).loc main_arg9) :=
  calc W5 m c (Proc.devRef .tc main_arg9)
    _ = W4 m c (Proc.devRef .tc main_arg9) := W5_keep m c main_arg9 (by decide)
    _ = W3 m c (Proc.devRef .tc main_arg9) := W4_of_ne m c main_arg9 (by decide)
    _ = W2 m c (Proc.devRef .tc main_arg9) := W3_keep m c main_arg9 (by decide)
    _ = W1 m c (Proc.devRef .tc main_arg9) := W2_of_ne m c main_arg9 (by decide)
    _ = W0 m c (Proc.devRef .tc main_arg9) := W1_keep m c main_arg9 (by decide)
    _ = m ((c : Thread nD τ).loc main_arg9) := rfl
theorem W5_main_arg10 (c : Dev nD) : W5 m c (Proc.devRef .tc main_arg10) = m ((c : Thread nD τ).loc main_arg10) :=
  calc W5 m c (Proc.devRef .tc main_arg10)
    _ = W4 m c (Proc.devRef .tc main_arg10) := W5_keep m c main_arg10 (by decide)
    _ = W3 m c (Proc.devRef .tc main_arg10) := W4_in m c 4 rfl
    _ = W2 m c (Proc.devRef .tc main_arg10) := W3_keep m c main_arg10 (by decide)
    _ = W1 m c (Proc.devRef .tc main_arg10) := W2_of_ne m c main_arg10 (by decide)
    _ = W0 m c (Proc.devRef .tc main_arg10) := W1_keep m c main_arg10 (by decide)
    _ = m ((c : Thread nD τ).loc main_arg10) := rfl
theorem W5_main_arg11 (c : Dev nD) : W5 m c (Proc.devRef .tc main_arg11) = m ((c : Thread nD τ).loc main_arg11) :=
  calc W5 m c (Proc.devRef .tc main_arg11)
    _ = W4 m c (Proc.devRef .tc main_arg11) := W5_keep m c main_arg11 (by decide)
    _ = W3 m c (Proc.devRef .tc main_arg11) := W4_of_ne m c main_arg11 (by decide)
    _ = W2 m c (Proc.devRef .tc main_arg11) := W3_keep m c main_arg11 (by decide)
    _ = W1 m c (Proc.devRef .tc main_arg11) := W2_of_ne m c main_arg11 (by decide)
    _ = W0 m c (Proc.devRef .tc main_arg11) := W1_keep m c main_arg11 (by decide)
    _ = m ((c : Thread nD τ).loc main_arg11) := rfl

/-- Every weakly fair execution of the entry function terminates, nothing faulting, and every final state has the
    argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (W5_main_arg0 m c),
    (h c _ (mem_uc main_arg1 (by decide))).trans (W5_main_arg1 m c),
    (h c _ (mem_uc main_arg2 (by decide))).trans (W5_main_arg2 m c),
    (h c _ (mem_uc main_arg3 (by decide))).trans (W5_main_arg3 m c),
    (h c _ (mem_uc main_arg4 (by decide))).trans (W5_main_arg4 m c),
    (h c _ (mem_uc main_arg5 (by decide))).trans (W5_main_arg5 m c),
    (h c _ (mem_uc main_arg6 (by decide))).trans (W5_main_arg6 m c),
    (h c _ (mem_uc main_arg7 (by decide))).trans (W5_main_arg7 m c),
    (h c _ (mem_uc main_arg8 (by decide))).trans (W5_main_arg8 m c),
    (h c _ (mem_uc main_arg9 (by decide))).trans (W5_main_arg9 m c),
    (h c _ (mem_uc main_arg10 (by decide))).trans (W5_main_arg10 m c),
    (h c _ (mem_uc main_arg11 (by decide))).trans (W5_main_arg11 m c)⟩) (run_all m ρ)

/-! ## What the host stretches compute

Each stretch's result at a buffer it writes, from any contents `V` before it: the operations as printed, applied to
the contents of the buffer they read. -/

section Host
variable (V : Valuation τ sig (Elt F))

theorem after_hostOps0_v0 : StableHlo.after hostOps0 V (Proc.devRef .tc main_v0)
    = shapeCast S1x128 (V (Proc.devRef .tc main_arg5)) shapeCasts_S128_S1x128 := by
  dsimp only [hostOps0]; after_results; rfl
theorem after_hostOps0_v1 : StableHlo.after hostOps0 V (Proc.devRef .tc main_v1)
    = shapeCast S1x128 (V (Proc.devRef .tc main_arg7)) shapeCasts_S128_S1x128 := by
  dsimp only [hostOps0]; after_results; rfl
theorem after_hostOps1_v4 : StableHlo.after hostOps1 V (Proc.devRef .tc main_v4)
    = shapeCast S10000x128 (extractStridedSlice S1x10000x128 ![1, 0, 0] (V (Proc.devRef .tc main_v2)) slices_S2x10000x128_S1x10000x128_1_0_0)
        shapeCasts_S1x10000x128_S10000x128 := by
  dsimp only [hostOps1]; after_results; rfl
theorem after_hostOps1_v5 : StableHlo.after hostOps1 V (Proc.devRef .tc main_v5)
    = shapeCast S1x128 (V (Proc.devRef .tc main_arg9)) shapeCasts_S128_S1x128 := by
  dsimp only [hostOps1]; after_results; rfl
theorem after_hostOps1_v6 : StableHlo.after hostOps1 V (Proc.devRef .tc main_v6)
    = shapeCast S1x128 (V (Proc.devRef .tc main_arg11)) shapeCasts_S128_S1x128 := by
  dsimp only [hostOps1]; after_results; rfl
theorem after_hostOps2_v9 : StableHlo.after hostOps2 V (Proc.devRef .tc main_v9)
    = shapeCast S10000x128 (extractStridedSlice S1x10000x128 ![1, 0, 0] (V (Proc.devRef .tc main_v7)) slices_S2x10000x128_S1x10000x128_1_0_0)
        shapeCasts_S1x10000x128_S10000x128 := by
  dsimp only [hostOps2]; after_results; rfl

end Host

/-! ## What the regions are entered with -/

theorem V1_main_arg0 (c : Dev nD) : V1 m c main_arg0 = m ((c : Thread nD τ).loc main_arg0) := W1_keep m c main_arg0 (by decide)
theorem V1_main_arg1 (c : Dev nD) : V1 m c main_arg1 = m ((c : Thread nD τ).loc main_arg1) := W1_keep m c main_arg1 (by decide)
theorem V1_main_arg4 (c : Dev nD) : V1 m c main_arg4 = m ((c : Thread nD τ).loc main_arg4) := W1_keep m c main_arg4 (by decide)
theorem V1_main_arg6 (c : Dev nD) : V1 m c main_arg6 = m ((c : Thread nD τ).loc main_arg6) := W1_keep m c main_arg6 (by decide)
/-- The first bias as a row. -/
theorem V1_main_v0 (c : Dev nD) : V1 m c main_v0 = shapeCast S1x128 (m ((c : Thread nD τ).loc main_arg5)) shapeCasts_S128_S1x128 :=
  after_hostOps0_v0 (W0 m c)
/-- The second bias as a row. -/
theorem V1_main_v1 (c : Dev nD) : V1 m c main_v1 = shapeCast S1x128 (m ((c : Thread nD τ).loc main_arg7)) shapeCasts_S128_S1x128 :=
  after_hostOps0_v1 (W0 m c)

/-- A buffer neither the first stretch nor the first region writes holds its launch contents after the region. -/
theorem W2_launch (c : Dev nD) (r : Ref sig .tc) (h0 : r ∉ hostOps0_W) (hne : ∀ w, Pipeline.arrRef spec0 w ≠ r) :
    W2 m c (Proc.devRef .tc r) = m ((c : Thread nD τ).loc r) :=
  (W2_of_ne m c r hne).trans (W1_keep m c r h0)

theorem V3_main_arg2 (c : Dev nD) : V3 m c main_arg2 = m ((c : Thread nD τ).loc main_arg2) :=
  (W3_keep m c main_arg2 (by decide)).trans (W2_launch m c main_arg2 (by decide) (by decide))
theorem V3_main_arg3 (c : Dev nD) : V3 m c main_arg3 = m ((c : Thread nD τ).loc main_arg3) :=
  (W3_keep m c main_arg3 (by decide)).trans (W2_launch m c main_arg3 (by decide) (by decide))
theorem V3_main_arg8 (c : Dev nD) : V3 m c main_arg8 = m ((c : Thread nD τ).loc main_arg8) :=
  (W3_keep m c main_arg8 (by decide)).trans (W2_launch m c main_arg8 (by decide) (by decide))
theorem V3_main_arg10 (c : Dev nD) : V3 m c main_arg10 = m ((c : Thread nD τ).loc main_arg10) :=
  (W3_keep m c main_arg10 (by decide)).trans (W2_launch m c main_arg10 (by decide) (by decide))
/-- The second graph's first bias as a row. -/
theorem V3_main_v5 (c : Dev nD) : V3 m c main_v5 = shapeCast S1x128 (m ((c : Thread nD τ).loc main_arg9)) shapeCasts_S128_S1x128 :=
  (after_hostOps1_v5 (W2 m c)).trans (congrArg (fun x => shapeCast S1x128 x shapeCasts_S128_S1x128) (W2_launch m c main_arg9 (by decide) (by decide)))
/-- The second graph's second bias as a row. -/
theorem V3_main_v6 (c : Dev nD) : V3 m c main_v6 = shapeCast S1x128 (m ((c : Thread nD τ).loc main_arg11)) shapeCasts_S128_S1x128 :=
  (after_hostOps1_v6 (W2 m c)).trans (congrArg (fun x => shapeCast S1x128 x shapeCasts_S128_S1x128) (W2_launch m c main_arg11 (by decide) (by decide)))

/-! ## The two results at the return -/

/-- The first result: the second plane of what the first region's write-backs leave in its output array, as a
    matrix. -/
theorem W5_main_v4 (c : Dev nD) : W5 m c (Proc.devRef .tc main_v4)
    = shapeCast S10000x128 (extractStridedSlice S1x10000x128 ![1, 0, 0] ((R0.dat (V1 m) c).arrAt 6 cfg0.N) slices_S2x10000x128_S1x10000x128_1_0_0)
        shapeCasts_S1x10000x128_S10000x128 :=
  calc W5 m c (Proc.devRef .tc main_v4)
    _ = W4 m c (Proc.devRef .tc main_v4) := W5_keep m c main_v4 (by decide)
    _ = W3 m c (Proc.devRef .tc main_v4) := W4_of_ne m c main_v4 (by decide)
    _ = _ := after_hostOps1_v4 (W2 m c)
    _ = _ := congrArg (fun x => shapeCast S10000x128 (extractStridedSlice S1x10000x128 ![1, 0, 0] x slices_S2x10000x128_S1x10000x128_1_0_0)
        shapeCasts_S1x10000x128_S10000x128) (W2_arr m c 6)

/-- The second result: the same of the second region. -/
theorem W5_main_v9 (c : Dev nD) : W5 m c (Proc.devRef .tc main_v9)
    = shapeCast S10000x128 (extractStridedSlice S1x10000x128 ![1, 0, 0] ((R1.dat (V3 m) c).arrAt 6 cfg1.N) slices_S2x10000x128_S1x10000x128_1_0_0)
        shapeCasts_S1x10000x128_S10000x128 :=
  (after_hostOps2_v9 (W4 m c)).trans
    (congrArg (fun x => shapeCast S10000x128 (extractStridedSlice S1x10000x128 ![1, 0, 0] x slices_S2x10000x128_S1x10000x128_1_0_0)
        shapeCasts_S1x10000x128_S10000x128) (W4_arr m c 6))

end Cert.KernelIdeal.Run

end
-- ==== Proof.R0Res.lean ====
/- The two halves of region 0's output array as whole-array functions: the hidden product as phase 0 writes it,
   and the result as phase 1 writes it, each row r taken from row r mod 400 of block r / 400. -/
import proofs.«103924_g73796128079920_cont_9to1c4b_223_14_alg».proof.Proof.Gen.KernelIdeal.Launch
import proofs.«103924_g73796128079920_cont_9to1c4b_223_14_alg».proof.Proof.Gen.KernelIdeal.Skeleton
import proofs.«103924_g73796128079920_cont_9to1c4b_223_14_alg».proof.Proof.Gen.KernelIdeal.Points
import proofs.«103924_g73796128079920_cont_9to1c4b_223_14_alg».proof.Proof.R0Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Row `r mod 400` of a block's three-axis staging buffer. -/
def blkIdx (i : S10000x128.Idx) : S1x400x128.Idx := fun a => match a with
  | ⟨0, _⟩ => (0 : Fin 1)
  | ⟨1, _⟩ => (⟨(i 0).val % 400, Nat.mod_lt _ (by decide)⟩ : Fin 400)
  | ⟨2, _⟩ => (i 1 : Fin 128)

/-- Plane 0 of the output array: the hidden product, as phase 0 writes it. -/
def Hid (c : Dev nD) : Vec F S10000x128 .f32 :=
  fun i => k0_pay4 (AdjBlk V c ((i 0).val / 400)) (S1 V c) (B1 V c) (W2 V c) (blkIdx i)

/-- Plane 1 of the output array: the result, as phase 1 writes it. -/
def Res (c : Dev nD) : Vec F S10000x128 .f32 :=
  fun i => k0_pay5 (AdjBlk V c ((i 0).val / 400)) (H2 V c) (B2 V c) (blkIdx i)

/-- Rows and columns of a plane of the output array. -/
def planeIdx (i : S2x10000x128.Idx) : S10000x128.Idx := fun a => match a with
  | ⟨0, _⟩ => (i 1 : Fin 10000)
  | ⟨1, _⟩ => (i 2 : Fin 128)

/-- The output array after the region: plane 0 the hidden product, plane 1 the result. -/
def OutArr (c : Dev nD) : Vec F S2x10000x128 .f32 :=
  fun i => if (i 0).val = 0 then Hid V c (planeIdx i) else Res V c (planeIdx i)

end Cert.KernelIdeal.R0

end
-- ==== Proof.R0Final.lean ====
/-
  The output array after the region's fifty write-backs, as one function of the arrays the region finds: plane 0
  is the hidden product, plane 1 the result, row r taken from row r mod 400 of the block that point
  25 · plane + r / 400 writes. And the slice of plane 1, reshaped to a matrix, is the result.
-/
import proofs.«103924_g73796128079920_cont_9to1c4b_223_14_alg».proof.Proof.R0Res
import Idealize.ShloMosaic.Lib.Pipeline.Value

set_option maxRecDepth 16384

noncomputable section

namespace Cert.KernelIdeal.R0

open Idealize.ShloMosaic Idealize.ShloMosaic.TcCoe Idealize.ShloMosaic.Tactic
open Idealize.ShloMosaic.Pipeline (Dat Cfg Window BodyObligation cellOf)
open Cert.KernelIdeal Cert.KernelIdeal.Gen

variable {F : FTy → Type} [FloatOps F]

variable (V : (c : Dev nD) → (b : Ref sig .tc) → Buf (Elt F) ((c : Thread nD τ).loc b))

/-! ## The block of the output array a point writes -/

/-- The output window's index map, decided over the grid: point t writes plane t / 25, row block t mod 25. -/
theorem idx_out : ∀ t : Fin cfg0.N, win0_6.index t (0 : Fin 3) = t.val / 25 ∧ win0_6.index t (1 : Fin 3) = t.val % 25
    ∧ win0_6.index t (2 : Fin 3) = 0 :=
  (by decide +kernel : ∀ t : Fin grid0.N, _)

/-- Row blocks are taken mod 25. -/
theorem AdjBlk_congr (c : Dev nD) (m m' : ℕ) (h : m % 25 = m' % 25) : AdjBlk V c m = AdjBlk V c m' := by
  funext y
  unfold AdjBlk
  refine congrArg (Adj V c) (funext fun a => ?_)
  match a with
  | ⟨0, _⟩ => exact Fin.ext (by show 400 * (m % 25) + (y 0).val = 400 * (m' % 25) + (y 0).val; rw [h])
  | ⟨1, _⟩ => rfl

/-- Row `(m mod 25) · 400 + j₁` of the hidden product is row `j₁` of what a phase-0 point at row block m leaves. -/
theorem Hid_blk (c : Dev nD) (m : ℕ) (k : S10000x128.Idx) (j : S1x400x128.Idx)
    (h1 : (k 0).val = m % 25 * 400 + (j 1).val) (h2 : (k 1).val = (j 2).val) :
    Hid V c k = k0_pay4 (AdjBlk V c m) (S1 V c) (B1 V c) (W2 V c) j := by
  have hj0 : (j 0).val < 1 := (j 0).isLt
  have hj1 : (j 1).val < 400 := (j 1).isLt
  have hd : (k 0).val / 400 % 25 = m % 25 := by omega
  have hr : (k 0).val % 400 = (j 1).val := by omega
  unfold Hid
  show k0_pay4 (AdjBlk V c ((k 0).val / 400)) (S1 V c) (B1 V c) (W2 V c) (blkIdx k) = _
  rw [AdjBlk_congr V c ((k 0).val / 400) m hd]
  refine congrArg (k0_pay4 (AdjBlk V c m) (S1 V c) (B1 V c) (W2 V c)) (funext fun a => ?_)
  match a with
  | ⟨0, _⟩ => exact Fin.ext (by show 0 = (j 0).val; omega)
  | ⟨1, _⟩ => exact Fin.ext hr
  | ⟨2, _⟩ => exact Fin.ext h2

/-- Row `(m mod 25) · 400 + j₁` of the result is row `j₁` of what a phase-1 point at row block m leaves. -/
theorem Res_blk (c : Dev nD) (m : ℕ) (k : S10000x128.Idx) (j : S1x400x128.Idx)
    (h1 : (k 0).val = m % 25 * 400 + (j 1).val) (h2 : (k 1).val = (j 2).val) :
    Res V c k = k0_pay5 (AdjBlk V c m) (H2 V c) (B2 V c) j := by
  have hj0 : (j 0).val < 1 := (j 0).isLt
  have hj1 : (j 1).val < 400 := (j 1).isLt
  have hd : (k 0).val / 400 % 25 = m % 25 := by omega
  have hr : (k 0).val % 400 = (j 1).val := by omega
  unfold Res
  show k0_pay5 (AdjBlk V c ((k 0).val / 400)) (H2 V c) (B2 V c) (blkIdx k) = _
  rw [AdjBlk_congr V c ((k 0).val / 400) m hd]
  refine congrArg (k0_pay5 (AdjBlk V c m) (H2 V c) (B2 V c)) (funext fun a => ?_)
  match a with
  | ⟨0, _⟩ => exact Fin.ext (by show 0 = (j 0).val; omega)
  | ⟨1, _⟩ => exact Fin.ext hr
  | ⟨2, _⟩ => exact Fin.ext h2

/-- The output array at plane n / 25, row `(n mod 25) · 400 + j₁`, column `j₂` is entry j of what point n leaves. -/
theorem OutArr_blk (c : Dev nD) (n : ℕ) (i : S2x10000x128.Idx) (j : S1x400x128.Idx)
    (h0 : (i 0).val = n / 25) (h1 : (i 1).val = n % 25 * 400 + (j 1).val) (h2 : (i 2).val = (j 2).val) :
    OutArr V c i = if n < 25 then k0_pay4 (AdjBlk V c n) (S1 V c) (B1 V c) (W2 V c) j
      else k0_pay5 (AdjBlk V c n) (H2 V c) (B2 V c) j := by
  unfold OutArr
  show (if (i 0).val = 0 then Hid V c (planeIdx i) else Res V c (planeIdx i)) = _
  by_cases hn : n < 25
  · rw [if_pos hn, if_pos (by omega)]
    exact Hid_blk V c n (planeIdx i) j h1 h2
  · rw [if_neg hn, if_neg (by omega)]
    exact Res_blk V c n (planeIdx i) j h1 h2

/-- What point t leaves in the output window's staging buffer, entry by entry. -/
theorem outAt_apply (c : Dev nD) (t : Fin cfg0.N) (j : S1x400x128.Idx) :
    outAt V c t j = if t.val < 25 then k0_pay4 (AdjBlk V c t.val) (S1 V c) (B1 V c) (W2 V c) j
      else k0_pay5 (AdjBlk V c t.val) (H2 V c) (B2 V c) j := by
  unfold outAt
  split <;> rfl

/-- What point t writes back is block t of the output array. -/
theorem flushed_eq (c : Dev nD) (t : Fin cfg0.N) :
    (dat V c).flushed 6 t = ((cfg0.win 6).blk t).view.read (Elt F) (OutArr V c) := by
  show (cfg0.win 6).cut (grid0.coords t) ((dat V c).after 6 t) = _
  rw [after_6]
  obtain ⟨e0, e1, e2⟩ := idx_out t
  funext j
  rw [View.read_apply]
  show outAt V c t j = OutArr V c (((cfg0.win 6).blk t).view.emb j)
  rw [outAt_apply]
  refine (OutArr_blk V c t.val (((cfg0.win 6).blk t).view.emb j) j ?_ ?_ ?_).symm
  · show win0_6.index t (0 : Fin 3) * 1 + 1 * (j 0).val = t.val / 25
    have hj0 : (j 0).val < 1 := (j 0).isLt
    omega
  · show win0_6.index t (1 : Fin 3) * 400 + 1 * (j 1).val = t.val % 25 * 400 + (j 1).val
    omega
  · show win0_6.index t (2 : Fin 3) * 128 + 1 * (j 2).val = (j 2).val
    omega

/-! ## The fifty blocks cover the array -/

/-- An index of the array is in point t's block iff each coordinate is in the block's range on its axis. -/
theorem mem_blk (t : Fin cfg0.N) (i : S2x10000x128.Idx) :
    i ∈ ((cfg0.win 6).blk t).view.set ↔ ∀ a : Fin 3, win0_6.index t a * S1x400x128.size a ≤ (i a).val
      ∧ (i a).val < win0_6.index t a * S1x400x128.size a + S1x400x128.size a := by
  show i ∈ ((View.whole main_v2).slice (win0_6.rect t)).set ↔ _
  rw [View.set_slice_whole, Rect.mem_set_unit]
  exact Iff.rfl

/-- Entry (p, r, j) is in the block of point 25 p + r / 400. -/
theorem cover (i : S2x10000x128.Idx) :
    ∃ t : Fin cfg0.N, (cfg0.win 6).flush t = true ∧ i ∈ ((cfg0.win 6).blk t).view.set := by
  have hi0 : (i 0).val < 2 := (i 0).isLt
  have hi1 : (i 1).val < 10000 := (i 1).isLt
  have hi2 : (i 2).val < 128 := (i 2).isLt
  have hN : cfg0.N = 50 := N_0
  have ht : 25 * (i 0).val + (i 1).val / 400 < cfg0.N := by rw [hN]; omega
  refine ⟨⟨25 * (i 0).val + (i 1).val / 400, ht⟩, flush0_6 _, ?_⟩
  obtain ⟨e0, e1, e2⟩ := idx_out ⟨25 * (i 0).val + (i 1).val / 400, ht⟩
  have f0 : win0_6.index ⟨25 * (i 0).val + (i 1).val / 400, ht⟩ (0 : Fin 3) = (i 0).val := by rw [e0]; show (25 * (i 0).val + (i 1).val / 400) / 25 = _; omega
  have f1 : win0_6.index ⟨25 * (i 0).val + (i 1).val / 400, ht⟩ (1 : Fin 3) = (i 1).val / 400 := by rw [e1]; show (25 * (i 0).val + (i 1).val / 400) % 25 = _; omega
  rw [mem_blk]
  intro a
  match a with
  | ⟨0, _⟩ =>
    show win0_6.index ⟨25 * (i 0).val + (i 1).val / 400, ht⟩ (0 : Fin 3) * 1 ≤ (i 0).val ∧ (i 0).val < win0_6.index ⟨25 * (i 0).val + (i 1).val / 400, ht⟩ (0 : Fin 3) * 1 + 1
    rw [f0]; omega
  | ⟨1, _⟩ =>
    show win0_6.index ⟨25 * (i 0).val + (i 1).val / 400, ht⟩ (1 : Fin 3) * 400 ≤ (i 1).val ∧ (i 1).val < win0_6.index ⟨25 * (i 0).val + (i 1).val / 400, ht⟩ (1 : Fin 3) * 400 + 400
    rw [f1]; omega
  | ⟨2, _⟩ =>
    show win0_6.index ⟨25 * (i 0).val + (i 1).val / 400, ht⟩ (2 : Fin 3) * 128 ≤ (i 2).val ∧ (i 2).val < win0_6.index ⟨25 * (i 0).val + (i 1).val / 400, ht⟩ (2 : Fin 3) * 128 + 128
    rw [e2]; omega

/-- The output array after the region is `OutArr`. -/
theorem arr_final (c : Dev nD) : (dat V c).arrAt 6 cfg0.N = OutArr V c :=
  (dat V c).arrAt_eq_of_cover 6 (OutArr V c) (fun t _ => flushed_eq V c t) cover

/-! ## Plane 1, sliced off and reshaped, is the result -/

theorem res_of_slice (c : Dev nD) (i : S10000x128.Idx) :
    shapeCast S10000x128 (extractStridedSlice S1x10000x128 ![1, 0, 0] (OutArr V c) slices_S2x10000x128_S1x10000x128_1_0_0)
      shapeCasts_S1x10000x128_S10000x128 i = Res V c i := by
  refine (shapeCast_apply _ _ i (fun a => match a with | ⟨0, _⟩ => (0 : Fin 1) | ⟨1, _⟩ => (i 0 : Fin 10000) | ⟨2, _⟩ => (i 1 : Fin 128))
    (by rw [Shape.rowMajor_val_three, Shape.rowMajor_val_two]
        show (0 * 10000 + (i 0).val) * 128 + (i 1).val = (i 0).val * 128 + (i 1).val
        omega)).trans ?_
  refine (extractStridedSlice_apply _ _ _ _ (fun a => match a with | ⟨0, _⟩ => (1 : Fin 2) | ⟨1, _⟩ => (i 0 : Fin 10000) | ⟨2, _⟩ => (i 1 : Fin 128))
    (fun a => match a with
      | ⟨0, _⟩ => by show 1 = 1 + 0; omega
      | ⟨1, _⟩ => by show (i 0).val = 0 + (i 0).val; omega
      | ⟨2, _⟩ => by show (i 1).val = 0 + (i 1).val; omega)).trans ?_
  unfold OutArr
  show (if (1 : Fin 2).val = 0 then _ else Res V c (planeIdx _)) = _
  rw [if_neg (by decide)]
  refine congrArg (Res V c) (funext fun a => ?_)
  match a with
  | ⟨0, _⟩ => rfl
  | ⟨1, _⟩ => rfl

end Cert.KernelIdeal.R0

end
-- ==== Proof.R1Res.lean ====
/- The two halves of region 0's output array as whole-array functions: the hidden product as phase 0 writes it,
   and the result as phase 1 writes it, each row r taken from row r mod 400 of block r / 400. -/
import proofs.«103924_g73796128079920_cont_9to1c4b_223_14_alg».proof.Proof.Gen.KernelIdeal.Launch
import proofs.«103924_g73796128079920_cont_9to1c4b_223_14_alg».proof.Proof.Gen.KernelIdeal.Skeleton
import proofs.«103924_g73796128079920_cont_9to1c4b_223_14_alg».proof.Proof.Gen.KernelIdeal.Points
import proofs.«103924_g73796128079920_cont_9to1c4b_223_14_alg».proof.Proof.R1Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Row `r mod 400` of a block's three-axis staging buffer. -/
def blkIdx (i : S10000x128.Idx) : S1x400x128.Idx := fun a => match a with
  | ⟨0, _⟩ => (0 : Fin 1)
  | ⟨1, _⟩ => (⟨(i 0).val % 400, Nat.mod_lt _ (by decide)⟩ : Fin 400)
  | ⟨2, _⟩ => (i 1 : Fin 128)

/-- Plane 0 of the output array: the hidden product, as phase 0 writes it. -/
def Hid (c : Dev nD) : Vec F S10000x128 .f32 :=
  fun i => k1_pay4 (AdjBlk V c ((i 0).val / 400)) (S1 V c) (B1 V c) (W2 V c) (blkIdx i)

/-- Plane 1 of the output array: the result, as phase 1 writes it. -/
def Res (c : Dev nD) : Vec F S10000x128 .f32 :=
  fun i => k1_pay5 (AdjBlk V c ((i 0).val / 400)) (H2 V c) (B2 V c) (blkIdx i)

/-- Rows and columns of a plane of the output array. -/
def planeIdx (i : S2x10000x128.Idx) : S10000x128.Idx := fun a => match a with
  | ⟨0, _⟩ => (i 1 : Fin 10000)
  | ⟨1, _⟩ => (i 2 : Fin 128)

/-- The output array after the region: plane 0 the hidden product, plane 1 the result. -/
def OutArr (c : Dev nD) : Vec F S2x10000x128 .f32 :=
  fun i => if (i 0).val = 0 then Hid V c (planeIdx i) else Res V c (planeIdx i)

end Cert.KernelIdeal.R1

end
-- ==== Proof.R1Final.lean ====
/-
  The output array after the region's fifty write-backs, as one function of the arrays the region finds: plane 0
  is the hidden product, plane 1 the result, row r taken from row r mod 400 of the block that point
  25 · plane + r / 400 writes. And the slice of plane 1, reshaped to a matrix, is the result.
-/
import proofs.«103924_g73796128079920_cont_9to1c4b_223_14_alg».proof.Proof.R1Res
import Idealize.ShloMosaic.Lib.Pipeline.Value

set_option maxRecDepth 16384

noncomputable section

namespace Cert.KernelIdeal.R1

open Idealize.ShloMosaic Idealize.ShloMosaic.TcCoe Idealize.ShloMosaic.Tactic
open Idealize.ShloMosaic.Pipeline (Dat Cfg Window BodyObligation cellOf)
open Cert.KernelIdeal Cert.KernelIdeal.Gen

variable {F : FTy → Type} [FloatOps F]

variable (V : (c : Dev nD) → (b : Ref sig .tc) → Buf (Elt F) ((c : Thread nD τ).loc b))

/-! ## The block of the output array a point writes -/

/-- The output window's index map, decided over the grid: point t writes plane t / 25, row block t mod 25. -/
theorem idx_out : ∀ t : Fin cfg1.N, win1_6.index t (0 : Fin 3) = t.val / 25 ∧ win1_6.index t (1 : Fin 3) = t.val % 25
    ∧ win1_6.index t (2 : Fin 3) = 0 :=
  (by decide +kernel : ∀ t : Fin grid1.N, _)

/-- Row blocks are taken mod 25. -/
theorem AdjBlk_congr (c : Dev nD) (m m' : ℕ) (h : m % 25 = m' % 25) : AdjBlk V c m = AdjBlk V c m' := by
  funext y
  unfold AdjBlk
  refine congrArg (Adj V c) (funext fun a => ?_)
  match a with
  | ⟨0, _⟩ => exact Fin.ext (by show 400 * (m % 25) + (y 0).val = 400 * (m' % 25) + (y 0).val; rw [h])
  | ⟨1, _⟩ => rfl

/-- Row `(m mod 25) · 400 + j₁` of the hidden product is row `j₁` of what a phase-0 point at row block m leaves. -/
theorem Hid_blk (c : Dev nD) (m : ℕ) (k : S10000x128.Idx) (j : S1x400x128.Idx)
    (h1 : (k 0).val = m % 25 * 400 + (j 1).val) (h2 : (k 1).val = (j 2).val) :
    Hid V c k = k1_pay4 (AdjBlk V c m) (S1 V c) (B1 V c) (W2 V c) j := by
  have hj0 : (j 0).val < 1 := (j 0).isLt
  have hj1 : (j 1).val < 400 := (j 1).isLt
  have hd : (k 0).val / 400 % 25 = m % 25 := by omega
  have hr : (k 0).val % 400 = (j 1).val := by omega
  unfold Hid
  show k1_pay4 (AdjBlk V c ((k 0).val / 400)) (S1 V c) (B1 V c) (W2 V c) (blkIdx k) = _
  rw [AdjBlk_congr V c ((k 0).val / 400) m hd]
  refine congrArg (k1_pay4 (AdjBlk V c m) (S1 V c) (B1 V c) (W2 V c)) (funext fun a => ?_)
  match a with
  | ⟨0, _⟩ => exact Fin.ext (by show 0 = (j 0).val; omega)
  | ⟨1, _⟩ => exact Fin.ext hr
  | ⟨2, _⟩ => exact Fin.ext h2

/-- Row `(m mod 25) · 400 + j₁` of the result is row `j₁` of what a phase-1 point at row block m leaves. -/
theorem Res_blk (c : Dev nD) (m : ℕ) (k : S10000x128.Idx) (j : S1x400x128.Idx)
    (h1 : (k 0).val = m % 25 * 400 + (j 1).val) (h2 : (k 1).val = (j 2).val) :
    Res V c k = k1_pay5 (AdjBlk V c m) (H2 V c) (B2 V c) j := by
  have hj0 : (j 0).val < 1 := (j 0).isLt
  have hj1 : (j 1).val < 400 := (j 1).isLt
  have hd : (k 0).val / 400 % 25 = m % 25 := by omega
  have hr : (k 0).val % 400 = (j 1).val := by omega
  unfold Res
  show k1_pay5 (AdjBlk V c ((k 0).val / 400)) (H2 V c) (B2 V c) (blkIdx k) = _
  rw [AdjBlk_congr V c ((k 0).val / 400) m hd]
  refine congrArg (k1_pay5 (AdjBlk V c m) (H2 V c) (B2 V c)) (funext fun a => ?_)
  match a with
  | ⟨0, _⟩ => exact Fin.ext (by show 0 = (j 0).val; omega)
  | ⟨1, _⟩ => exact Fin.ext hr
  | ⟨2, _⟩ => exact Fin.ext h2

/-- The output array at plane n / 25, row `(n mod 25) · 400 + j₁`, column `j₂` is entry j of what point n leaves. -/
theorem OutArr_blk (c : Dev nD) (n : ℕ) (i : S2x10000x128.Idx) (j : S1x400x128.Idx)
    (h0 : (i 0).val = n / 25) (h1 : (i 1).val = n % 25 * 400 + (j 1).val) (h2 : (i 2).val = (j 2).val) :
    OutArr V c i = if n < 25 then k1_pay4 (AdjBlk V c n) (S1 V c) (B1 V c) (W2 V c) j
      else k1_pay5 (AdjBlk V c n) (H2 V c) (B2 V c) j := by
  unfold OutArr
  show (if (i 0).val = 0 then Hid V c (planeIdx i) else Res V c (planeIdx i)) = _
  by_cases hn : n < 25
  · rw [if_pos hn, if_pos (by omega)]
    exact Hid_blk V c n (planeIdx i) j h1 h2
  · rw [if_neg hn, if_neg (by omega)]
    exact Res_blk V c n (planeIdx i) j h1 h2

/-- What point t leaves in the output window's staging buffer, entry by entry. -/
theorem outAt_apply (c : Dev nD) (t : Fin cfg1.N) (j : S1x400x128.Idx) :
    outAt V c t j = if t.val < 25 then k1_pay4 (AdjBlk V c t.val) (S1 V c) (B1 V c) (W2 V c) j
      else k1_pay5 (AdjBlk V c t.val) (H2 V c) (B2 V c) j := by
  unfold outAt
  split <;> rfl

/-- What point t writes back is block t of the output array. -/
theorem flushed_eq (c : Dev nD) (t : Fin cfg1.N) :
    (dat V c).flushed 6 t = ((cfg1.win 6).blk t).view.read (Elt F) (OutArr V c) := by
  show (cfg1.win 6).cut (grid1.coords t) ((dat V c).after 6 t) = _
  rw [after_6]
  obtain ⟨e0, e1, e2⟩ := idx_out t
  funext j
  rw [View.read_apply]
  show outAt V c t j = OutArr V c (((cfg1.win 6).blk t).view.emb j)
  rw [outAt_apply]
  refine (OutArr_blk V c t.val (((cfg1.win 6).blk t).view.emb j) j ?_ ?_ ?_).symm
  · show win1_6.index t (0 : Fin 3) * 1 + 1 * (j 0).val = t.val / 25
    have hj0 : (j 0).val < 1 := (j 0).isLt
    omega
  · show win1_6.index t (1 : Fin 3) * 400 + 1 * (j 1).val = t.val % 25 * 400 + (j 1).val
    omega
  · show win1_6.index t (2 : Fin 3) * 128 + 1 * (j 2).val = (j 2).val
    omega

/-! ## The fifty blocks cover the array -/

/-- An index of the array is in point t's block iff each coordinate is in the block's range on its axis. -/
theorem mem_blk (t : Fin cfg1.N) (i : S2x10000x128.Idx) :
    i ∈ ((cfg1.win 6).blk t).view.set ↔ ∀ a : Fin 3, win1_6.index t a * S1x400x128.size a ≤ (i a).val
      ∧ (i a).val < win1_6.index t a * S1x400x128.size a + S1x400x128.size a := by
  show i ∈ ((View.whole main_v7).slice (win1_6.rect t)).set ↔ _
  rw [View.set_slice_whole, Rect.mem_set_unit]
  exact Iff.rfl

/-- Entry (p, r, j) is in the block of point 25 p + r / 400. -/
theorem cover (i : S2x10000x128.Idx) :
    ∃ t : Fin cfg1.N, (cfg1.win 6).flush t = true ∧ i ∈ ((cfg1.win 6).blk t).view.set := by
  have hi0 : (i 0).val < 2 := (i 0).isLt
  have hi1 : (i 1).val < 10000 := (i 1).isLt
  have hi2 : (i 2).val < 128 := (i 2).isLt
  have hN : cfg1.N = 50 := N_1
  have ht : 25 * (i 0).val + (i 1).val / 400 < cfg1.N := by rw [hN]; omega
  refine ⟨⟨25 * (i 0).val + (i 1).val / 400, ht⟩, flush1_6 _, ?_⟩
  obtain ⟨e0, e1, e2⟩ := idx_out ⟨25 * (i 0).val + (i 1).val / 400, ht⟩
  have f0 : win1_6.index ⟨25 * (i 0).val + (i 1).val / 400, ht⟩ (0 : Fin 3) = (i 0).val := by rw [e0]; show (25 * (i 0).val + (i 1).val / 400) / 25 = _; omega
  have f1 : win1_6.index ⟨25 * (i 0).val + (i 1).val / 400, ht⟩ (1 : Fin 3) = (i 1).val / 400 := by rw [e1]; show (25 * (i 0).val + (i 1).val / 400) % 25 = _; omega
  rw [mem_blk]
  intro a
  match a with
  | ⟨0, _⟩ =>
    show win1_6.index ⟨25 * (i 0).val + (i 1).val / 400, ht⟩ (0 : Fin 3) * 1 ≤ (i 0).val ∧ (i 0).val < win1_6.index ⟨25 * (i 0).val + (i 1).val / 400, ht⟩ (0 : Fin 3) * 1 + 1
    rw [f0]; omega
  | ⟨1, _⟩ =>
    show win1_6.index ⟨25 * (i 0).val + (i 1).val / 400, ht⟩ (1 : Fin 3) * 400 ≤ (i 1).val ∧ (i 1).val < win1_6.index ⟨25 * (i 0).val + (i 1).val / 400, ht⟩ (1 : Fin 3) * 400 + 400
    rw [f1]; omega
  | ⟨2, _⟩ =>
    show win1_6.index ⟨25 * (i 0).val + (i 1).val / 400, ht⟩ (2 : Fin 3) * 128 ≤ (i 2).val ∧ (i 2).val < win1_6.index ⟨25 * (i 0).val + (i 1).val / 400, ht⟩ (2 : Fin 3) * 128 + 128
    rw [e2]; omega

/-- The output array after the region is `OutArr`. -/
theorem arr_final (c : Dev nD) : (dat V c).arrAt 6 cfg1.N = OutArr V c :=
  (dat V c).arrAt_eq_of_cover 6 (OutArr V c) (fun t _ => flushed_eq V c t) cover

/-! ## Plane 1, sliced off and reshaped, is the result -/

theorem res_of_slice (c : Dev nD) (i : S10000x128.Idx) :
    shapeCast S10000x128 (extractStridedSlice S1x10000x128 ![1, 0, 0] (OutArr V c) slices_S2x10000x128_S1x10000x128_1_0_0)
      shapeCasts_S1x10000x128_S10000x128 i = Res V c i := by
  refine (shapeCast_apply _ _ i (fun a => match a with | ⟨0, _⟩ => (0 : Fin 1) | ⟨1, _⟩ => (i 0 : Fin 10000) | ⟨2, _⟩ => (i 1 : Fin 128))
    (by rw [Shape.rowMajor_val_three, Shape.rowMajor_val_two]
        show (0 * 10000 + (i 0).val) * 128 + (i 1).val = (i 0).val * 128 + (i 1).val
        omega)).trans ?_
  refine (extractStridedSlice_apply _ _ _ _ (fun a => match a with | ⟨0, _⟩ => (1 : Fin 2) | ⟨1, _⟩ => (i 0 : Fin 10000) | ⟨2, _⟩ => (i 1 : Fin 128))
    (fun a => match a with
      | ⟨0, _⟩ => by show 1 = 1 + 0; omega
      | ⟨1, _⟩ => by show (i 0).val = 0 + (i 0).val; omega
      | ⟨2, _⟩ => by show (i 1).val = 0 + (i 1).val; omega)).trans ?_
  unfold OutArr
  show (if (1 : Fin 2).val = 0 then _ else Res V c (planeIdx _)) = _
  rw [if_neg (by decide)]
  refine congrArg (Res V c) (funext fun a => ?_)
  match a with
  | ⟨0, _⟩ => rfl
  | ⟨1, _⟩ => rfl

end Cert.KernelIdeal.R1

end
-- ==== Proof.PayloadAt.lean ====
/-
The kernel's stored values, read at an index, at the ideal instance.

Each value the kernel body stores is a pure term over the vectors it loaded: matrix products into a zero accumulator, a
row bias broadcast down the rows, a maximum with zero, and shape casts that add a leading unit axis or change nothing.
Read at entry (p, j), a product is the sum over the contracted axis of left (p, k) · right (k, j); the broadcast bias is
b (0, j); the casts move no element. So the first stored value is x · w, the second (stored twice, once per layout) is
relu (a · s + b) · w, and the third is a · h + b, each entry by entry, with a the block of rows of the adjacency matrix
that the grid point holds.
-/
import proofs.«103924_g73796128079920_cont_9to1c4b_223_14_alg».proof.Proof.Gen.KernelIdeal.Skeleton
import proofs.«103924_g73796128079920_cont_9to1c4b_223_14_alg».proof.Proof.GcnSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.PayAt

open Cert.KernelIdeal Cert.KernelIdeal.Gen Idealize.ShloMosaic Idealize.ShloMosaic.ValueIdx

/-! ## The three matrix products at an entry -/

/-- Features (10000 × 128) times weights (128 × 128) into the zero accumulator: entry (r, j) is Σ_k x (r, k) · w (k, j). The four coordinate facts say which operand entries the contraction index k meets. -/
theorem mm_x_w_lhs0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem mm_x_w_lhs1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem mm_x_w_rhs0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem mm_x_w_rhs1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl
theorem mm_x_w (x : FVec Ideal S10000x128 .f32) (w : FVec Ideal S128x128 .f32) (r : Fin 10000) (j : Fin 128) :
    matmul dot_S10000x128_S128x128_S10000x128_1_0_0_1_n_n none x w (constant (F := Ideal) S10000x128 .f32 0x00000000#32) (ix2 r j)
      = ∑ k : Fin 128, x (ix2 r k) * w (ix2 k j) := by
  refine (Ideal.matmul_constant_zero_apply dot_S10000x128_S128x128_S10000x128_1_0_0_1_n_n none x w (ix2 r j)).trans ?_
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 r j) ((contrEquiv1 dot_S10000x128_S128x128_S10000x128_1_0_0_1_n_n 128 rfl rfl).symm k) = ix2 r k := funext fun a => Fin.ext (by
    match a with
    | ⟨0, _⟩ => exact mm_x_w_lhs0 _ _
    | ⟨1, _⟩ => exact (mm_x_w_lhs1 _ _).trans hk)
  have er : dot_S10000x128_S128x128_S10000x128_1_0_0_1_n_n.rhsIdx (ix2 r j) ((contrEquiv1 dot_S10000x128_S128x128_S10000x128_1_0_0_1_n_n 128 rfl rfl).symm k) = ix2 k j := funext fun a => Fin.ext (by
    match a with
    | ⟨0, _⟩ => exact (mm_x_w_rhs0 _ _).trans hk
    | ⟨1, _⟩ => exact mm_x_w_rhs1 _ _)
  rw [el, er]

/-- A block of 400 rows of the adjacency matrix times a 10000 × 128 matrix: entry (p, j) is Σ_q a (p, q) · s (q, j). -/
theorem mm_a_s_lhs0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem mm_a_s_lhs1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
theorem mm_a_s_rhs0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
theorem mm_a_s_rhs1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl
theorem mm_a_s (a : FVec Ideal S400x10000 .f32) (s : FVec Ideal S10000x128 .f32) (r : Fin 400) (j : Fin 128) :
    matmul dot_S400x10000_S10000x128_S400x128_1_0_0_1_n_n none a s (constant (F := Ideal) S400x128 .f32 0x00000000#32) (ix2 r j)
      = ∑ k : Fin 10000, a (ix2 r k) * s (ix2 k j) := by
  refine (Ideal.matmul_constant_zero_apply dot_S400x10000_S10000x128_S400x128_1_0_0_1_n_n none a s (ix2 r j)).trans ?_
  rw [← Equiv.sum_comp (contrEquiv1 dot_S400x10000_S10000x128_S400x128_1_0_0_1_n_n 10000 rfl rfl).symm]
  refine Finset.sum_congr rfl fun k _ => ?_
  have hk := contrEquiv1_symm_val dot_S400x10000_S10000x128_S400x128_1_0_0_1_n_n 10000 rfl rfl k
  have el : dot_S400x10000_S10000x128_S400x128_1_0_0_1_n_n.lhsIdx (ix2 r j) ((contrEquiv1 dot_S400x10000_S10000x128_S400x128_1_0_0_1_n_n 10000 rfl rfl).symm k) = ix2 r k := funext fun a => Fin.ext (by
    match a with
    | ⟨0, _⟩ => exact mm_a_s_lhs0 _ _
    | ⟨1, _⟩ => exact (mm_a_s_lhs1 _ _).trans hk)
  have er : dot_S400x10000_S10000x128_S400x128_1_0_0_1_n_n.rhsIdx (ix2 r j) ((contrEquiv1 dot_S400x10000_S10000x128_S400x128_1_0_0_1_n_n 10000 rfl rfl).symm k) = ix2 k j := funext fun a => Fin.ext (by
    match a with
    | ⟨0, _⟩ => exact (mm_a_s_rhs0 _ _).trans hk
    | ⟨1, _⟩ => exact mm_a_s_rhs1 _ _)
  rw [el, er]

/-- A block of 400 hidden rows times weights (128 × 128): entry (p, j) is Σ_k h (p, k) · w (k, j). -/
theorem mm_h_w_lhs0 (i : S400x128.Idx) (q : dot_S400x128_S128x128_S400x128_1_0_0_1_n_n.contr.Idx) :
    (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
theorem mm_h_w_lhs1 (i : S400x128.Idx) (q : dot_S400x128_S128x128_S400x128_1_0_0_1_n_n.contr.Idx) :
    (dot_S400x128_S128x128_S400x128_1_0_0_1_n_n.lhsIdx i q 1).val = (q ⟨0, by decide⟩).val :=
  dot_S400x128_S128x128_S400x128_1_0_0_1_n_n.lhsIdx_val_of_single rfl i q
theorem mm_h_w_rhs0 (i : S400x128.Idx) (q : dot_S400x128_S128x128_S400x128_1_0_0_1_n_n.contr.Idx) :
    (dot_S400x128_S128x128_S400x128_1_0_0_1_n_n.rhsIdx i q 0).val = (q ⟨0, by decide⟩).val :=
  dot_S400x128_S128x128_S400x128_1_0_0_1_n_n.rhsIdx_val_of_single rfl i q
theorem mm_h_w_rhs1 (i : S400x128.Idx) (q : dot_S400x128_S128x128_S400x128_1_0_0_1_n_n.contr.Idx) :
    (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl
theorem mm_h_w (h : FVec Ideal S400x128 .f32) (w : FVec Ideal S128x128 .f32) (r : Fin 400) (j : Fin 128) :
    matmul dot_S400x128_S128x128_S400x128_1_0_0_1_n_n none h w (constant (F := Ideal) S400x128 .f32 0x00000000#32) (ix2 r j)
      = ∑ k : Fin 128, h (ix2 r k) * w (ix2 k j) := by
  refine (Ideal.matmul_constant_zero_apply dot_S400x128_S128x128_S400x128_1_0_0_1_n_n none h w (ix2 r j)).trans ?_
  rw [← Equiv.sum_comp (contrEquiv1 dot_S400x128_S128x128_S400x128_1_0_0_1_n_n 128 rfl rfl).symm]
  refine Finset.sum_congr rfl fun k _ => ?_
  have hk := contrEquiv1_symm_val dot_S400x128_S128x128_S400x128_1_0_0_1_n_n 128 rfl rfl k
  have el : dot_S400x128_S128x128_S400x128_1_0_0_1_n_n.lhsIdx (ix2 r j) ((contrEquiv1 dot_S400x128_S128x128_S400x128_1_0_0_1_n_n 128 rfl rfl).symm k) = ix2 r k := funext fun a => Fin.ext (by
    match a with
    | ⟨0, _⟩ => exact mm_h_w_lhs0 _ _
    | ⟨1, _⟩ => exact (mm_h_w_lhs1 _ _).trans hk)
  have er : dot_S400x128_S128x128_S400x128_1_0_0_1_n_n.rhsIdx (ix2 r j) ((contrEquiv1 dot_S400x128_S128x128_S400x128_1_0_0_1_n_n 128 rfl rfl).symm k) = ix2 k j := funext fun a => Fin.ext (by
    match a with
    | ⟨0, _⟩ => exact (mm_h_w_rhs0 _ _).trans hk
    | ⟨1, _⟩ => exact mm_h_w_rhs1 _ _)
  rw [el, er]

/-! ## The stored values at an entry -/

/-- The first stored value is x · w. -/
theorem pay1_at (x : Vec Ideal S10000x128 .f32) (w : Vec Ideal S128x128 .f32) (r : Fin 10000) (j : Fin 128) :
    k0_pay1 (F := Ideal) x w (ix2 r j) = ∑ k : Fin 128, x (ix2 r k) * w (ix2 k j) := by
  unfold k0_pay1
  refine (congrFun (shapeCast_self _ shapeCasts_S10000x128_S10000x128) (ix2 r j)).trans ?_
  exact mm_x_w x w r j

/-- The biased block product a · s + b at an entry, before the maximum. -/
theorem pre_at (a : FVec Ideal S400x10000 .f32) (s : FVec Ideal S10000x128 .f32) (b : FVec Ideal S1x128 .f32) (p : Fin 400) (j : Fin 128) :
    addf (matmul dot_S400x10000_S10000x128_S400x128_1_0_0_1_n_n none a s (constant (F := Ideal) S400x128 .f32 0x00000000#32))
        (broadcastTo S400x128 (shapeCast S1x128 b shapeCasts_S1x128_S1x128) broadcasts_S1x128_S400x128) (ix2 p j)
      = (∑ q : Fin 10000, a (ix2 p q) * s (ix2 q j)) + b (ix2 0 j) := by
  refine (addf_apply _ _ (ix2 p j)).trans ?_
  refine congrArg₂ (· + ·) (mm_a_s a s p j) ?_
  refine (broadcastTo_1b_ab_apply _ broadcasts_S1x128_S400x128 p j).trans ?_
  exact congrFun (shapeCast_self b shapeCasts_S1x128_S1x128) (ix2 0 j)

/-- relu (a · s + b) · w at an entry: the value both layouts of the second store hold. -/
theorem pay2_at (a : Vec Ideal S400x10000 .f32) (s : Vec Ideal S10000x128 .f32) (b : Vec Ideal S1x128 .f32) (w : Vec Ideal S128x128 .f32)
    (p : Fin 400) (j : Fin 128) :
    k0_pay2 (F := Ideal) a s b w (ix2 p j)
      = ∑ k : Fin 128, max ((∑ q : Fin 10000, a (ix2 p q) * s (ix2 q k)) + b (ix2 0 k)) 0 * w (ix2 k j) := by
  unfold k0_pay2
  refine (mm_h_w _ w p j).trans ?_
  refine Finset.sum_congr rfl fun k _ => ?_
  refine congrArg (· * w (ix2 k j)) ?_
  refine (maximumf_apply _ _ (ix2 p k)).trans ?_
  refine congrArg₂ max (pre_at a s b p k) ?_
  exact Ideal.ofBits_zero_f32

/-- The second stored value in the scratch's layout. -/
theorem pay3_at (a : Vec Ideal S400x10000 .f32) (s : Vec Ideal S10000x128 .f32) (b : Vec Ideal S1x128 .f32) (w : Vec Ideal S128x128 .f32)
    (p : Fin 400) (j : Fin 128) :
    k0_pay3 (F := Ideal) a s b w (ix2 p j)
      = ∑ k : Fin 128, max ((∑ q : Fin 10000, a (ix2 p q) * s (ix2 q k)) + b (ix2 0 k)) 0 * w (ix2 k j) := by
  unfold k0_pay3
  refine (congrFun (shapeCast_self _ shapeCasts_S400x128_S400x128) (ix2 p j)).trans ?_
  exact pay2_at a s b w p j

/-- The second stored value in the output block's layout (a leading unit axis). -/
theorem pay4_at (a : Vec Ideal S400x10000 .f32) (s : Vec Ideal S10000x128 .f32) (b : Vec Ideal S1x128 .f32) (w : Vec Ideal S128x128 .f32)
    (p : Fin 400) (j : Fin 128) :
    k0_pay4 (F := Ideal) a s b w (ix3 0 p j)
      = ∑ k : Fin 128, max ((∑ q : Fin 10000, a (ix2 p q) * s (ix2 q k)) + b (ix2 0 k)) 0 * w (ix2 k j) := by
  unfold k0_pay4
  refine (shapeCast_ab_1ab_apply _ shapeCasts_S400x128_S1x400x128 0 p j).trans ?_
  exact pay2_at a s b w p j

/-- The third stored value is a · h + b, in the output block's layout. -/
theorem pay5_at (a : Vec Ideal S400x10000 .f32) (h : Vec Ideal S10000x128 .f32) (b : Vec Ideal S1x128 .f32) (p : Fin 400) (j : Fin 128) :
    k0_pay5 (F := Ideal) a h b (ix3 0 p j) = (∑ q : Fin 10000, a (ix2 p q) * h (ix2 q j)) + b (ix2 0 j) := by
  unfold k0_pay5
  refine (shapeCast_ab_1ab_apply _ shapeCasts_S400x128_S1x400x128 0 p j).trans ?_
  exact pre_at a h b p j

/-! ## The second call stores the same values -/

section Second
variable {F : FTy → Type} [FloatOps F]

theorem k1_pay1_eq : @k1_pay1 F _ = @k0_pay1 F _ := rfl
theorem k1_pay2_eq : @k1_pay2 F _ = @k0_pay2 F _ := rfl
theorem k1_pay3_eq : @k1_pay3 F _ = @k0_pay3 F _ := rfl
theorem k1_pay4_eq : @k1_pay4 F _ = @k0_pay4 F _ := rfl
theorem k1_pay5_eq : @k1_pay5 F _ = @k0_pay5 F _ := rfl

end Second

end Cert.KernelIdeal.PayAt

end
-- ==== Proof.R0Value.lean ====
/-
Region 0's arrays are the specification's.

The region's values are stated block by block through the kernel's stored terms: the support is the first stored
value of the features and the first weights; row r of the hidden product is row r mod 400 of the second stored value of
the block r / 400 of the adjacency matrix; row r of the result is row r mod 400 of the third stored value of that block.
Read at an entry, each stored value is a sum over the contracted axis; block r / 400 at row r mod 400 is row r of the
adjacency matrix, because 400 · (r / 400) + r mod 400 = r and r / 400 < 25; and the [1, 128] bias the kernel reads is the
[128] bias of the arguments with a unit axis in front. So the three arrays are the specification's s1, h2 and out.
-/
import proofs.«103924_g73796128079920_cont_9to1c4b_223_14_alg».proof.Proof.R0Res
import proofs.«103924_g73796128079920_cont_9to1c4b_223_14_alg».proof.Proof.PayloadAt
import proofs.«103924_g73796128079920_cont_9to1c4b_223_14_alg».proof.Proof.GcnSpec
import Idealize.ShloMosaic.Lib.ValueLayout

noncomputable section

open scoped BigOperators

namespace Cert.KernelIdeal.R0

open Idealize.ShloMosaic Idealize.ShloMosaic.TcCoe Idealize.ShloMosaic.ValueIdx
open Idealize.SL.Sem
open Cert.KernelIdeal Cert.KernelIdeal.Gen Cert.KernelIdeal.PayAt

variable (V : (c : Dev nD) → (b : Ref sig .tc) → Buf (Elt Ideal) ((c : Thread nD τ).loc b)) (c : Dev nD)

/-- Row r mod 400 of a block. -/
abbrev rowIn (r : Fin 10000) : Fin 400 := ⟨r.val % 400, Nat.mod_lt _ (by decide)⟩

/-- Row r mod 400 of block r / 400 of the adjacency matrix is its row r. -/
theorem adjBlk_row (r q : Fin 10000) : AdjBlk V c (r.val / 400) (ix2 (rowIn r) q) = Adj V c (ix2 r q) := by
  unfold AdjBlk
  refine congrArg (Adj V c) (funext fun a => ?_)
  match a with
  | ⟨0, _⟩ => exact Fin.ext (by show 400 * (r.val / 400 % 25) + r.val % 400 = r.val; have := r.isLt; omega)
  | ⟨1, _⟩ => rfl

/-- A [128] bias cast to [1, 128] reads, at (0, k), the bias at k. -/
theorem bias_at (B : Vec Ideal S1x128 .f32) (b : Vec Ideal S128 .f32) (hB : B = shapeCast S1x128 b shapeCasts_S128_S1x128)
    (k : Fin 128) : B (ix2 0 k) = b (ix1 k) := by
  rw [hB]
  exact shapeCast_a_1a_apply b shapeCasts_S128_S1x128 0 k

/-- The support is the features times the first weights. -/
theorem S1_eq : S1 V c = GcnSpec.s1 (Xf V c) (W1 V c) := by
  funext i
  obtain ⟨r, j, rfl⟩ : ∃ (r : Fin 10000) (j : Fin 128), i = ix2 r j := ⟨i 0, i 1, eq_ix2 i⟩
  rw [GcnSpec.s1_ix2]
  exact pay1_at (Xf V c) (W1 V c) r j

/-- The hidden product at an entry, through its block. -/
theorem H2_ix2 (r : Fin 10000) (j : Fin 128) :
    H2 V c (ix2 r j) = k0_pay3 (AdjBlk V c (r.val / 400)) (S1 V c) (B1 V c) (W2 V c) (ix2 (rowIn r) j) := by
  show k0_pay3 (AdjBlk V c (r.val / 400)) (S1 V c) (B1 V c) (W2 V c) _ = _
  refine congrArg (k0_pay3 (AdjBlk V c (r.val / 400)) (S1 V c) (B1 V c) (W2 V c)) (funext fun a => ?_)
  match a with
  | ⟨0, _⟩ => rfl
  | ⟨1, _⟩ => rfl

/-- The hidden product is the specification's. -/
theorem H2_eq (b1 : Vec Ideal S128 .f32) (hB1 : B1 V c = shapeCast S1x128 b1 shapeCasts_S128_S1x128) :
    H2 V c = GcnSpec.h2 (Adj V c) (Xf V c) (W1 V c) b1 (W2 V c) := by
  funext i
  obtain ⟨r, j, rfl⟩ : ∃ (r : Fin 10000) (j : Fin 128), i = ix2 r j := ⟨i 0, i 1, eq_ix2 i⟩
  rw [H2_ix2, GcnSpec.h2_ix2]
  refine (pay3_at _ _ _ _ (rowIn r) j).trans ?_
  refine Finset.sum_congr rfl fun k _ => ?_
  rw [bias_at (B1 V c) b1 hB1 k, S1_eq V c]
  refine congrArg (fun t => max (t + b1 (ix1 k)) 0 * W2 V c (ix2 k j)) ?_
  exact Finset.sum_congr rfl fun q _ => by rw [adjBlk_row]

/-- The staging buffer's index of row r mod 400. -/
theorem blkIdx_ix2 (r : Fin 10000) (j : Fin 128) : blkIdx (ix2 r j) = ix3 (0 : Fin 1) (rowIn r) j :=
  funext fun a => by
    match a with
    | ⟨0, _⟩ => rfl
    | ⟨1, _⟩ => rfl
    | ⟨2, _⟩ => rfl

/-- The result is the specification's. -/
theorem Res_eq (b1 b2 : Vec Ideal S128 .f32) (hB1 : B1 V c = shapeCast S1x128 b1 shapeCasts_S128_S1x128)
    (hB2 : B2 V c = shapeCast S1x128 b2 shapeCasts_S128_S1x128) :
    Res V c = GcnSpec.out (Adj V c) (Xf V c) (W1 V c) b1 (W2 V c) b2 := by
  funext i
  obtain ⟨r, j, rfl⟩ : ∃ (r : Fin 10000) (j : Fin 128), i = ix2 r j := ⟨i 0, i 1, eq_ix2 i⟩
  rw [GcnSpec.out_ix2]
  show k0_pay5 (AdjBlk V c (r.val / 400)) (H2 V c) (B2 V c) (blkIdx (ix2 r j)) = _
  rw [blkIdx_ix2]
  refine (pay5_at _ _ _ (rowIn r) j).trans ?_
  rw [bias_at (B2 V c) b2 hB2 j, H2_eq V c b1 hB1]
  refine congrArg (· + b2 (ix1 j)) ?_
  exact Finset.sum_congr rfl fun q _ => by rw [adjBlk_row]

/-- Plane 0 of the output array, the hidden product as phase 0 writes it, is the specification's too. -/
theorem Hid_eq (b1 : Vec Ideal S128 .f32) (hB1 : B1 V c = shapeCast S1x128 b1 shapeCasts_S128_S1x128) :
    Hid V c = GcnSpec.h2 (Adj V c) (Xf V c) (W1 V c) b1 (W2 V c) := by
  funext i
  obtain ⟨r, j, rfl⟩ : ∃ (r : Fin 10000) (j : Fin 128), i = ix2 r j := ⟨i 0, i 1, eq_ix2 i⟩
  rw [GcnSpec.h2_ix2]
  show k0_pay4 (AdjBlk V c (r.val / 400)) (S1 V c) (B1 V c) (W2 V c) (blkIdx (ix2 r j)) = _
  rw [blkIdx_ix2]
  refine (pay4_at _ _ _ _ (rowIn r) j).trans ?_
  refine Finset.sum_congr rfl fun k _ => ?_
  rw [bias_at (B1 V c) b1 hB1 k, S1_eq V c]
  refine congrArg (fun t => max (t + b1 (ix1 k)) 0 * W2 V c (ix2 k j)) ?_
  exact Finset.sum_congr rfl fun q _ => by rw [adjBlk_row]

end Cert.KernelIdeal.R0

end
-- ==== Proof.PayloadAt1.lean ====
/-
The second call's stored values at an index: the same terms as the first call's, so the same sums.
-/
import proofs.«103924_g73796128079920_cont_9to1c4b_223_14_alg».proof.Proof.PayloadAt

noncomputable section

open scoped BigOperators

namespace Cert.KernelIdeal.PayAt

open Cert.KernelIdeal Cert.KernelIdeal.Gen Idealize.ShloMosaic Idealize.ShloMosaic.ValueIdx

/-- The first stored value is x · w. -/
theorem k1_pay1_at (x : Vec Ideal S10000x128 .f32) (w : Vec Ideal S128x128 .f32) (r : Fin 10000) (j : Fin 128) :
    k1_pay1 (F := Ideal) x w (ix2 r j) = ∑ k : Fin 128, x (ix2 r k) * w (ix2 k j) :=
  (congrFun (congrFun (congrFun k1_pay1_eq x) w) (ix2 r j)).trans (pay1_at x w r j)

/-- relu (a · s + b) · w at an entry. -/
theorem k1_pay2_at (a : Vec Ideal S400x10000 .f32) (s : Vec Ideal S10000x128 .f32) (b : Vec Ideal S1x128 .f32) (w : Vec Ideal S128x128 .f32)
    (p : Fin 400) (j : Fin 128) :
    k1_pay2 (F := Ideal) a s b w (ix2 p j)
      = ∑ k : Fin 128, max ((∑ q : Fin 10000, a (ix2 p q) * s (ix2 q k)) + b (ix2 0 k)) 0 * w (ix2 k j) :=
  (congrFun (congrFun (congrFun (congrFun (congrFun k1_pay2_eq a) s) b) w) (ix2 p j)).trans (pay2_at a s b w p j)

/-- The second stored value in the scratch's layout. -/
theorem k1_pay3_at (a : Vec Ideal S400x10000 .f32) (s : Vec Ideal S10000x128 .f32) (b : Vec Ideal S1x128 .f32) (w : Vec Ideal S128x128 .f32)
    (p : Fin 400) (j : Fin 128) :
    k1_pay3 (F := Ideal) a s b w (ix2 p j)
      = ∑ k : Fin 128, max ((∑ q : Fin 10000, a (ix2 p q) * s (ix2 q k)) + b (ix2 0 k)) 0 * w (ix2 k j) :=
  (congrFun (congrFun (congrFun (congrFun (congrFun k1_pay3_eq a) s) b) w) (ix2 p j)).trans (pay3_at a s b w p j)

/-- The second stored value in the output block's layout. -/
theorem k1_pay4_at (a : Vec Ideal S400x10000 .f32) (s : Vec Ideal S10000x128 .f32) (b : Vec Ideal S1x128 .f32) (w : Vec Ideal S128x128 .f32)
    (p : Fin 400) (j : Fin 128) :
    k1_pay4 (F := Ideal) a s b w (ix3 0 p j)
      = ∑ k : Fin 128, max ((∑ q : Fin 10000, a (ix2 p q) * s (ix2 q k)) + b (ix2 0 k)) 0 * w (ix2 k j) :=
  (congrFun (congrFun (congrFun (congrFun (congrFun k1_pay4_eq a) s) b) w) (ix3 0 p j)).trans (pay4_at a s b w p j)

/-- The third stored value is a · h + b. -/
theorem k1_pay5_at (a : Vec Ideal S400x10000 .f32) (h : Vec Ideal S10000x128 .f32) (b : Vec Ideal S1x128 .f32) (p : Fin 400) (j : Fin 128) :
    k1_pay5 (F := Ideal) a h b (ix3 0 p j) = (∑ q : Fin 10000, a (ix2 p q) * h (ix2 q j)) + b (ix2 0 j) :=
  (congrFun (congrFun (congrFun (congrFun k1_pay5_eq a) h) b) (ix3 0 p j)).trans (pay5_at a h b p j)

end Cert.KernelIdeal.PayAt

end
-- ==== Proof.R1Value.lean ====
/-
Region 1's arrays are the specification's.

The region's values are stated block by block through the kernel's stored terms: the support is the first stored
value of the features and the first weights; row r of the hidden product is row r mod 400 of the second stored value of
the block r / 400 of the adjacency matrix; row r of the result is row r mod 400 of the third stored value of that block.
Read at an entry, each stored value is a sum over the contracted axis; block r / 400 at row r mod 400 is row r of the
adjacency matrix, because 400 · (r / 400) + r mod 400 = r and r / 400 < 25; and the [1, 128] bias the kernel reads is the
[128] bias of the arguments with a unit axis in front. So the three arrays are the specification's s1, h2 and out.
-/
import proofs.«103924_g73796128079920_cont_9to1c4b_223_14_alg».proof.Proof.R1Res
import proofs.«103924_g73796128079920_cont_9to1c4b_223_14_alg».proof.Proof.PayloadAt1
import proofs.«103924_g73796128079920_cont_9to1c4b_223_14_alg».proof.Proof.GcnSpec
import Idealize.ShloMosaic.Lib.ValueLayout

noncomputable section

open scoped BigOperators

namespace Cert.KernelIdeal.R1

open Idealize.ShloMosaic Idealize.ShloMosaic.TcCoe Idealize.ShloMosaic.ValueIdx
open Idealize.SL.Sem
open Cert.KernelIdeal Cert.KernelIdeal.Gen Cert.KernelIdeal.PayAt

variable (V : (c : Dev nD) → (b : Ref sig .tc) → Buf (Elt Ideal) ((c : Thread nD τ).loc b)) (c : Dev nD)

/-- Row r mod 400 of a block. -/
abbrev rowIn (r : Fin 10000) : Fin 400 := ⟨r.val % 400, Nat.mod_lt _ (by decide)⟩

/-- Row r mod 400 of block r / 400 of the adjacency matrix is its row r. -/
theorem adjBlk_row (r q : Fin 10000) : AdjBlk V c (r.val / 400) (ix2 (rowIn r) q) = Adj V c (ix2 r q) := by
  unfold AdjBlk
  refine congrArg (Adj V c) (funext fun a => ?_)
  match a with
  | ⟨0, _⟩ => exact Fin.ext (by show 400 * (r.val / 400 % 25) + r.val % 400 = r.val; have := r.isLt; omega)
  | ⟨1, _⟩ => rfl

/-- A [128] bias cast to [1, 128] reads, at (0, k), the bias at k. -/
theorem bias_at (B : Vec Ideal S1x128 .f32) (b : Vec Ideal S128 .f32) (hB : B = shapeCast S1x128 b shapeCasts_S128_S1x128)
    (k : Fin 128) : B (ix2 0 k) = b (ix1 k) := by
  rw [hB]
  exact shapeCast_a_1a_apply b shapeCasts_S128_S1x128 0 k

/-- The support is the features times the first weights. -/
theorem S1_eq : S1 V c = GcnSpec.s1 (Xf V c) (W1 V c) := by
  funext i
  obtain ⟨r, j, rfl⟩ : ∃ (r : Fin 10000) (j : Fin 128), i = ix2 r j := ⟨i 0, i 1, eq_ix2 i⟩
  rw [GcnSpec.s1_ix2]
  exact k1_pay1_at (Xf V c) (W1 V c) r j

/-- The hidden product at an entry, through its block. -/
theorem H2_ix2 (r : Fin 10000) (j : Fin 128) :
    H2 V c (ix2 r j) = k1_pay3 (AdjBlk V c (r.val / 400)) (S1 V c) (B1 V c) (W2 V c) (ix2 (rowIn r) j) := by
  show k1_pay3 (AdjBlk V c (r.val / 400)) (S1 V c) (B1 V c) (W2 V c) _ = _
  refine congrArg (k1_pay3 (AdjBlk V c (r.val / 400)) (S1 V c) (B1 V c) (W2 V c)) (funext fun a => ?_)
  match a with
  | ⟨0, _⟩ => rfl
  | ⟨1, _⟩ => rfl

/-- The hidden product is the specification's. -/
theorem H2_eq (b1 : Vec Ideal S128 .f32) (hB1 : B1 V c = shapeCast S1x128 b1 shapeCasts_S128_S1x128) :
    H2 V c = GcnSpec.h2 (Adj V c) (Xf V c) (W1 V c) b1 (W2 V c) := by
  funext i
  obtain ⟨r, j, rfl⟩ : ∃ (r : Fin 10000) (j : Fin 128), i = ix2 r j := ⟨i 0, i 1, eq_ix2 i⟩
  rw [H2_ix2, GcnSpec.h2_ix2]
  refine (k1_pay3_at _ _ _ _ (rowIn r) j).trans ?_
  refine Finset.sum_congr rfl fun k _ => ?_
  rw [bias_at (B1 V c) b1 hB1 k, S1_eq V c]
  refine congrArg (fun t => max (t + b1 (ix1 k)) 0 * W2 V c (ix2 k j)) ?_
  exact Finset.sum_congr rfl fun q _ => by rw [adjBlk_row]

/-- The staging buffer's index of row r mod 400. -/
theorem blkIdx_ix2 (r : Fin 10000) (j : Fin 128) : blkIdx (ix2 r j) = ix3 (0 : Fin 1) (rowIn r) j :=
  funext fun a => by
    match a with
    | ⟨0, _⟩ => rfl
    | ⟨1, _⟩ => rfl
    | ⟨2, _⟩ => rfl

/-- The result is the specification's. -/
theorem Res_eq (b1 b2 : Vec Ideal S128 .f32) (hB1 : B1 V c = shapeCast S1x128 b1 shapeCasts_S128_S1x128)
    (hB2 : B2 V c = shapeCast S1x128 b2 shapeCasts_S128_S1x128) :
    Res V c = GcnSpec.out (Adj V c) (Xf V c) (W1 V c) b1 (W2 V c) b2 := by
  funext i
  obtain ⟨r, j, rfl⟩ : ∃ (r : Fin 10000) (j : Fin 128), i = ix2 r j := ⟨i 0, i 1, eq_ix2 i⟩
  rw [GcnSpec.out_ix2]
  show k1_pay5 (AdjBlk V c (r.val / 400)) (H2 V c) (B2 V c) (blkIdx (ix2 r j)) = _
  rw [blkIdx_ix2]
  refine (k1_pay5_at _ _ _ (rowIn r) j).trans ?_
  rw [bias_at (B2 V c) b2 hB2 j, H2_eq V c b1 hB1]
  refine congrArg (· + b2 (ix1 j)) ?_
  exact Finset.sum_congr rfl fun q _ => by rw [adjBlk_row]

/-- Plane 0 of the output array, the hidden product as phase 0 writes it, is the specification's too. -/
theorem Hid_eq (b1 : Vec Ideal S128 .f32) (hB1 : B1 V c = shapeCast S1x128 b1 shapeCasts_S128_S1x128) :
    Hid V c = GcnSpec.h2 (Adj V c) (Xf V c) (W1 V c) b1 (W2 V c) := by
  funext i
  obtain ⟨r, j, rfl⟩ : ∃ (r : Fin 10000) (j : Fin 128), i = ix2 r j := ⟨i 0, i 1, eq_ix2 i⟩
  rw [GcnSpec.h2_ix2]
  show k1_pay4 (AdjBlk V c (r.val / 400)) (S1 V c) (B1 V c) (W2 V c) (blkIdx (ix2 r j)) = _
  rw [blkIdx_ix2]
  refine (k1_pay4_at _ _ _ _ (rowIn r) j).trans ?_
  refine Finset.sum_congr rfl fun k _ => ?_
  rw [bias_at (B1 V c) b1 hB1 k, S1_eq V c]
  refine congrArg (fun t => max (t + b1 (ix1 k)) 0 * W2 V c (ix2 k j)) ?_
  exact Finset.sum_congr rfl fun q _ => by rw [adjBlk_row]

end Cert.KernelIdeal.R1

end
-- ==== Proof.Claims.lean ====
/-
The certificate's claims, assembled.

Both programs compute, for each of two graphs, adj · (relu (adj · (x · w1) + b1) · w2) + b2 with the products grouped as
written. The kernel's two results are, after its last host operations, plane 1 of each region's output array sliced off
and read as a matrix; each region's output array is what its write-backs leave, and plane 1 of it is, row block by row
block, the third stored value, which entry by entry is the specification `GcnSpec.out` of the region's arguments; the
arguments the regions find are the launch memory's, the two biases with a unit axis in front. The reference's two results
are the same specification of its own arguments, which agree with the kernel's. The argument arrays end unchanged in
both because neither program writes them.
-/
import proofs.«103924_g73796128079920_cont_9to1c4b_223_14_alg».proof.Defs
import proofs.«103924_g73796128079920_cont_9to1c4b_223_14_alg».proof.Proof.Gen.Pre_finite_inputs
import proofs.«103924_g73796128079920_cont_9to1c4b_223_14_alg».proof.Proof.Gen.ReferenceIdeal.Run
import proofs.«103924_g73796128079920_cont_9to1c4b_223_14_alg».proof.Proof.Gen.ReferenceIdeal.Read
import proofs.«103924_g73796128079920_cont_9to1c4b_223_14_alg».proof.Proof.GcnSpec
import proofs.«103924_g73796128079920_cont_9to1c4b_223_14_alg».proof.Proof.RefIsSpec
import proofs.«103924_g73796128079920_cont_9to1c4b_223_14_alg».proof.Proof.Run
import proofs.«103924_g73796128079920_cont_9to1c4b_223_14_alg».proof.Proof.R0Final
import proofs.«103924_g73796128079920_cont_9to1c4b_223_14_alg».proof.Proof.R1Final
import proofs.«103924_g73796128079920_cont_9to1c4b_223_14_alg».proof.Proof.R0Value
import proofs.«103924_g73796128079920_cont_9to1c4b_223_14_alg».proof.Proof.R1Value

noncomputable section

namespace Cert.Proof.Claims

open Idealize.ShloMosaic Idealize.ShloMosaic.TcCoe Idealize.SL.Sem

/-! ## The kernel's results are the specification of its arguments -/

section KernelSide

open Cert.KernelIdeal Cert.KernelIdeal.Gen Cert.KernelIdeal.Run

variable (m : (ℓ : Loc nD τ sig) → Buf (Elt Ideal) ℓ)

/-- The specification of the first graph's arguments as the launch memory holds them. -/
def G0 (c : Dev nD) : Buf (Elt Ideal) ((c.tc : Thread nD τ).loc main_v4) :=
  GcnSpec.out (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7))

/-- The specification of the second graph's arguments as the launch memory holds them. -/
def G1 (c : Dev nD) : Buf (Elt Ideal) ((c.tc : Thread nD τ).loc main_v9) :=
  GcnSpec.out (m ((c.tc : Thread nD τ).loc main_arg2)) (m ((c.tc : Thread nD τ).loc main_arg3)) (m ((c.tc : Thread nD τ).loc main_arg8)) (m ((c.tc : Thread nD τ).loc main_arg9)) (m ((c.tc : Thread nD τ).loc main_arg10)) (m ((c.tc : Thread nD τ).loc main_arg11))

/-- The first result is the first region's result array: plane 1 of its output array, as a matrix. -/
theorem v4_res (c : Dev nD) : W5 m c (Proc.devRef .tc main_v4) = R0.Res (V1 m) c :=
  (W5_main_v4 m c).trans
    ((congrArg (fun x => shapeCast S10000x128 (extractStridedSlice S1x10000x128 ![1, 0, 0] x slices_S2x10000x128_S1x10000x128_1_0_0) shapeCasts_S1x10000x128_S10000x128) (R0.arr_final (V1 m) c)).trans
      (funext fun i => R0.res_of_slice (V1 m) c i))

/-- The second result is the second region's result array. -/
theorem v9_res (c : Dev nD) : W5 m c (Proc.devRef .tc main_v9) = R1.Res (V3 m) c :=
  (W5_main_v9 m c).trans
    ((congrArg (fun x => shapeCast S10000x128 (extractStridedSlice S1x10000x128 ![1, 0, 0] x slices_S2x10000x128_S1x10000x128_1_0_0) shapeCasts_S1x10000x128_S10000x128) (R1.arr_final (V3 m) c)).trans
      (funext fun i => R1.res_of_slice (V3 m) c i))

/-- The first region's result array is the specification of the launch memory's arguments. -/
theorem res0_spec (c : Dev nD) : R0.Res (V1 m) c = G0 m c := by
  have e0 : R0.Adj (V1 m) c = m ((c.tc : Thread nD τ).loc main_arg0) := V1_main_arg0 m c
  have e1 : R0.Xf (V1 m) c = m ((c.tc : Thread nD τ).loc main_arg1) := V1_main_arg1 m c
  have e4 : R0.W1 (V1 m) c = m ((c.tc : Thread nD τ).loc main_arg4) := V1_main_arg4 m c
  have e6 : R0.W2 (V1 m) c = m ((c.tc : Thread nD τ).loc main_arg6) := V1_main_arg6 m c
  refine (R0.Res_eq (V1 m) c (m ((c.tc : Thread nD τ).loc main_arg5)) (m ((c.tc : Thread nD τ).loc main_arg7))
    (V1_main_v0 m c) (V1_main_v1 m c)).trans ?_
  rw [e0, e1, e4, e6]
  rfl

/-- The second region's result array is the specification of the launch memory's arguments. -/
theorem res1_spec (c : Dev nD) : R1.Res (V3 m) c = G1 m c := by
  have e0 : R1.Adj (V3 m) c = m ((c.tc : Thread nD τ).loc main_arg2) := V3_main_arg2 m c
  have e1 : R1.Xf (V3 m) c = m ((c.tc : Thread nD τ).loc main_arg3) := V3_main_arg3 m c
  have e4 : R1.W1 (V3 m) c = m ((c.tc : Thread nD τ).loc main_arg8) := V3_main_arg8 m c
  have e6 : R1.W2 (V3 m) c = m ((c.tc : Thread nD τ).loc main_arg10) := V3_main_arg10 m c
  refine (R1.Res_eq (V3 m) c (m ((c.tc : Thread nD τ).loc main_arg9)) (m ((c.tc : Thread nD τ).loc main_arg11))
    (V3_main_v5 m c) (V3_main_v6 m c)).trans ?_
  rw [e0, e1, e4, e6]
  rfl

theorem kernel_v4 (c : Dev nD) : W5 m c (Proc.devRef .tc main_v4) = G0 m c := (v4_res m c).trans (res0_spec m c)
theorem kernel_v9 (c : Dev nD) : W5 m c (Proc.devRef .tc main_v9) = G1 m c := (v9_res m c).trans (res1_spec m c)

/-- The kernel runs, its two results end at the specification of its arguments, and its arguments end unchanged. -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v4) = G0 m c
      ∧ r.2.mem ((c.tc : Thread nD τ).loc main_v9) = G1 m c
      ∧ r.2.mem ((c.tc : Thread nD τ).loc main_v4) = G0 m c
      ∧ r.2.mem ((c.tc : Thread nD τ).loc main_v9) = G1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_v4 (by decide))).trans (kernel_v4 m c),
      (h c _ (mem_uc main_v9 (by decide))).trans (kernel_v9 m c),
      (h c _ (mem_uc main_v4 (by decide))).trans (kernel_v4 m c),
      (h c _ (mem_uc main_v9 (by decide))).trans (kernel_v9 m c),
      (h c _ (mem_uc main_arg0 (by decide))).trans (W5_main_arg0 m c),
      (h c _ (mem_uc main_arg1 (by decide))).trans (W5_main_arg1 m c),
      (h c _ (mem_uc main_arg2 (by decide))).trans (W5_main_arg2 m c),
      (h c _ (mem_uc main_arg3 (by decide))).trans (W5_main_arg3 m c),
      (h c _ (mem_uc main_arg4 (by decide))).trans (W5_main_arg4 m c),
      (h c _ (mem_uc main_arg5 (by decide))).trans (W5_main_arg5 m c),
      (h c _ (mem_uc main_arg6 (by decide))).trans (W5_main_arg6 m c),
      (h c _ (mem_uc main_arg7 (by decide))).trans (W5_main_arg7 m c),
      (h c _ (mem_uc main_arg8 (by decide))).trans (W5_main_arg8 m c),
      (h c _ (mem_uc main_arg9 (by decide))).trans (W5_main_arg9 m c),
      (h c _ (mem_uc main_arg10 (by decide))).trans (W5_main_arg10 m c),
      (h c _ (mem_uc main_arg11 (by decide))).trans (W5_main_arg11 m c)⟩) (run_all (F := Ideal) m ρ)

end KernelSide

/-! ## The reference's results are the specification of its arguments -/

section ReferenceSide

variable (m' : (ℓ : Loc Cert.ReferenceIdeal.nD Cert.ReferenceIdeal.τ Cert.ReferenceIdeal.sig) → Buf (Elt Ideal) ℓ)

/-- The first result's term, as the reference's run states it, is the specification of the reference's arguments. -/
theorem ref_v10 (c : Dev Cert.ReferenceIdeal.nD) :
    Cert.ReferenceIdeal.Read.val_main_v10 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))
      = GcnSpec.out (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) :=
  Cert.RefIsSpec.ref_out0 _ _ _ _ _ _

theorem ref_v21 (c : Dev Cert.ReferenceIdeal.nD) :
    Cert.ReferenceIdeal.Read.val_main_v21 (F := Ideal) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11))
      = GcnSpec.out (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) :=
  Cert.RefIsSpec.ref_out1 _ _ _ _ _ _

end ReferenceSide

/-! ## The claims -/

theorem frame_pi : Cert.frame_KernelIdeal := fun m ρ _ => Cert.KernelIdeal.Run.frame m ρ

theorem frame_ri : Cert.frame_ReferenceIdeal := fun m ρ _ =>
  (θ_run Cert.ReferenceIdeal.defs _ _).mono (fun _ h c => (h c).2.2.2.2) (Cert.ReferenceIdeal.Value.run (F := Ideal) m ρ)

theorem preserves : Cert.preserves_Kernel_KernelIdeal := trivial

/-- From memories that agree on the arguments both programs run, end with the specification of those arguments in
    their results, and leave the arguments unchanged. -/
theorem algebraic : Cert.algebraic_KernelIdeal_ReferenceIdeal := by
  intro m ρ m' ρ' _ hagree
  refine ⟨G0 m, G1 m, G0 m, G1 m, kernel_run m ρ, ?_⟩
  have r0 : ∀ c : Dev Cert.KernelIdeal.nD, GcnSpec.out (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) = G0 m c := fun c => by
    rw [(hagree c).1, (hagree c).2.1, (hagree c).2.2.2.2.1, (hagree c).2.2.2.2.2.1, (hagree c).2.2.2.2.2.2.1, (hagree c).2.2.2.2.2.2.2.1]
    rfl
  have r1 : ∀ c : Dev Cert.KernelIdeal.nD, GcnSpec.out (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) = G1 m c := fun c => by
    rw [(hagree c).2.2.1, (hagree c).2.2.2.1, (hagree c).2.2.2.2.2.2.2.2.1, (hagree c).2.2.2.2.2.2.2.2.2.1, (hagree c).2.2.2.2.2.2.2.2.2.2.1, (hagree c).2.2.2.2.2.2.2.2.2.2.2]
    rfl
  refine (θ_run Cert.ReferenceIdeal.defs _ _).mono (fun _ h c =>
    ⟨(h c).1.trans ((Cert.ReferenceIdeal.Read.val_main_v10_eq _ _ _ _ _ _).trans ((ref_v10 m' c).trans (r0 c))),
      (h c).2.1.trans ((Cert.ReferenceIdeal.Read.val_main_v21_eq _ _ _ _ _ _).trans ((ref_v21 m' c).trans (r1 c))),
      (h c).2.2.1.trans ((Cert.ReferenceIdeal.Read.val_main_v10_eq _ _ _ _ _ _).trans ((ref_v10 m' c).trans (r0 c))),
      (h c).2.2.2.1.trans ((Cert.ReferenceIdeal.Read.val_main_v21_eq _ _ _ _ _ _).trans ((ref_v21 m' c).trans (r1 c))),
      (h c).2.2.2.2⟩) (Cert.ReferenceIdeal.Value.run (F := Ideal) m' ρ')

end Cert.Proof.Claims

end
-- ==== Proof.lean ====
/- Two graphs, one computation each: out = adj · (relu (adj · (x · W1) + b1) · W2) + b2, over 10000 nodes and 128 features,
   every product grouped as written. The reference applies these operations to whole arrays. The kernel does the same
   operations in the same grouping and only cuts adj into 25 blocks of 400 rows: it stores x · W1 whole in one scratch
   buffer, then block by block stores relu (block · (x · W1) + b1) · W2 into the matching rows of a second scratch buffer,
   then block by block writes block · (second scratch) + b2 to the matching rows of the result.
   At the ideal instance (floats are extended reals, every operation exact) entry (r, j) of a matrix product is a sum
   over the contracted axis that reads row r of the left factor and nothing else of it. So a block of rows of adj times
   a matrix is that block of rows of adj times the matrix, and block by block the kernel writes the reference's rows:
   both results are the one function GcnSpec.out of the arguments, entry by entry. No reassociation, no
   distributivity, no finiteness of any value is used. The frame claims hold because no program writes an argument. -/
import proofs.«103924_g73796128079920_cont_9to1c4b_223_14_alg».proof.Defs
import proofs.«103924_g73796128079920_cont_9to1c4b_223_14_alg».proof.Proof.Gen.Kernel
import proofs.«103924_g73796128079920_cont_9to1c4b_223_14_alg».proof.Proof.Gen.Kernel.Skeleton
import proofs.«103924_g73796128079920_cont_9to1c4b_223_14_alg».proof.Proof.Gen.Kernel.Launch
import proofs.«103924_g73796128079920_cont_9to1c4b_223_14_alg».proof.Proof.Gen.Kernel.Regions
import proofs.«103924_g73796128079920_cont_9to1c4b_223_14_alg».proof.Proof.Gen.Kernel.Points
import proofs.«103924_g73796128079920_cont_9to1c4b_223_14_alg».proof.Proof.Gen.KernelIdeal
import proofs.«103924_g73796128079920_cont_9to1c4b_223_14_alg».proof.Proof.Gen.KernelIdeal.Skeleton
import proofs.«103924_g73796128079920_cont_9to1c4b_223_14_alg».proof.Proof.Gen.KernelIdeal.Launch
import proofs.«103924_g73796128079920_cont_9to1c4b_223_14_alg».proof.Proof.Gen.KernelIdeal.Regions
import proofs.«103924_g73796128079920_cont_9to1c4b_223_14_alg».proof.Proof.Gen.KernelIdeal.Points
import proofs.«103924_g73796128079920_cont_9to1c4b_223_14_alg».proof.Proof.Gen.ReferenceIdeal
import proofs.«103924_g73796128079920_cont_9to1c4b_223_14_alg».proof.Proof.Gen.Pre_finite_inputs
import proofs.«103924_g73796128079920_cont_9to1c4b_223_14_alg».proof.Proof.Gen.ReferenceIdeal.Run
import proofs.«103924_g73796128079920_cont_9to1c4b_223_14_alg».proof.Proof.Gen.ReferenceIdeal.Read
import proofs.«103924_g73796128079920_cont_9to1c4b_223_14_alg».proof.Proof.ClaimsK
import proofs.«103924_g73796128079920_cont_9to1c4b_223_14_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts, Claims.frame_p, Claims.frame_pi, Claims.frame_ri, Claims.preserves, Claims.algebraic⟩

end Cert.Proof

end
